-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x640000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S_ : Shape := ⟨0, ![]⟩
abbrev S100000 : Shape := ⟨1, ![100000]⟩
abbrev S640000x1 : Shape := ⟨2, ![640000, 1]⟩
abbrev S5000x128 : Shape := ⟨2, ![5000, 128]⟩
abbrev S640000x128 : Shape := ⟨2, ![640000, 128]⟩
abbrev S100000x1 : Shape := ⟨2, ![100000, 1]⟩
abbrev S1x128 : Shape := ⟨2, ![1, 128]⟩
abbrev S100000x64 : Shape := ⟨2, ![100000, 64]⟩
abbrev S5000x64 : Shape := ⟨2, ![5000, 64]⟩
abbrev S640000x64 : Shape := ⟨2, ![640000, 64]⟩
abbrev S1x64 : Shape := ⟨2, ![1, 64]⟩
abbrev S5000 : Shape := ⟨1, ![5000]⟩
abbrev S5000x1 : Shape := ⟨2, ![5000, 1]⟩

abbrev nBuf : Space → Nat
  | .hbm => 89
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S_, .f32⟩
  | .hbm, ⟨11, _⟩ => ⟨S640000, .f32⟩
  | .hbm, ⟨12, _⟩ => ⟨S_, .f32⟩
  | .hbm, ⟨13, _⟩ => ⟨S100000, .f32⟩
  | .hbm, ⟨14, _⟩ => ⟨S640000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S640000, .i32⟩
  | .hbm, ⟨22, _⟩ => ⟨S640000, .i1⟩
  | .hbm, ⟨23, _⟩ => ⟨S_, .i32⟩
  | .hbm, ⟨24, _⟩ => ⟨S640000, .i32⟩
  | .hbm, ⟨25, _⟩ => ⟨S640000, .i32⟩
  | .hbm, ⟨26, _⟩ => ⟨S640000, .i32⟩
  | .hbm, ⟨27, _⟩ => ⟨S640000x1, .i32⟩
  | .hbm, ⟨28, _⟩ => ⟨S640000, .f32⟩
  | .hbm, ⟨29, _⟩ => ⟨S_, .i32⟩
  | .hbm, ⟨30, _⟩ => ⟨S640000, .i32⟩
  | .hbm, ⟨31, _⟩ => ⟨S640000, .i1⟩
  | .hbm, ⟨32, _⟩ => ⟨S_, .i32⟩
  | .hbm, ⟨33, _⟩ => ⟨S640000, .i32⟩
  | .hbm, ⟨34, _⟩ => ⟨S640000, .i32⟩
  | .hbm, ⟨35, _⟩ => ⟨S640000, .i32⟩
  | .hbm, ⟨36, _⟩ => ⟨S640000x1, .i32⟩
  | .hbm, ⟨37, _⟩ => ⟨S640000, .f32⟩
  | .hbm, ⟨38, _⟩ => ⟨S640000, .f32⟩
  | .hbm, ⟨39, _⟩ => ⟨S100000, .f32⟩
  | .hbm, ⟨40, _⟩ => ⟨S100000x128, .bf16⟩
  | .hbm, ⟨41, _⟩ => ⟨S_, .i32⟩
  | .hbm, ⟨42, _⟩ => ⟨S640000, .i32⟩
  | .hbm, ⟨43, _⟩ => ⟨S640000, .i1⟩
  | .hbm, ⟨44, _⟩ => ⟨S_, .i32⟩
  | .hbm, ⟨45, _⟩ => ⟨S640000, .i32⟩
  | .hbm, ⟨46, _⟩ => ⟨S640000, .i32⟩
  | .hbm, ⟨47, _⟩ => ⟨S640000, .i32⟩
  | .hbm, ⟨48, _⟩ => ⟨S640000x1, .i32⟩
  | .hbm, ⟨49, _⟩ => ⟨S640000x128, .bf16⟩
  | .hbm, ⟨50, _⟩ => ⟨S640000x128, .f32⟩
  | .hbm, ⟨51, _⟩ => ⟨S640000x1, .f32⟩
  | .hbm, ⟨52, _⟩ => ⟨S640000x128, .f32⟩
  | .hbm, ⟨53, _⟩ => ⟨S640000x128, .f32⟩
  | .hbm, ⟨54, _⟩ => ⟨S_, .f32⟩
  | .hbm, ⟨55, _⟩ => ⟨S100000x128, .f32⟩
  | .hbm, ⟨56, _⟩ => ⟨S640000x1, .i32⟩
  | .hbm, ⟨57, _⟩ => ⟨S100000x128, .f32⟩
  | .hbm, ⟨58, _⟩ => ⟨S100000x1, .f32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S1x128, .f32⟩
  | .hbm, ⟨64, _⟩ => ⟨S100000x64, .bf16⟩
  | .hbm, ⟨65, _⟩ => ⟨S_, .i32⟩
  | .hbm, ⟨66, _⟩ => ⟨S640000, .i32⟩
  | .hbm, ⟨67, _⟩ => ⟨S640000, .i1⟩
  | .hbm, ⟨68, _⟩ => ⟨S_, .i32⟩
  | .hbm, ⟨69, _⟩ => ⟨S640000, .i32⟩
  | .hbm, ⟨70, _⟩ => ⟨S640000, .i32⟩
  | .hbm, ⟨71, _⟩ => ⟨S640000, .i32⟩
  | .hbm, ⟨72, _⟩ => ⟨S640000x1, .i32⟩
  | .hbm, ⟨73, _⟩ => ⟨S640000x64, .bf16⟩
  | .hbm, ⟨74, _⟩ => ⟨S640000x64, .f32⟩
  | .hbm, ⟨75, _⟩ => ⟨S640000x1, .f32⟩
  | .hbm, ⟨76, _⟩ => ⟨S640000x64, .f32⟩
  | .hbm, ⟨77, _⟩ => ⟨S640000x64, .f32⟩
  | .hbm, ⟨78, _⟩ => ⟨S_, .f32⟩
  | .hbm, ⟨79, _⟩ => ⟨S100000x64, .f32⟩
  | .hbm, ⟨80, _⟩ => ⟨S640000x1, .i32⟩
  | .hbm, ⟨81, _⟩ => ⟨S100000x64, .f32⟩
  | .hbm, ⟨82, _⟩ => ⟨S100000x1, .f32⟩
  | .hbm, ⟨83, _⟩ => ⟨S100000x64, .f32⟩
  | .hbm, ⟨84, _⟩ => ⟨S100000x64, .f32⟩
  | .hbm, ⟨85, _⟩ => ⟨S100000x64, .f32⟩
  | .hbm, ⟨86, _⟩ => ⟨S100000x64, .f32⟩
  | .hbm, ⟨87, _⟩ => ⟨S1x64, .f32⟩
  | .hbm, ⟨88, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .bf16⟩
  | .local _ .vmem, ⟨4, _⟩ => ⟨S5000x128, .bf16⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x64, .f32⟩
  | .local _ .vmem, ⟨9, _⟩ => ⟨S5000x64, .bf16⟩
  | .local _ .vmem, ⟨10, _⟩ => ⟨S5000x64, .bf16⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_8 : Ref sig .tc := ⟨.hbm, 65, rfl⟩
abbrev main_v49 : Ref sig .tc := ⟨.hbm, 66, rfl⟩
abbrev main_v50 : Ref sig .tc := ⟨.hbm, 67, rfl⟩
abbrev main_c_9 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_10 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S5000x128_S5000x128_0_0 : (Rect.unit (s := S5000x128) ![0, 0] S5000x128.size inb_S5000x128_S5000x128_0_0).PackedRows (EltTy.packing .bf16)
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S640000x1_S640000x64_0_1 : S640000x1.BroadcastsInDim S640000x64 (![0, 1] : Fin 2 → Fin S640000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  scatter_S100000_S640000x1_S640000_n_0_0_1_wf : ScatterDims.WF S100000 S640000x1 S640000 [] [0] [0] 1
  gather_S100000_S640000x1_S640000_n_0_n_n_0_1_1_wf : GatherDims.WF S100000 S640000x1 S640000 [] [0] [] [0] [] 1 ![1]
  dot_S5000x128_S128x128_S5000x128_1_0_0_1_n_n_wf : DotDims.WF S5000x128 S128x128 S5000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S5000x128_S128x64_S5000x64_1_0_0_1_n_n_wf : DotDims.WF S5000x128 S128x64 S5000x64 [1] [0] [0] [1] [] []
  gather_S100000x64_S640000x1_S640000x64_1_0_n_n_0_1_164_wf : GatherDims.WF S100000x64 S640000x1 S640000x64 [1] [0] [] [0] [] 1 ![1, 64]
  scatter_S100000x64_S640000x1_S640000x64_1_0_0_1_wf : ScatterDims.WF S100000x64 S640000x1 S640000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .bf16 = 32 ∨ (Rect.block (s := S100000x128) S5000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .bf16 = 32 ∨ (Rect.block (s := S100000x64) S5000x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000_S640000x1_S640000_n_0_n_n_0_1_1 : GatherDims S100000 S640000x1 S640000 where
  offsetDims := []
  collapsedSliceDims := [0]
  operandBatchingDims := []
  startIndicesBatchingDims := []
  startIndexMap := [0]
  indexVectorDim := 1
  sliceSizes := ![1]
  wf := gather_S100000_S640000x1_S640000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S640000x1_S640000x64_1_0_n_n_0_1_164 : GatherDims S100000x64 S640000x1 S640000x64 where
  offsetDims := [1]
  collapsedSliceDims := [0]
  operandBatchingDims := []
  startIndicesBatchingDims := []
  startIndexMap := [0]
  indexVectorDim := 1
  sliceSizes := ![1, 64]
  wf := gather_S100000x64_S640000x1_S640000x64_1_0_n_n_0_1_164_wf
def scatter_S100000x64_S640000x1_S640000x64_1_0_0_1 : ScatterDims S100000x64 S640000x1 S640000x64 where
  updateWindowDims := [1]
  insertedWindowDims := [0]
  scatterDimsToOperandDims := [0]
  indexVectorDim := 1
  wf := scatter_S100000x64_S640000x1_S640000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v67) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v68) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v69) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S740000x128 : Shape := ⟨2, ![740000, 128]⟩
abbrev S1x128 : Shape := ⟨2, ![1, 128]⟩
abbrev S100000x64 : Shape := ⟨2, ![100000, 64]⟩
abbrev S740000x64 : Shape := ⟨2, ![740000, 64]⟩
abbrev S1x64 : Shape := ⟨2, ![1, 64]⟩
abbrev S100000x1 : Shape := ⟨2, ![100000, 1]⟩

abbrev nBuf : Space → Nat
  | .hbm => 142
  | .vmem => 0
  | .smem => 0
  | _ => 0

abbrev hbmTy0_0 (i : Nat) : BufTy := match i % 128 with
  | 0 => ⟨S100000x128, .f32⟩
  | 1 => ⟨S2x640000, .i32⟩
  | 2 => ⟨S128x128, .f32⟩
  | 3 => ⟨S128, .f32⟩
  | 4 => ⟨S128x64, .f32⟩
  | 5 => ⟨S64, .f32⟩
  | 6 => ⟨S100000x128, .f32⟩
  | 7 => ⟨S100000, .i32⟩
  | 8 => ⟨S1x640000, .i32⟩
  | 9 => ⟨S640000, .i32⟩
  | 10 => ⟨S740000, .i32⟩
  | 11 => ⟨S1x640000, .i32⟩
  | 12 => ⟨S640000, .i32⟩
  | 13 => ⟨S740000, .i32⟩
  | 14 => ⟨S_, .f32⟩
  | 15 => ⟨S740000, .f32⟩
  | 16 => ⟨S_, .f32⟩
  | 17 => ⟨S100000, .f32⟩
  | 18 => ⟨S740000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S100000, .f32⟩
  | 26 => ⟨S100000, .f32⟩
  | 27 => ⟨S_, .i32⟩
  | 28 => ⟨S740000, .i32⟩
  | 29 => ⟨S740000, .i1⟩
  | 30 => ⟨S_, .i32⟩
  | 31 => ⟨S740000, .i32⟩
  | 32 => ⟨S740000, .i32⟩
  | 33 => ⟨S740000, .i32⟩
  | 34 => ⟨S740000x1, .i32⟩
  | 35 => ⟨S740000, .f32⟩
  | 36 => ⟨S_, .i32⟩
  | 37 => ⟨S740000, .i32⟩
  | 38 => ⟨S740000, .i1⟩
  | 39 => ⟨S_, .i32⟩
  | 40 => ⟨S740000, .i32⟩
  | 41 => ⟨S740000, .i32⟩
  | 42 => ⟨S740000, .i32⟩
  | 43 => ⟨S740000x1, .i32⟩
  | 44 => ⟨S740000, .f32⟩
  | 45 => ⟨S740000, .f32⟩
  | 46 => ⟨S_, .i32⟩
  | 47 => ⟨S740000, .i32⟩
  | 48 => ⟨S740000, .i1⟩
  | 49 => ⟨S_, .i32⟩
  | 50 => ⟨S740000, .i32⟩
  | 51 => ⟨S740000, .i32⟩
  | 52 => ⟨S740000, .i32⟩
  | 53 => ⟨S740000x1, .i32⟩
  | 54 => ⟨S740000x128, .f32⟩
  | 55 => ⟨S740000x1, .f32⟩
  | 56 => ⟨S740000x128, .f32⟩
  | 57 => ⟨S740000x128, .f32⟩
  | 58 => ⟨S_, .f32⟩
  | 59 => ⟨S100000x128, .f32⟩
  | 60 => ⟨S740000x1, .i32⟩
  | 61 => ⟨S100000x128, .f32⟩
  | 62 => ⟨S1x128, .f32⟩
  | 63 => ⟨S100000x128, .f32⟩
  | 64 => ⟨S100000x128, .f32⟩
  | 65 => ⟨S_, .f32⟩
  | 66 => ⟨S100000x128, .f32⟩
  | 67 => ⟨S100000x128, .f32⟩
  | 68 => ⟨S100000x64, .f32⟩
  | 69 => ⟨S100000, .i32⟩
  | 70 => ⟨S1x640000, .i32⟩
  | 71 => ⟨S640000, .i32⟩
  | 72 => ⟨S740000, .i32⟩
  | 73 => ⟨S1x640000, .i32⟩
  | 74 => ⟨S640000, .i32⟩
  | 75 => ⟨S740000, .i32⟩
  | 76 => ⟨S_, .f32⟩
  | 77 => ⟨S740000, .f32⟩
  | 78 => ⟨S_, .f32⟩
  | 79 => ⟨S100000, .f32⟩
  | 80 => ⟨S740000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S100000, .f32⟩
  | 88 => ⟨S100000, .f32⟩
  | 89 => ⟨S_, .i32⟩
  | 90 => ⟨S740000, .i32⟩
  | 91 => ⟨S740000, .i1⟩
  | 92 => ⟨S_, .i32⟩
  | 93 => ⟨S740000, .i32⟩
  | 94 => ⟨S740000, .i32⟩
  | 95 => ⟨S740000, .i32⟩
  | 96 => ⟨S740000x1, .i32⟩
  | 97 => ⟨S740000, .f32⟩
  | 98 => ⟨S_, .i32⟩
  | 99 => ⟨S740000, .i32⟩
  | 100 => ⟨S740000, .i1⟩
  | 101 => ⟨S_, .i32⟩
  | 102 => ⟨S740000, .i32⟩
  | 103 => ⟨S740000, .i32⟩
  | 104 => ⟨S740000, .i32⟩
  | 105 => ⟨S740000x1, .i32⟩
  | 106 => ⟨S740000, .f32⟩
  | 107 => ⟨S740000, .f32⟩
  | 108 => ⟨S_, .i32⟩
  | 109 => ⟨S740000, .i32⟩
  | 110 => ⟨S740000, .i1⟩
  | 111 => ⟨S_, .i32⟩
  | 112 => ⟨S740000, .i32⟩
  | 113 => ⟨S740000, .i32⟩
  | 114 => ⟨S740000, .i32⟩
  | 115 => ⟨S740000x1, .i32⟩
  | 116 => ⟨S740000x64, .f32⟩
  | 117 => ⟨S740000x1, .f32⟩
  | 118 => ⟨S740000x64, .f32⟩
  | 119 => ⟨S740000x64, .f32⟩
  | 120 => ⟨S_, .f32⟩
  | 121 => ⟨S100000x64, .f32⟩
  | 122 => ⟨S740000x1, .i32⟩
  | 123 => ⟨S100000x64, .f32⟩
  | 124 => ⟨S1x64, .f32⟩
  | 125 => ⟨S100000x64, .f32⟩
  | 126 => ⟨S100000x64, .f32⟩
  | 127 => ⟨S_, .f32⟩
  | _ => ⟨S100000x128, .f32⟩

abbrev hbmTy0_1 (i : Nat) : BufTy := match i % 128 with
  | 0 => ⟨S100000, .f32⟩
  | 1 => ⟨S_, .f32⟩
  | 2 => ⟨S100000, .f32⟩
  | 3 => ⟨S100000, .f32⟩
  | 4 => ⟨S100000x1, .f32⟩
  | 5 => ⟨S100000x64, .f32⟩
  | 6 => ⟨S100000x64, .f32⟩
  | 7 => ⟨S100000x64, .f32⟩
  | 8 => ⟨S_, .f32⟩
  | 9 => ⟨S100000, .f32⟩
  | 10 => ⟨S100000x1, .f32⟩
  | 11 => ⟨S100000x1, .f32⟩
  | 12 => ⟨S100000x64, .f32⟩
  | 13 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call1_cst : Ref sig .tc := ⟨.hbm, 65, rfl⟩
abbrev main_call1_v0 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_9 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_11 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_12 : Ref sig .tc := ⟨.hbm, 86, rfl⟩
abbrev main_v64 : Ref sig .tc := ⟨.hbm, 87, rfl⟩
abbrev main_v65 : Ref sig .tc := ⟨.hbm, 88, rfl⟩
abbrev main_c_13 : Ref sig .tc := ⟨.hbm, 89, rfl⟩
abbrev main_v66 : Ref sig .tc := ⟨.hbm, 90, rfl⟩
abbrev main_v67 : Ref sig .tc := ⟨.hbm, 91, rfl⟩
abbrev main_c_14 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_15 : Ref sig .tc := ⟨.hbm, 98, rfl⟩
abbrev main_v73 : Ref sig .tc := ⟨.hbm, 99, rfl⟩
abbrev main_v74 : Ref sig .tc := ⟨.hbm, 100, rfl⟩
abbrev main_c_16 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_c_17 : Ref sig .tc := ⟨.hbm, 108, rfl⟩
abbrev main_v81 : Ref sig .tc := ⟨.hbm, 109, rfl⟩
abbrev main_v82 : Ref sig .tc := ⟨.hbm, 110, rfl⟩
abbrev main_c_18 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_cst_19 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_call3_cst : Ref sig .tc := ⟨.hbm, 127, rfl⟩
abbrev main_call3_v0 : Ref sig .tc := ⟨.hbm, 128, rfl⟩
abbrev main_call3_cst_0 : Ref sig .tc := ⟨.hbm, 129, rfl⟩
abbrev main_call3_v1 : Ref sig .tc := ⟨.hbm, 130, rfl⟩
abbrev main_call3_v2 : Ref sig .tc := ⟨.hbm, 131, rfl⟩
abbrev main_call3_v3 : Ref sig .tc := ⟨.hbm, 132, rfl⟩
abbrev main_call3_v4 : Ref sig .tc := ⟨.hbm, 133, rfl⟩
abbrev main_call3_v5 : Ref sig .tc := ⟨.hbm, 134, rfl⟩
abbrev main_call3_v6 : Ref sig .tc := ⟨.hbm, 135, rfl⟩
abbrev main_call3_cst_1 : Ref sig .tc := ⟨.hbm, 136, rfl⟩
abbrev main_call3_v7 : Ref sig .tc := ⟨.hbm, 137, rfl⟩
abbrev main_call3_v8 : Ref sig .tc := ⟨.hbm, 138, rfl⟩
abbrev main_call3_v9 : Ref sig .tc := ⟨.hbm, 139, rfl⟩
abbrev main_call3_v10 : Ref sig .tc := ⟨.hbm, 140, rfl⟩
abbrev main_v97 : Ref sig .tc := ⟨.hbm, 141, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S740000x1_S740000x64_0_1 : S740000x1.BroadcastsInDim S740000x64 (![0, 1] : Fin 2 → Fin S740000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  dot_S100000x128_S128x64_S100000x64_1_0_0_1_n_n_wf : DotDims.WF S100000x128 S128x64 S100000x64 [1] [0] [0] [1] [] []
  gather_S100000x64_S740000x1_S740000x64_1_0_n_n_0_1_164_wf : GatherDims.WF S100000x64 S740000x1 S740000x64 [1] [0] [] [0] [] 1 ![1, 64]
  scatter_S100000x64_S740000x1_S740000x64_1_0_0_1_wf : ScatterDims.WF S100000x64 S740000x1 S740000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S740000x1_S740000x64_1_0_n_n_0_1_164 : GatherDims S100000x64 S740000x1 S740000x64 where
  offsetDims := [1]
  collapsedSliceDims := [0]
  operandBatchingDims := []
  startIndicesBatchingDims := []
  startIndexMap := [0]
  indexVectorDim := 1
  sliceSizes := ![1, 64]
  wf := gather_S100000x64_S740000x1_S740000x64_1_0_n_n_0_1_164_wf
def scatter_S100000x64_S740000x1_S740000x64_1_0_0_1 : ScatterDims S100000x64 S740000x1 S740000x64 where
  updateWindowDims := [1]
  insertedWindowDims := [0]
  scatterDimsToOperandDims := [0]
  indexVectorDim := 1
  wf := scatter_S100000x64_S740000x1_S740000x64_1_0_0_1_wf

class Facts : Prop extends Facts₀ where

variable [Facts]
-- ==== Proof.KernelRun.lean ====
/-
  The idealized kernel program's run with its result NAMED. The program is three pipelined regions among three
  stretches of host operations; the contents of every buffer at each boundary are a fold from the launch memory
  (a stretch applies its operations; a region leaves in each of its arrays what its write-backs leave and every
  other buffer as it found it). Every weakly fair execution terminates without a fault, the six argument arrays end
  as launched, and the result array ends at the last boundary's contents of its buffer: the value that the later
  modules read back, region by region, as a function of the arguments.
-/
import proofs.«180835_j69956427317969_2_alg».proof.Proof.Gen.KernelIdeal.Frame

set_option maxRecDepth 16384

noncomputable section

namespace Cert.KernelIdeal.RunValue

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of the program terminates, nothing faulting; the
    result array ends at the final boundary's contents `W6 m ρ c` of its buffer, and each argument array as launched. -/
theorem run_named : θ_run defs (onTc (τ := τ) (main (F := F))) ⟨m, fun _ => 0, ρ⟩ (fun r => ∀ c : Dev nD,
      r.2.mem ((c.tc : Thread nD τ).loc main_v69) = W6 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v69 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.RunValue

end
-- ==== Proof.KernelFold.lean ====
/-
  The boundary contents of the idealized kernel program, read back. Its @main is: a first stretch of host operations
  (the two edge rows cut out of the edge array, the degree as a scatter-add of ones over the target row plus one, its
  inverse square root, the edge weights `dinv[src] · dinv[dst]` and the self weights `dinv · dinv`), the first
  matrix product as a pipelined region, a second stretch (the aggregation of the product's rows at 128 columns), the
  second region (bias, maximum with zero, matrix product), a third stretch (the aggregation at 64 columns) and the
  last region (bias and the row-wise log-softmax). Here each buffer that a later step reads is stated as a plain
  function of what the step before left, and the values of the first stretch are carried through the later
  boundaries, which no later operation and no region writes.
-/
import proofs.«180835_j69956427317969_2_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.ShloMosaic.Tactic Idealize.SL.Sem Idealize.ShloMosaic.StableHlo

variable {F : FTy → Type} [FloatOps F]

/-! ## The host terms -/

/-- Row `k` of the edge array as a rank-1 array. -/
def srcRow (e : (⟨S2x640000, .i32⟩ : BufTy).Contents (Elt F)) : (⟨S640000, .i32⟩ : BufTy).Contents (Elt F) :=
  shapeCast _ (extractStridedSlice S1x640000 ![0, 0] e slices_S2x640000_S1x640000_0_0) shapeCasts_S1x640000_S640000
def dstRow (e : (⟨S2x640000, .i32⟩ : BufTy).Contents (Elt F)) : (⟨S640000, .i32⟩ : BufTy).Contents (Elt F) :=
  shapeCast _ (extractStridedSlice S1x640000 ![1, 0] e slices_S2x640000_S1x640000_1_0) shapeCasts_S1x640000_S640000

/-- An index normalized before a gather: a negative entry has the node count added. -/
def nrm (a : (⟨S640000, .i32⟩ : BufTy).Contents (Elt F)) : (⟨S640000, .i32⟩ : BufTy).Contents (Elt F) :=
  select (cmpi .slt a (broadcastInDim S640000 ![] bcast_S_S640000 (constantI S_ 32 0#32)))
    (addi a (broadcastInDim S640000 ![] bcast_S_S640000 (constantI S_ 32 100000#32))) a

/-- The degree: the number of real edges into a node, plus one for its self-loop. -/
def deg (b : (⟨S640000, .i32⟩ : BufTy).Contents (Elt F)) : (⟨S100000, .f32⟩ : BufTy).Contents (Elt F) :=
  addf (Host.scatterAdd scatter_S100000_S640000x1_S640000_n_0_0_1
      (broadcastInDim S100000 ![] bcast_S_S100000 (constant S_ .f32 0x00000000#32))
      (broadcastInDim S640000x1 ![0] bcast_S640000_S640000x1_0 b)
      (broadcastInDim S640000 ![] bcast_S_S640000 (constant S_ .f32 0x3F800000#32)))
    (broadcastInDim S100000 ![] bcast_S_S100000 (constant S_ .f32 0x3F800000#32))

def dinv (b : (⟨S640000, .i32⟩ : BufTy).Contents (Elt F)) : (⟨S100000, .f32⟩ : BufTy).Contents (Elt F) := Host.rsqrt (deg b)

/-- The weight of each real edge: the inverse root degree at its (normalized, clamped) source times that at its target. -/
def edgeW (d : (⟨S100000, .f32⟩ : BufTy).Contents (Elt F)) (a b : (⟨S640000, .i32⟩ : BufTy).Contents (Elt F)) : (⟨S640000, .f32⟩ : BufTy).Contents (Elt F) :=
  mulf (Host.gather gather_S100000_S640000x1_S640000_n_0_n_n_0_1_1 d (broadcastInDim S640000x1 ![0] bcast_S640000_S640000x1_0 (nrm a)))
    (Host.gather gather_S100000_S640000x1_S640000_n_0_n_n_0_1_1 d (broadcastInDim S640000x1 ![0] bcast_S640000_S640000x1_0 (nrm b)))

/-- The kernel program's aggregation at 128 columns: the scatter-add over the real edges of the gathered, widened
    feature rows times the edge weights, plus the self-loop term `self i · h (i, f)`. -/
def agg128 (h : (⟨S100000x128, .bf16⟩ : BufTy).Contents (Elt F)) (a b : (⟨S640000, .i32⟩ : BufTy).Contents (Elt F)) (w : (⟨S640000, .f32⟩ : BufTy).Contents (Elt F)) (s : (⟨S100000, .f32⟩ : BufTy).Contents (Elt F)) : (⟨S100000x128, .f32⟩ : BufTy).Contents (Elt F) :=
  addf (Host.scatterAdd scatter_S100000x128_S640000x1_S640000x128_1_0_0_1
      (broadcastInDim S100000x128 ![] bcast_S_S100000x128 (constant S_ .f32 0x00000000#32))
      (broadcastInDim S640000x1 ![0] bcast_S640000_S640000x1_0 b)
      (mulf (extf .f32 (Host.gather gather_S100000x128_S640000x1_S640000x128_1_0_n_n_0_1_1128 h (broadcastInDim S640000x1 ![0] bcast_S640000_S640000x1_0 (nrm a))) bitsLt_bf16_f32)
        (broadcastInDim S640000x128 ![0, 1] bcast_S640000x1_S640000x128_0_1 (broadcastInDim S640000x1 ![0] bcast_S640000_S640000x1_0 w))))
    (mulf (broadcastInDim S100000x128 ![0, 1] bcast_S100000x1_S100000x128_0_1 (broadcastInDim S100000x1 ![0] bcast_S100000_S100000x1_0 s))
      (extf .f32 h bitsLt_bf16_f32))

/-- The kernel program's aggregation at 64 columns: the scatter-add over the real edges of the gathered, widened
    feature rows times the edge weights, plus the self-loop term `self i · h (i, f)`. -/
def agg64 (h : (⟨S100000x64, .bf16⟩ : BufTy).Contents (Elt F)) (a b : (⟨S640000, .i32⟩ : BufTy).Contents (Elt F)) (w : (⟨S640000, .f32⟩ : BufTy).Contents (Elt F)) (s : (⟨S100000, .f32⟩ : BufTy).Contents (Elt F)) : (⟨S100000x64, .f32⟩ : BufTy).Contents (Elt F) :=
  addf (Host.scatterAdd scatter_S100000x64_S640000x1_S640000x64_1_0_0_1
      (broadcastInDim S100000x64 ![] bcast_S_S100000x64 (constant S_ .f32 0x00000000#32))
      (broadcastInDim S640000x1 ![0] bcast_S640000_S640000x1_0 b)
      (mulf (extf .f32 (Host.gather gather_S100000x64_S640000x1_S640000x64_1_0_n_n_0_1_164 h (broadcastInDim S640000x1 ![0] bcast_S640000_S640000x1_0 (nrm a))) bitsLt_bf16_f32)
        (broadcastInDim S640000x64 ![0, 1] bcast_S640000x1_S640000x64_0_1 (broadcastInDim S640000x1 ![0] bcast_S640000_S640000x1_0 w))))
    (mulf (broadcastInDim S100000x64 ![0, 1] bcast_S100000x1_S100000x64_0_1 (broadcastInDim S100000x1 ![0] bcast_S100000_S100000x1_0 s))
      (extf .f32 h bitsLt_bf16_f32))

variable (m : (ℓ : Loc nD τ sig) → Buf (Elt F) ℓ) (ρ : Dev nD → PrngReg) (c : Dev nD)

/-! ## After the first stretch -/

theorem W1_src : W1 m ρ c (Proc.devRef .tc main_v1) = srcRow (m ((c : Thread nD τ).loc main_arg1)) := by
  show StableHlo.after hostOps0 (W0 m ρ c) (Proc.devRef .tc main_v1) = _
  after_results_simp <;> rfl
theorem W1_dst : W1 m ρ c (Proc.devRef .tc main_v3) = dstRow (m ((c : Thread nD τ).loc main_arg1)) := by
  show StableHlo.after hostOps0 (W0 m ρ c) (Proc.devRef .tc main_v3) = _
  after_results_simp <;> rfl
theorem W1_edgeW : W1 m ρ c (Proc.devRef .tc main_v25)
    = edgeW (dinv (dstRow (m ((c : Thread nD τ).loc main_arg1)))) (srcRow (m ((c : Thread nD τ).loc main_arg1))) (dstRow (m ((c : Thread nD τ).loc main_arg1))) := by
  show StableHlo.after hostOps0 (W0 m ρ c) (Proc.devRef .tc main_v25) = _
  after_results_simp <;> rfl
theorem W1_selfW : W1 m ρ c (Proc.devRef .tc main_v26)
    = mulf (dinv (dstRow (m ((c : Thread nD τ).loc main_arg1)))) (dinv (dstRow (m ((c : Thread nD τ).loc main_arg1)))) := by
  show StableHlo.after hostOps0 (W0 m ρ c) (Proc.devRef .tc main_v26) = _
  after_results_simp <;> rfl

/-! ## The first stretch leaves the arguments; the first region's output and what it leaves alone -/

theorem W1_main_arg0 : W1 m ρ c (Proc.devRef .tc main_arg0) = W0 m ρ c (Proc.devRef .tc main_arg0) := by
  show StableHlo.after hostOps0 (W0 m ρ c) (Proc.devRef .tc main_arg0) = _
  after_results_simp <;> rfl
theorem W1_main_arg2 : W1 m ρ c (Proc.devRef .tc main_arg2) = W0 m ρ c (Proc.devRef .tc main_arg2) := by
  show StableHlo.after hostOps0 (W0 m ρ c) (Proc.devRef .tc main_arg2) = _
  after_results_simp <;> rfl
theorem W1_main_arg3 : W1 m ρ c (Proc.devRef .tc main_arg3) = W0 m ρ c (Proc.devRef .tc main_arg3) := by
  show StableHlo.after hostOps0 (W0 m ρ c) (Proc.devRef .tc main_arg3) = _
  after_results_simp <;> rfl
theorem W1_main_arg4 : W1 m ρ c (Proc.devRef .tc main_arg4) = W0 m ρ c (Proc.devRef .tc main_arg4) := by
  show StableHlo.after hostOps0 (W0 m ρ c) (Proc.devRef .tc main_arg4) = _
  after_results_simp <;> rfl
theorem W1_main_arg5 : W1 m ρ c (Proc.devRef .tc main_arg5) = W0 m ρ c (Proc.devRef .tc main_arg5) := by
  show StableHlo.after hostOps0 (W0 m ρ c) (Proc.devRef .tc main_arg5) = _
  after_results_simp <;> rfl

/-- The first region's output array holds what its write-backs leave. -/
theorem W2_out : W2 m ρ c (Proc.devRef .tc main_v27) = (dat0 (V1 m ρ) c).arrAt 2 cfg0.N := W2_arr m ρ c 2
theorem W2_main_v1 : W2 m ρ c (Proc.devRef .tc main_v1) = W1 m ρ c (Proc.devRef .tc main_v1) := W2_of_ne m ρ c main_v1 (by decide)
theorem W2_main_v3 : W2 m ρ c (Proc.devRef .tc main_v3) = W1 m ρ c (Proc.devRef .tc main_v3) := W2_of_ne m ρ c main_v3 (by decide)
theorem W2_main_v25 : W2 m ρ c (Proc.devRef .tc main_v25) = W1 m ρ c (Proc.devRef .tc main_v25) := W2_of_ne m ρ c main_v25 (by decide)
theorem W2_main_v26 : W2 m ρ c (Proc.devRef .tc main_v26) = W1 m ρ c (Proc.devRef .tc main_v26) := W2_of_ne m ρ c main_v26 (by decide)
theorem W2_main_arg3 : W2 m ρ c (Proc.devRef .tc main_arg3) = W1 m ρ c (Proc.devRef .tc main_arg3) := W2_of_ne m ρ c main_arg3 (by decide)
theorem W2_main_arg4 : W2 m ρ c (Proc.devRef .tc main_arg4) = W1 m ρ c (Proc.devRef .tc main_arg4) := W2_of_ne m ρ c main_arg4 (by decide)
theorem W2_main_arg5 : W2 m ρ c (Proc.devRef .tc main_arg5) = W1 m ρ c (Proc.devRef .tc main_arg5) := W2_of_ne m ρ c main_arg5 (by decide)

/-! ## The second stretch: the aggregation at 128 columns, and the bias as a row -/

theorem W3_agg : W3 m ρ c (Proc.devRef .tc main_v46)
    = agg128 (W2 m ρ c (Proc.devRef .tc main_v27)) (W2 m ρ c (Proc.devRef .tc main_v1)) (W2 m ρ c (Proc.devRef .tc main_v3))
        (W2 m ρ c (Proc.devRef .tc main_v25)) (W2 m ρ c (Proc.devRef .tc main_v26)) := by
  show StableHlo.after hostOps1 (W2 m ρ c) (Proc.devRef .tc main_v46) = _
  after_results_simp <;> rfl
theorem W3_bias : W3 m ρ c (Proc.devRef .tc main_v47)
    = shapeCast _ (W2 m ρ c (Proc.devRef .tc main_arg3)) shapeCasts_S128_S1x128 := by
  show StableHlo.after hostOps1 (W2 m ρ c) (Proc.devRef .tc main_v47) = _
  after_results_simp <;> rfl
theorem W3_main_v1 : W3 m ρ c (Proc.devRef .tc main_v1) = W2 m ρ c (Proc.devRef .tc main_v1) := by
  show StableHlo.after hostOps1 (W2 m ρ c) (Proc.devRef .tc main_v1) = _
  after_results_simp <;> rfl
theorem W3_main_v3 : W3 m ρ c (Proc.devRef .tc main_v3) = W2 m ρ c (Proc.devRef .tc main_v3) := by
  show StableHlo.after hostOps1 (W2 m ρ c) (Proc.devRef .tc main_v3) = _
  after_results_simp <;> rfl
theorem W3_main_v25 : W3 m ρ c (Proc.devRef .tc main_v25) = W2 m ρ c (Proc.devRef .tc main_v25) := by
  show StableHlo.after hostOps1 (W2 m ρ c) (Proc.devRef .tc main_v25) = _
  after_results_simp <;> rfl
theorem W3_main_v26 : W3 m ρ c (Proc.devRef .tc main_v26) = W2 m ρ c (Proc.devRef .tc main_v26) := by
  show StableHlo.after hostOps1 (W2 m ρ c) (Proc.devRef .tc main_v26) = _
  after_results_simp <;> rfl
theorem W3_main_arg4 : W3 m ρ c (Proc.devRef .tc main_arg4) = W2 m ρ c (Proc.devRef .tc main_arg4) := by
  show StableHlo.after hostOps1 (W2 m ρ c) (Proc.devRef .tc main_arg4) = _
  after_results_simp <;> rfl
theorem W3_main_arg5 : W3 m ρ c (Proc.devRef .tc main_arg5) = W2 m ρ c (Proc.devRef .tc main_arg5) := by
  show StableHlo.after hostOps1 (W2 m ρ c) (Proc.devRef .tc main_arg5) = _
  after_results_simp <;> rfl

/-- The second region's output array holds what its write-backs leave. -/
theorem W4_out : W4 m ρ c (Proc.devRef .tc main_v48) = (dat1 (V3 m ρ) c).arrAt 3 cfg1.N := W4_arr m ρ c 3
theorem W4_main_v1 : W4 m ρ c (Proc.devRef .tc main_v1) = W3 m ρ c (Proc.devRef .tc main_v1) := W4_of_ne m ρ c main_v1 (by decide)
theorem W4_main_v3 : W4 m ρ c (Proc.devRef .tc main_v3) = W3 m ρ c (Proc.devRef .tc main_v3) := W4_of_ne m ρ c main_v3 (by decide)
theorem W4_main_v25 : W4 m ρ c (Proc.devRef .tc main_v25) = W3 m ρ c (Proc.devRef .tc main_v25) := W4_of_ne m ρ c main_v25 (by decide)
theorem W4_main_v26 : W4 m ρ c (Proc.devRef .tc main_v26) = W3 m ρ c (Proc.devRef .tc main_v26) := W4_of_ne m ρ c main_v26 (by decide)
theorem W4_main_arg5 : W4 m ρ c (Proc.devRef .tc main_arg5) = W3 m ρ c (Proc.devRef .tc main_arg5) := W4_of_ne m ρ c main_arg5 (by decide)

/-! ## The third stretch: the aggregation at 64 columns, and the bias as a row -/

theorem W5_agg : W5 m ρ c (Proc.devRef .tc main_v67)
    = agg64 (W4 m ρ c (Proc.devRef .tc main_v48)) (W4 m ρ c (Proc.devRef .tc main_v1)) (W4 m ρ c (Proc.devRef .tc main_v3))
        (W4 m ρ c (Proc.devRef .tc main_v25)) (W4 m ρ c (Proc.devRef .tc main_v26)) := by
  show StableHlo.after hostOps2 (W4 m ρ c) (Proc.devRef .tc main_v67) = _
  after_results_simp <;> rfl
theorem W5_bias : W5 m ρ c (Proc.devRef .tc main_v68)
    = shapeCast _ (W4 m ρ c (Proc.devRef .tc main_arg5)) shapeCasts_S64_S1x64 := by
  show StableHlo.after hostOps2 (W4 m ρ c) (Proc.devRef .tc main_v68) = _
  after_results_simp <;> rfl

/-- The last region's output array, the program's result, holds what its write-backs leave. -/
theorem W6_out : W6 m ρ c (Proc.devRef .tc main_v69) = (dat2 (V5 m ρ) c).arrAt 2 cfg2.N := W6_arr m ρ c 2

end Cert.KernelIdeal.Fold

end
-- ==== Proof.RegionMatmul0.lean ====
/- Region 0 of the kernel program as one array: each of its 20 grid points multiplies 5000 rows of the left
   array by the whole 128×128 weight and writes the 5000 product rows back, so after the region the result array is
   the product of the whole left array by the weight, entry by entry the sum over k < 128 of left(r, k) · weight(k, q).
   On the extended reals the changes of float format around the product are the identity. -/
import proofs.«180835_j69956427317969_2_alg».proof.Proof.Gen.KernelIdeal.Frame
import proofs.«180835_j69956427317969_2_alg».proof.Proof.Gen.ReferenceIdeal
import Idealize.ShloMosaic.Lib.Pipeline.Value
import Idealize.ShloMosaic.Lib.ValueIdx
import Idealize.ShloMosaic.PureOps.Ideal.Laws

noncomputable section

namespace Cert.KernelIdeal.RegionValue

open Idealize.ShloMosaic Idealize.ShloMosaic.TcCoe Idealize.SL.Sem
open Idealize.ShloMosaic.Pipeline (Dat)
open Idealize.ShloMosaic.ValueIdx
open Cert.KernelIdeal.Gen Cert.ReferenceIdeal.Gen

/-! # Region 0: the block product at an index, and the whole-array product at an index

Both are the same finite sum: entry (p, q) of a product of a matrix with 128 columns by a matrix with 128 rows is
the sum over k < 128 of (row p of the left factor at k) times (column q of the right factor at k). On the extended
reals a change of float format is the identity, and accumulating into a zero matrix adds zero. -/

/-- The dimension numbers of the block product: [5000,128] times [128,128], contracting the left factor's axis 1 with
    the right factor's axis 0. -/
abbrev blockDot0 : DotDims S5000x128 S128x128 S5000x128 := Cert.KernelIdeal.dot_S5000x128_S128x128_S5000x128_1_0_0_1_n_n

/-- The same dimension numbers at the whole array's extents: [100000,128] times [128,128]. -/
abbrev wholeDot0 : DotDims Cert.ReferenceIdeal.S100000x128 Cert.ReferenceIdeal.S128x128 Cert.ReferenceIdeal.S100000x128 :=
  Cert.ReferenceIdeal.dot_S100000x128_S128x128_S100000x128_1_0_0_1_n_n

/-- The left operand's index of the block product: the output's row … -/
theorem blockDot0_lhs0 (i : S5000x128.Idx) (k : blockDot0.contr.Idx) : (blockDot0.lhsIdx i k 0).val = (i 0).val := by
  unfold DotDims.lhsIdx
  rw [dif_neg (show ¬(0 : Fin S5000x128.rank) ∈ blockDot0.lhsBatch by decide),
    dif_pos (show (0 : Fin S5000x128.rank) ∈ blockDot0.lhsNonContracting by decide)]
  rfl
/-- … and the contraction position; -/
theorem blockDot0_lhs1 (i : S5000x128.Idx) (k : blockDot0.contr.Idx) : (blockDot0.lhsIdx i k 1).val = (k ⟨0, by decide⟩).val :=
  blockDot0.lhsIdx_val_of_single rfl i k
/-- the right operand's: the contraction position … -/
theorem blockDot0_rhs0 (i : S5000x128.Idx) (k : blockDot0.contr.Idx) : (blockDot0.rhsIdx i k 0).val = (k ⟨0, by decide⟩).val :=
  blockDot0.rhsIdx_val_of_single rfl i k
/-- … and the output's column. -/
theorem blockDot0_rhs1 (i : S5000x128.Idx) (k : blockDot0.contr.Idx) : (blockDot0.rhsIdx i k 1).val = (i 1).val := by
  unfold DotDims.rhsIdx
  rw [dif_neg (show ¬(1 : Fin S128x128.rank) ∈ blockDot0.rhsBatch by decide),
    dif_pos (show (1 : Fin S128x128.rank) ∈ blockDot0.rhsNonContracting by decide)]
  rfl

/-- Entry (p, q) of what the body stores: row p of the loaded block times column q of the loaded weight. -/
theorem pay0_apply (x0 : Vec Ideal S5000x128 .f32) (x1 : Vec Ideal S128x128 .f32) (p : Fin 5000) (q : Fin 128) :
    Gen.k0_pay1 (F := Ideal) x0 x1 (ix2 p q) = ∑ k : Fin 128, x0 (ix2 p k) * x1 (ix2 k q) := by
  unfold Gen.k0_pay1
  show FloatOps.matmul (F := Ideal) blockDot0 none (truncf (F := Ideal) .bf16 x0 bitsLt_bf16_f32) (truncf (F := Ideal) .bf16 x1 bitsLt_bf16_f32)
      (constant (F := Ideal) S5000x128 .f32 0x00000000#32) (ix2 p q) = _
  refine (Ideal.matmul_constant_zero_apply blockDot0 none _ _ (ix2 p q)).trans ?_
  rw [← Equiv.sum_comp (contrEquiv1 blockDot0 128 rfl rfl).symm]
  refine Finset.sum_congr rfl fun k _ => ?_
  have hk := contrEquiv1_symm_val blockDot0 128 rfl rfl k
  have el : blockDot0.lhsIdx (ix2 p q) ((contrEquiv1 blockDot0 128 rfl rfl).symm k) = ix2 p k := funext fun a => Fin.ext (by
    match a with
    | ⟨0, _⟩ => exact blockDot0_lhs0 _ _
    | ⟨1, _⟩ => exact (blockDot0_lhs1 _ _).trans hk)
  have er : blockDot0.rhsIdx (ix2 p q) ((contrEquiv1 blockDot0 128 rfl rfl).symm k) = ix2 k q := funext fun a => Fin.ext (by
    match a with
    | ⟨0, _⟩ => exact (blockDot0_rhs0 _ _).trans hk
    | ⟨1, _⟩ => exact blockDot0_rhs1 _ _)
  rw [el, er]
  rfl

theorem wholeDot0_lhs0 (i : Cert.ReferenceIdeal.S100000x128.Idx) (k : wholeDot0.contr.Idx) : (wholeDot0.lhsIdx i k 0).val = (i 0).val := by
  unfold DotDims.lhsIdx
  rw [dif_neg (show ¬(0 : Fin Cert.ReferenceIdeal.S100000x128.rank) ∈ wholeDot0.lhsBatch by decide),
    dif_pos (show (0 : Fin Cert.ReferenceIdeal.S100000x128.rank) ∈ wholeDot0.lhsNonContracting by decide)]
  rfl
theorem wholeDot0_lhs1 (i : Cert.ReferenceIdeal.S100000x128.Idx) (k : wholeDot0.contr.Idx) : (wholeDot0.lhsIdx i k 1).val = (k ⟨0, by decide⟩).val :=
  wholeDot0.lhsIdx_val_of_single rfl i k
theorem wholeDot0_rhs0 (i : Cert.ReferenceIdeal.S100000x128.Idx) (k : wholeDot0.contr.Idx) : (wholeDot0.rhsIdx i k 0).val = (k ⟨0, by decide⟩).val :=
  wholeDot0.rhsIdx_val_of_single rfl i k
theorem wholeDot0_rhs1 (i : Cert.ReferenceIdeal.S100000x128.Idx) (k : wholeDot0.contr.Idx) : (wholeDot0.rhsIdx i k 1).val = (i 1).val := by
  unfold DotDims.rhsIdx
  rw [dif_neg (show ¬(1 : Fin Cert.ReferenceIdeal.S128x128.rank) ∈ wholeDot0.rhsBatch by decide),
    dif_pos (show (1 : Fin Cert.ReferenceIdeal.S128x128.rank) ∈ wholeDot0.rhsNonContracting by decide)]
  rfl

/-- Entry (r, q) of the whole-array product: row r of the left array times column q of the weight. -/
theorem wholeDot0_apply (A : FVec Ideal Cert.ReferenceIdeal.S100000x128 .f32) (W : FVec Ideal Cert.ReferenceIdeal.S128x128 .f32)
    (r : Fin 100000) (q : Fin 128) :
    Host.dotGeneral (F := Ideal) wholeDot0 none A W (ix2 r q) = ∑ k : Fin 128, A (ix2 r k) * W (ix2 k q) := by
  show FloatOps.dotGeneral wholeDot0 none _ A W (ix2 r q) = _
  refine (Ideal.dotGeneral_apply wholeDot0 none _ A W (ix2 r q)).trans ?_
  rw [← Equiv.sum_comp (contrEquiv1 wholeDot0 128 rfl rfl).symm]
  refine Finset.sum_congr rfl fun k _ => ?_
  have hk := contrEquiv1_symm_val wholeDot0 128 rfl rfl k
  have el : wholeDot0.lhsIdx (ix2 r q) ((contrEquiv1 wholeDot0 128 rfl rfl).symm k) = ix2 r k := funext fun a => Fin.ext (by
    match a with
    | ⟨0, _⟩ => exact wholeDot0_lhs0 _ _
    | ⟨1, _⟩ => exact (wholeDot0_lhs1 _ _).trans hk)
  have er : wholeDot0.rhsIdx (ix2 r q) ((contrEquiv1 wholeDot0 128 rfl rfl).symm k) = ix2 k q := funext fun a => Fin.ext (by
    match a with
    | ⟨0, _⟩ => exact (wholeDot0_rhs0 _ _).trans hk
    | ⟨1, _⟩ => exact wholeDot0_rhs1 _ _)
  rw [el, er]

/-! # Region 0: from the blocks to the array

Grid point t of the 20 loads rows 5000·t … 5000·t+4999 of the left array and the whole weight, and writes the product
back to the same rows of the result. Row r of the result is therefore written by point r / 5000, and holds row r of the
whole product. -/

theorem zeroOffsets : (![0, 0] : Fin 2 → Nat) = fun _ => 0 := funext fun a => by fin_cases a <;> rfl

/-- The block indices of the three windows at every grid point: the row windows step with the point, the weight's
    stays at the origin. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One entry of the block product against one entry of the whole product: if the loaded block x0 is rows
    5000·n … of A and the loaded weight x1 is W, entry j of the block product is entry i of the whole product, i being
    j moved down by 5000·n rows. -/
theorem blockProduct0_entry (A : FVec Ideal Cert.ReferenceIdeal.S100000x128 .f32) (W : FVec Ideal Cert.ReferenceIdeal.S128x128 .f32)
    (x0 : Vec Ideal S5000x128 .f32) (x1 : Vec Ideal S128x128 .f32) (n : Nat)
    (j : S5000x128.Idx) (i : Cert.ReferenceIdeal.S100000x128.Idx)
    (hi0 : (i 0).val = n * 5000 + (j 0).val) (hi1 : (i 1).val = (j 1).val)
    (h0 : ∀ (y : S5000x128.Idx) (z : Cert.ReferenceIdeal.S100000x128.Idx), (z 0).val = n * 5000 + (y 0).val → (z 1).val = (y 1).val → x0 y = A z)
    (h1 : ∀ (y : S128x128.Idx) (z : Cert.ReferenceIdeal.S128x128.Idx), (z 0).val = (y 0).val → (z 1).val = (y 1).val → x1 y = W z) :
    Gen.k0_pay1 (F := Ideal) x0 x1 j = Host.dotGeneral (F := Ideal) wholeDot0 none A W i := by
  obtain ⟨p, q, rfl⟩ : ∃ (p : Fin 5000) (q : Fin 128), j = ix2 p q := ⟨j 0, j 1, eq_ix2 j⟩
  obtain ⟨r, q', rfl⟩ : ∃ (r : Fin 100000) (q' : Fin 128), i = ix2 r q' := ⟨i 0, i 1, eq_ix2 i⟩
  have hq : q' = q := Fin.ext hi1
  subst hq
  rw [pay0_apply, wholeDot0_apply]
  refine Finset.sum_congr rfl fun k _ => ?_
  rw [h0 (ix2 p k) (ix2 r k) hi0 rfl, h1 (ix2 k q') (ix2 k q') rfl rfl]

section
variable (V : (c : Dev nD) → (b : Ref sig .tc) → Buf (Elt Ideal) ((c : Thread nD τ).loc b))

/-- What point t writes back is block t of the whole product of the arrays the region finds. -/
theorem flushed0_eq (c : Dev nD) (t : Fin cfg0.N) :
    (Gen.dat0 (F := Ideal) V c).flushed 2 t
      = ((cfg0.win 2).blk t).view.read (Elt Ideal)
          (Host.dotGeneral (F := Ideal) (φ₁ := .f32) (φ₂ := .f32) wholeDot0 none (V c (Pipeline.arrRef spec0 0)) (V c (Pipeline.arrRef spec0 1))) := by
  show (cfg0.win 2).cut (grid0.coords t) ((Gen.dat0 (F := Ideal) V c).after 2 t) = _
  rw [Gen.after0_2]
  unfold Gen.out0_2
  rw [View.canon_unit_zero zeroOffsets]
  simp only [View.ld_unit_zero (S := S5000x128) zeroOffsets, View.ld_unit_zero (S := S128x128) zeroOffsets]
  obtain ⟨e0, e1, e2, e3, e4, e5⟩ := blockIndex0 t
  funext j
  refine blockProduct0_entry (V c (Pipeline.arrRef spec0 0)) (V c (Pipeline.arrRef spec0 1)) (Gen.iblk0 V c 0 t) (Gen.iblk0 V c 1 t) t.val j
    (((cfg0.win 2).blk t).view.emb j) ?_ ?_ ?_ ?_
  · show win0_2.index t (0 : Fin 2) * 5000 + 1 * (j 0).val = _
    rw [e4]; omega
  · show win0_2.index t (1 : Fin 2) * 128 + 1 * (j 1).val = _
    rw [e5]; omega
  · intro y z hz0 hz1
    unfold Gen.iblk0
    rw [View.read_apply]
    refine congrArg (V c (Pipeline.arrRef spec0 0)) (funext fun a => Fin.ext ?_)
    match a with
    | ⟨0, _⟩ => show win0_0.index t (0 : Fin 2) * 5000 + 1 * (y 0).val = (z 0).val; rw [e0, hz0]; omega
    | ⟨1, _⟩ => show win0_0.index t (1 : Fin 2) * 128 + 1 * (y 1).val = (z 1).val; rw [e1, hz1]; omega
  · intro y z hz0 hz1
    unfold Gen.iblk0
    rw [View.read_apply]
    refine congrArg (V c (Pipeline.arrRef spec0 1)) (funext fun a => Fin.ext ?_)
    match a with
    | ⟨0, _⟩ => show win0_1.index t (0 : Fin 2) * 128 + 1 * (y 0).val = (z 0).val; rw [e2, hz0]; omega
    | ⟨1, _⟩ => show win0_1.index t (1 : Fin 2) * 128 + 1 * (y 1).val = (z 1).val; rw [e3, hz1]; omega

/-- An index of the result array is in point t's block iff each coordinate is in the block's range on its axis. -/
theorem mem_block0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v27).slice (win0_2.rect t)).set ↔ _
  rw [View.set_slice_whole, Rect.mem_set_unit]
  exact Iff.rfl

/-- Every row r of the result is written by point r / 5000. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := Gen.N_0
  let t : Fin cfg0.N := ⟨(i 0).val / 5000, by rw [hN]; omega⟩
  obtain ⟨e0, e1, e2, e3, e4, e5⟩ := blockIndex0 t
  have ht : t.val = (i 0).val / 5000 := rfl
  refine ⟨t, Gen.flush0_2 t, ?_⟩
  rw [mem_block0]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 128 ≤ (i 1).val ∧ (i 1).val < win0_2.index t (1 : Fin 2) * 128 + 128; rw [e5]; omega

/-- REGION 0: the result array after the region is the whole product of the two arrays the region finds. -/
theorem matmul0_array (c : Dev nD) :
    (Gen.dat0 (F := Ideal) V c).arrAt 2 cfg0.N
      = Host.dotGeneral (F := Ideal) (φ₁ := .f32) (φ₂ := .f32) Cert.ReferenceIdeal.dot_S100000x128_S128x128_S100000x128_1_0_0_1_n_n none
          (V c (Pipeline.arrRef spec0 0)) (V c (Pipeline.arrRef spec0 1)) :=
  (Gen.dat0 (F := Ideal) V c).arrAt_eq_of_cover 2 _ (fun t _ => flushed0_eq V c t) cover0

end

end Cert.KernelIdeal.RegionValue
end
-- ==== Proof.RegionMatmul1.lean ====
/- Region 1 of the kernel program as one array: each of its 20 grid points takes 5000 rows of the left array, adds the
   bias row to each, cuts the sums below at zero, multiplies by the whole 128×64 weight and writes the 5000 product rows
   back, so after the region the result array is the product, by the weight, of the whole left array so shifted and cut:
   entry (r, q) is the sum over k < 128 of max (left(r, k) + bias(0, k)) 0 · weight(k, q). On the extended reals the
   changes of float format around the product are the identity. -/
import proofs.«180835_j69956427317969_2_alg».proof.Proof.Gen.KernelIdeal.Frame
import proofs.«180835_j69956427317969_2_alg».proof.Proof.Gen.ReferenceIdeal
import Idealize.ShloMosaic.Lib.Pipeline.Value
import Idealize.ShloMosaic.Lib.ValueIdx
import Idealize.ShloMosaic.PureOps.Ideal.Laws

noncomputable section

namespace Cert.KernelIdeal.RegionValue

open Idealize.ShloMosaic Idealize.ShloMosaic.TcCoe Idealize.SL.Sem
open Idealize.ShloMosaic.Pipeline (Dat)
open Idealize.ShloMosaic.ValueIdx
open Cert.KernelIdeal.Gen Cert.ReferenceIdeal.Gen

/-! # Region 1: the block product at an index, and the whole-array product at an index

The left factor is first shifted by a bias row and cut below at zero: entry (p, k) of it is max (x(p, k) + b(0, k)) 0.
Entry (p, q) of the product is the sum over k < 128 of that times the weight's (k, q). On the extended reals a change
of float format is the identity, and accumulating into a zero matrix adds zero. -/

/-- The dimension numbers of the block product: [5000,128] times [128,64], contracting the left factor's axis 1 with
    the right factor's axis 0. -/
abbrev blockDot1 : DotDims S5000x128 S128x64 S5000x64 := Cert.KernelIdeal.dot_S5000x128_S128x64_S5000x64_1_0_0_1_n_n

/-- The same dimension numbers at the whole array's extents: [100000,128] times [128,64]. -/
abbrev wholeDot1 : DotDims Cert.ReferenceIdeal.S100000x128 Cert.ReferenceIdeal.S128x64 Cert.ReferenceIdeal.S100000x64 :=
  Cert.ReferenceIdeal.dot_S100000x128_S128x64_S100000x64_1_0_0_1_n_n

/-- The left operand's index of the block product: the output's row … -/
theorem blockDot1_lhs0 (i : S5000x64.Idx) (k : blockDot1.contr.Idx) : (blockDot1.lhsIdx i k 0).val = (i 0).val := by
  unfold DotDims.lhsIdx
  rw [dif_neg (show ¬(0 : Fin S5000x128.rank) ∈ blockDot1.lhsBatch by decide),
    dif_pos (show (0 : Fin S5000x128.rank) ∈ blockDot1.lhsNonContracting by decide)]
  rfl
/-- … and the contraction position; -/
theorem blockDot1_lhs1 (i : S5000x64.Idx) (k : blockDot1.contr.Idx) : (blockDot1.lhsIdx i k 1).val = (k ⟨0, by decide⟩).val :=
  blockDot1.lhsIdx_val_of_single rfl i k
/-- the right operand's: the contraction position … -/
theorem blockDot1_rhs0 (i : S5000x64.Idx) (k : blockDot1.contr.Idx) : (blockDot1.rhsIdx i k 0).val = (k ⟨0, by decide⟩).val :=
  blockDot1.rhsIdx_val_of_single rfl i k
/-- … and the output's column. -/
theorem blockDot1_rhs1 (i : S5000x64.Idx) (k : blockDot1.contr.Idx) : (blockDot1.rhsIdx i k 1).val = (i 1).val := by
  unfold DotDims.rhsIdx
  rw [dif_neg (show ¬(1 : Fin S128x64.rank) ∈ blockDot1.rhsBatch by decide),
    dif_pos (show (1 : Fin S128x64.rank) ∈ blockDot1.rhsNonContracting by decide)]
  rfl

/-- Entry (p, k) of the block's left factor: the loaded block plus the bias row, cut below at zero. -/
theorem biasRelu_block_apply (x0 : FVec Ideal S5000x128 .f32) (x1 : FVec Ideal S1x128 .f32) (p : Fin 5000) (k : Fin 128) :
    maximumf (addf (shapeCast S5000x128 x0 shapeCasts_S5000x128_S5000x128)
          (broadcastTo S5000x128 (shapeCast S1x128 x1 shapeCasts_S1x128_S1x128) broadcasts_S1x128_S5000x128))
        (broadcast S5000x128 (Scalar.ofBits (F := Ideal) .f32 0x00000000#32)) (ix2 p k)
      = max (x0 (ix2 p k) + x1 (ix2 (0 : Fin 1) k)) (Ideal.ofBits .f32 0x00000000#32) := by
  rw [shapeCast_self, shapeCast_self]
  show max (x0 (ix2 p k) + broadcastTo S5000x128 x1 broadcasts_S1x128_S5000x128 (ix2 p k)) _ = _
  rw [broadcastTo_apply x1 broadcasts_S1x128_S5000x128 (ix2 p k) (ix2 (0 : Fin 1) k) (by
    intro a
    match a with
    | ⟨0, _⟩ => rfl
    | ⟨1, _⟩ => rfl)]
  rfl

/-- Entry (p, q) of what the body stores. -/
theorem pay1_apply (x0 : Vec Ideal S5000x128 .f32) (x1 : Vec Ideal S1x128 .f32) (x2 : Vec Ideal S128x64 .f32) (p : Fin 5000) (q : Fin 64) :
    Gen.k1_pay1 (F := Ideal) x0 x1 x2 (ix2 p q)
      = ∑ k : Fin 128, max (x0 (ix2 p k) + x1 (ix2 (0 : Fin 1) k)) (Ideal.ofBits .f32 0x00000000#32) * x2 (ix2 k q) := by
  unfold Gen.k1_pay1
  show FloatOps.matmul (F := Ideal) blockDot1 none _ _ (constant (F := Ideal) S5000x64 .f32 0x00000000#32) (ix2 p q) = _
  refine (Ideal.matmul_constant_zero_apply blockDot1 none _ _ (ix2 p q)).trans ?_
  rw [← Equiv.sum_comp (contrEquiv1 blockDot1 128 rfl rfl).symm]
  refine Finset.sum_congr rfl fun k _ => ?_
  have hk := contrEquiv1_symm_val blockDot1 128 rfl rfl k
  have el : blockDot1.lhsIdx (ix2 p q) ((contrEquiv1 blockDot1 128 rfl rfl).symm k) = ix2 p k := funext fun a => Fin.ext (by
    match a with
    | ⟨0, _⟩ => exact blockDot1_lhs0 _ _
    | ⟨1, _⟩ => exact (blockDot1_lhs1 _ _).trans hk)
  have er : blockDot1.rhsIdx (ix2 p q) ((contrEquiv1 blockDot1 128 rfl rfl).symm k) = ix2 k q := funext fun a => Fin.ext (by
    match a with
    | ⟨0, _⟩ => exact (blockDot1_rhs0 _ _).trans hk
    | ⟨1, _⟩ => exact blockDot1_rhs1 _ _)
  rw [el, er]
  exact congrArg (· * x2 (ix2 k q)) (biasRelu_block_apply x0 x1 p k)

theorem wholeDot1_lhs0 (i : Cert.ReferenceIdeal.S100000x64.Idx) (k : wholeDot1.contr.Idx) : (wholeDot1.lhsIdx i k 0).val = (i 0).val := by
  unfold DotDims.lhsIdx
  rw [dif_neg (show ¬(0 : Fin Cert.ReferenceIdeal.S100000x128.rank) ∈ wholeDot1.lhsBatch by decide),
    dif_pos (show (0 : Fin Cert.ReferenceIdeal.S100000x128.rank) ∈ wholeDot1.lhsNonContracting by decide)]
  rfl
theorem wholeDot1_lhs1 (i : Cert.ReferenceIdeal.S100000x64.Idx) (k : wholeDot1.contr.Idx) : (wholeDot1.lhsIdx i k 1).val = (k ⟨0, by decide⟩).val :=
  wholeDot1.lhsIdx_val_of_single rfl i k
theorem wholeDot1_rhs0 (i : Cert.ReferenceIdeal.S100000x64.Idx) (k : wholeDot1.contr.Idx) : (wholeDot1.rhsIdx i k 0).val = (k ⟨0, by decide⟩).val :=
  wholeDot1.rhsIdx_val_of_single rfl i k
theorem wholeDot1_rhs1 (i : Cert.ReferenceIdeal.S100000x64.Idx) (k : wholeDot1.contr.Idx) : (wholeDot1.rhsIdx i k 1).val = (i 1).val := by
  unfold DotDims.rhsIdx
  rw [dif_neg (show ¬(1 : Fin Cert.ReferenceIdeal.S128x64.rank) ∈ wholeDot1.rhsBatch by decide),
    dif_pos (show (1 : Fin Cert.ReferenceIdeal.S128x64.rank) ∈ wholeDot1.rhsNonContracting by decide)]
  rfl

/-- The whole array's left factor: the array plus the bias row laid along every row, cut below at zero. -/
abbrev biasRelu (A : FVec Ideal Cert.ReferenceIdeal.S100000x128 .f32) (B : FVec Ideal Cert.ReferenceIdeal.S1x128 .f32) :
    FVec Ideal Cert.ReferenceIdeal.S100000x128 .f32 :=
  maximumf (addf A (broadcastInDim Cert.ReferenceIdeal.S100000x128 ![0, 1] Cert.ReferenceIdeal.Facts₀.bcast_S1x128_S100000x128_0_1 B))
    (broadcastInDim Cert.ReferenceIdeal.S100000x128 ![] Cert.ReferenceIdeal.Facts₀.bcast_S_S100000x128 (constant (F := Ideal) Cert.ReferenceIdeal.S_ .f32 0x00000000#32))

/-- Entry (r, k) of it. -/
theorem biasRelu_apply (A : FVec Ideal Cert.ReferenceIdeal.S100000x128 .f32) (B : FVec Ideal Cert.ReferenceIdeal.S1x128 .f32)
    (r : Fin 100000) (k : Fin 128) :
    biasRelu A B (ix2 r k) = max (A (ix2 r k) + B (ix2 (0 : Fin 1) k)) (Ideal.ofBits .f32 0x00000000#32) := by
  show max (A (ix2 r k) + broadcastInDim Cert.ReferenceIdeal.S100000x128 ![0, 1] Cert.ReferenceIdeal.Facts₀.bcast_S1x128_S100000x128_0_1 B (ix2 r k))
      (broadcastInDim Cert.ReferenceIdeal.S100000x128 ![] Cert.ReferenceIdeal.Facts₀.bcast_S_S100000x128 (constant (F := Ideal) Cert.ReferenceIdeal.S_ .f32 0x00000000#32) (ix2 r k)) = _
  rw [broadcastInDim_apply ![0, 1] Cert.ReferenceIdeal.Facts₀.bcast_S1x128_S100000x128_0_1 B (ix2 r k) (ix2 (0 : Fin 1) k) (by
      intro a
      match a with
      | ⟨0, _⟩ => rfl
      | ⟨1, _⟩ => rfl),
    broadcastInDim_apply ![] Cert.ReferenceIdeal.Facts₀.bcast_S_S100000x128 (constant (F := Ideal) Cert.ReferenceIdeal.S_ .f32 0x00000000#32) (ix2 r k) ix0 (fun a => a.elim0)]
  rfl

/-- Entry (r, q) of the whole-array product. -/
theorem wholeDot1_apply (A : FVec Ideal Cert.ReferenceIdeal.S100000x128 .f32) (W : FVec Ideal Cert.ReferenceIdeal.S128x64 .f32)
    (r : Fin 100000) (q : Fin 64) :
    Host.dotGeneral (F := Ideal) wholeDot1 none A W (ix2 r q) = ∑ k : Fin 128, A (ix2 r k) * W (ix2 k q) := by
  show FloatOps.dotGeneral wholeDot1 none _ A W (ix2 r q) = _
  refine (Ideal.dotGeneral_apply wholeDot1 none _ A W (ix2 r q)).trans ?_
  rw [← Equiv.sum_comp (contrEquiv1 wholeDot1 128 rfl rfl).symm]
  refine Finset.sum_congr rfl fun k _ => ?_
  have hk := contrEquiv1_symm_val wholeDot1 128 rfl rfl k
  have el : wholeDot1.lhsIdx (ix2 r q) ((contrEquiv1 wholeDot1 128 rfl rfl).symm k) = ix2 r k := funext fun a => Fin.ext (by
    match a with
    | ⟨0, _⟩ => exact wholeDot1_lhs0 _ _
    | ⟨1, _⟩ => exact (wholeDot1_lhs1 _ _).trans hk)
  have er : wholeDot1.rhsIdx (ix2 r q) ((contrEquiv1 wholeDot1 128 rfl rfl).symm k) = ix2 k q := funext fun a => Fin.ext (by
    match a with
    | ⟨0, _⟩ => exact (wholeDot1_rhs0 _ _).trans hk
    | ⟨1, _⟩ => exact wholeDot1_rhs1 _ _)
  rw [el, er]

/-! # Region 1: from the blocks to the array

Grid point t of the 20 loads rows 5000·t … 5000·t+4999 of the left array, the whole bias row and the whole weight, and
writes the product back to the same rows of the result. Row r of the result is therefore written by point r / 5000, and
holds row r of the whole product. -/

theorem zeroOffsets1 : (![0, 0] : Fin 2 → Nat) = fun _ => 0 := funext fun a => by fin_cases a <;> rfl

/-- The block indices of the four windows at every grid point: the row windows step with the point, the bias row's and
    the weight's stay at the origin. -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- One entry of the block product against one entry of the whole product: if the loaded block x0 is rows
    5000·n … of A, the loaded row x1 is B and the loaded weight x2 is W, entry j of the block product is entry i of the
    whole product, i being j moved down by 5000·n rows. -/
theorem blockProduct1_entry (A : FVec Ideal Cert.ReferenceIdeal.S100000x128 .f32) (B : FVec Ideal Cert.ReferenceIdeal.S1x128 .f32)
    (W : FVec Ideal Cert.ReferenceIdeal.S128x64 .f32)
    (x0 : Vec Ideal S5000x128 .f32) (x1 : Vec Ideal S1x128 .f32) (x2 : Vec Ideal S128x64 .f32) (n : Nat)
    (j : S5000x64.Idx) (i : Cert.ReferenceIdeal.S100000x64.Idx)
    (hi0 : (i 0).val = n * 5000 + (j 0).val) (hi1 : (i 1).val = (j 1).val)
    (h0 : ∀ (y : S5000x128.Idx) (z : Cert.ReferenceIdeal.S100000x128.Idx), (z 0).val = n * 5000 + (y 0).val → (z 1).val = (y 1).val → x0 y = A z)
    (h1 : ∀ (y : S1x128.Idx) (z : Cert.ReferenceIdeal.S1x128.Idx), (z 0).val = (y 0).val → (z 1).val = (y 1).val → x1 y = B z)
    (h2 : ∀ (y : S128x64.Idx) (z : Cert.ReferenceIdeal.S128x64.Idx), (z 0).val = (y 0).val → (z 1).val = (y 1).val → x2 y = W z) :
    Gen.k1_pay1 (F := Ideal) x0 x1 x2 j = Host.dotGeneral (F := Ideal) wholeDot1 none (biasRelu A B) W i := by
  obtain ⟨p, q, rfl⟩ : ∃ (p : Fin 5000) (q : Fin 64), j = ix2 p q := ⟨j 0, j 1, eq_ix2 j⟩
  obtain ⟨r, q', rfl⟩ : ∃ (r : Fin 100000) (q' : Fin 64), i = ix2 r q' := ⟨i 0, i 1, eq_ix2 i⟩
  have hq : q' = q := Fin.ext hi1
  subst hq
  rw [pay1_apply, wholeDot1_apply]
  refine Finset.sum_congr rfl fun k _ => ?_
  rw [biasRelu_apply, h0 (ix2 p k) (ix2 r k) hi0 rfl, h1 (ix2 (0 : Fin 1) k) (ix2 (0 : Fin 1) k) rfl rfl, h2 (ix2 k q') (ix2 k q') rfl rfl]

section
variable (V : (c : Dev nD) → (b : Ref sig .tc) → Buf (Elt Ideal) ((c : Thread nD τ).loc b))

/-- What point t writes back is block t of the whole product of the arrays the region finds. -/
theorem flushed1_eq (c : Dev nD) (t : Fin cfg1.N) :
    (Gen.dat1 (F := Ideal) V c).flushed 3 t
      = ((cfg1.win 3).blk t).view.read (Elt Ideal)
          (Host.dotGeneral (F := Ideal) (φ₁ := .f32) (φ₂ := .f32) wholeDot1 none
            (biasRelu (V c (Pipeline.arrRef spec1 0)) (V c (Pipeline.arrRef spec1 1))) (V c (Pipeline.arrRef spec1 2))) := by
  show (cfg1.win 3).cut (grid1.coords t) ((Gen.dat1 (F := Ideal) V c).after 3 t) = _
  rw [Gen.after1_3]
  unfold Gen.out1_3
  rw [View.canon_unit_zero zeroOffsets1]
  simp only [View.ld_unit_zero (S := S5000x128) zeroOffsets1, View.ld_unit_zero (S := S1x128) zeroOffsets1,
    View.ld_unit_zero (S := S128x64) zeroOffsets1]
  obtain ⟨e0, e1, e2, e3, e4, e5, e6, e7⟩ := blockIndex1 t
  funext j
  refine blockProduct1_entry (V c (Pipeline.arrRef spec1 0)) (V c (Pipeline.arrRef spec1 1)) (V c (Pipeline.arrRef spec1 2))
    (Gen.iblk1 V c 0 t) (Gen.iblk1 V c 1 t) (Gen.iblk1 V c 2 t) t.val j (((cfg1.win 3).blk t).view.emb j) ?_ ?_ ?_ ?_ ?_
  · show win1_3.index t (0 : Fin 2) * 5000 + 1 * (j 0).val = _
    rw [e6]; omega
  · show win1_3.index t (1 : Fin 2) * 64 + 1 * (j 1).val = _
    rw [e7]; omega
  · intro y z hz0 hz1
    unfold Gen.iblk1
    rw [View.read_apply]
    refine congrArg (V c (Pipeline.arrRef spec1 0)) (funext fun a => Fin.ext ?_)
    match a with
    | ⟨0, _⟩ => show win1_0.index t (0 : Fin 2) * 5000 + 1 * (y 0).val = (z 0).val; rw [e0, hz0]; omega
    | ⟨1, _⟩ => show win1_0.index t (1 : Fin 2) * 128 + 1 * (y 1).val = (z 1).val; rw [e1, hz1]; omega
  · intro y z hz0 hz1
    unfold Gen.iblk1
    rw [View.read_apply]
    refine congrArg (V c (Pipeline.arrRef spec1 1)) (funext fun a => Fin.ext ?_)
    match a with
    | ⟨0, _⟩ => show win1_1.index t (0 : Fin 2) * 1 + 1 * (y 0).val = (z 0).val; rw [e2, hz0]; omega
    | ⟨1, _⟩ => show win1_1.index t (1 : Fin 2) * 128 + 1 * (y 1).val = (z 1).val; rw [e3, hz1]; omega
  · intro y z hz0 hz1
    unfold Gen.iblk1
    rw [View.read_apply]
    refine congrArg (V c (Pipeline.arrRef spec1 2)) (funext fun a => Fin.ext ?_)
    match a with
    | ⟨0, _⟩ => show win1_2.index t (0 : Fin 2) * 128 + 1 * (y 0).val = (z 0).val; rw [e4, hz0]; omega
    | ⟨1, _⟩ => show win1_2.index t (1 : Fin 2) * 64 + 1 * (y 1).val = (z 1).val; rw [e5, hz1]; omega

/-- An index of the result array is in point t's block iff each coordinate is in the block's range on its axis. -/
theorem mem_block1 (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v48).slice (win1_3.rect t)).set ↔ _
  rw [View.set_slice_whole, Rect.mem_set_unit]
  exact Iff.rfl

/-- Every row r of the result is written by point r / 5000. -/
theorem cover1 (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := Gen.N_1
  let t : Fin cfg1.N := ⟨(i 0).val / 5000, by rw [hN]; omega⟩
  obtain ⟨e0, e1, e2, e3, e4, e5, e6, e7⟩ := blockIndex1 t
  have ht : t.val = (i 0).val / 5000 := rfl
  refine ⟨t, Gen.flush1_3 t, ?_⟩
  rw [mem_block1]
  intro a
  match a with
  | ⟨0, _⟩ => show win1_3.index t (0 : Fin 2) * 5000 ≤ (i 0).val ∧ (i 0).val < win1_3.index t (0 : Fin 2) * 5000 + 5000; rw [e6, ht]; omega
  | ⟨1, _⟩ => show win1_3.index t (1 : Fin 2) * 64 ≤ (i 1).val ∧ (i 1).val < win1_3.index t (1 : Fin 2) * 64 + 64; rw [e7]; omega

/-- REGION 1: the result array after the region is the whole product, by the weight, of the left array shifted by the
    bias row and cut below at zero — the arrays being those the region finds. -/
theorem matmul1_array (c : Dev nD) :
    (Gen.dat1 (F := Ideal) V c).arrAt 3 cfg1.N
      = Host.dotGeneral (F := Ideal) (φ₁ := .f32) (φ₂ := .f32) Cert.ReferenceIdeal.dot_S100000x128_S128x64_S100000x64_1_0_0_1_n_n none
          (maximumf (F := Ideal) (φ := .f32)
            (addf (F := Ideal) (φ := .f32) (V c (Pipeline.arrRef spec1 0))
              (broadcastInDim Cert.ReferenceIdeal.S100000x128 ![0, 1] Cert.ReferenceIdeal.Facts₀.bcast_S1x128_S100000x128_0_1 (V c (Pipeline.arrRef spec1 1))))
            (broadcastInDim Cert.ReferenceIdeal.S100000x128 ![] Cert.ReferenceIdeal.Facts₀.bcast_S_S100000x128 (constant (F := Ideal) Cert.ReferenceIdeal.S_ .f32 0x00000000#32)))
          (V c (Pipeline.arrRef spec1 2)) :=
  (Gen.dat1 (F := Ideal) V c).arrAt_eq_of_cover 3 _ (fun t _ => flushed1_eq V c t) cover1

end

end Cert.KernelIdeal.RegionValue
end
-- ==== Proof.RefLogSoftmax.lean ====
import proofs.«180835_j69956427317969_2_alg».proof.Proof.Gen.ReferenceIdeal
import Idealize.ShloMosaic.Lib.StableHlo.Run
import Idealize.ShloMosaic.PureOps.Ideal

/-! The reference program's log-softmax over rows of 64, as a function of its operand:
X - rowmax X - log (rowsum (exp (X - rowmax X))), the row maximum and the row sum each kept as a
column and broadcast back along the row. -/

noncomputable section

namespace Cert.Bridge

open Cert.ReferenceIdeal Cert.ReferenceIdeal.Gen Idealize.ShloMosaic Idealize.ShloMosaic.TcCoe Idealize.SL.Sem Idealize.ShloMosaic.StableHlo

/-- Row-wise log-softmax of a 100000×64 array of extended reals, spelt exactly as the reference program spells it. -/
def refLogSoftmax (X : FVec Ideal S100000x64 .f32) : FVec Ideal S100000x64 .f32 :=
  subf (subf X (broadcastInDim S100000x64 ![0, 1] bcast_S100000x1_S100000x64_0_1 (broadcastInDim S100000x1 ![0] bcast_S100000_S100000x1_0 (maximumf (broadcastInDim S100000 ![] bcast_S_S100000 (constant S_ .f32 0xFF800000#32)) (Host.reduce FloatOps.maximumf X (constant S_ .f32 0xFF800000#32) reducesTo_S100000x64_S100000_d1 h_S_))))) (broadcastInDim S100000x64 ![0, 1] bcast_S100000x1_S100000x64_0_1 (Host.log (broadcastInDim S100000x1 ![0] bcast_S100000_S100000x1_0 (Host.reduceAdd (Host.exp (subf X (broadcastInDim S100000x64 ![0, 1] bcast_S100000x1_S100000x64_0_1 (broadcastInDim S100000x1 ![0] bcast_S100000_S100000x1_0 (maximumf (broadcastInDim S100000 ![] bcast_S_S100000 (constant S_ .f32 0xFF800000#32)) (Host.reduce FloatOps.maximumf X (constant S_ .f32 0xFF800000#32) reducesTo_S100000x64_S100000_d1 h_S_)))))) (constant S_ .f32 0x00000000#32) reducesTo_S100000x64_S100000_d1 h_S_))))

end Cert.Bridge
-- ==== Proof.LogSoftmaxRow.lean ====
import Idealize.ShloMosaic.Lib.ValueLayout
import Idealize.ShloMosaic.PureOps.Ideal.Laws

/-! Row-wise log-softmax over a row of 64 extended reals, and the layout facts that read a
keep-dimensions column (`[a] → [a, 1] → [a, b]`) and a reduction along axis 1 at explicit coordinates.

For a row `x : Fin 64 → EReal` the row maximum is the fold of `max` from `-∞` over the 64 lanes, and
`lsmRow x q = (x q - rowMax x) - log (∑ k, exp (x k - rowMax x))`. -/

noncomputable section

namespace Cert.Bridge

open Idealize.ShloMosaic Idealize.ShloMosaic.ValueIdx Idealize.SL.Sem
open scoped BigOperators

/-- The maximum of a row of 64: the fold of `max` over the lanes, started from the f32 word of `-∞`. -/
def rowMax (x : Fin 64 → EReal) : EReal :=
  (Finset.univ : Finset (Fin 64)).fold max (Ideal.ofBits .f32 0xFF800000#32) x

/-- Log-softmax of a row of 64 at lane `q`: shift by the row maximum, subtract the log of the sum of exponentials. -/
def lsmRow (x : Fin 64 → EReal) (q : Fin 64) : EReal :=
  (x q - rowMax x) - Ideal.log (∑ k : Fin 64, Ideal.exp (x k - rowMax x))

variable {α : Type}

/-- An `[a]` array cast to a column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Reducing `[m, n]` along axis 1: the reduced index `p` with lane `k` put back is `(p, k)`. -/
theorem lift_axis1_ix2 {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

end Cert.Bridge
-- ==== Proof.PayloadLogSoftmax.lean ====
import proofs.«180835_j69956427317969_2_alg».proof.Proof.Gen.KernelIdeal.Skeleton
import proofs.«180835_j69956427317969_2_alg».proof.Proof.LogSoftmaxRow

/-! The bias + log-softmax body's arithmetic, read at row `p` and lane `q` of its 5000×64 block.

With `x k = block (p, k) + bias (0, k)` the body computes the lane maximum `m` of the row (kept as a column and
broadcast back), `z = x - m`, and `z - log (∑ k, exp (z k))`: the row's log-softmax at lane `q`. -/

noncomputable section

namespace Cert.KernelIdeal.RegionValue

open Cert.KernelIdeal Cert.KernelIdeal.Gen Cert.Bridge Idealize.ShloMosaic Idealize.ShloMosaic.ValueIdx Idealize.SL.Sem
open scoped BigOperators

/-- The lane maximum of a 5000×64 array, kept as a column and broadcast back along the rows, at `(p, q)`:
    the maximum of row `p`. -/
theorem colMax_apply (x : FVec Ideal S5000x64 .f32) (hr : S5000x64.Reduces [1] S5000) (hφ : FKind.Formats .f32)
    (hacc : (0xFF800000#32 : BitVec 32) = FKind.maximumf.neutral .f32 hφ) (hc : S5000.ShapeCasts S5000x1)
    (hb : S5000x1.Broadcasts S5000x64) (p : Fin 5000) (q : Fin 64) :
    broadcastTo S5000x64 (shapeCast S5000x1 (multiReduction (F := Ideal) .maximumf [1] S5000 x 0xFF800000#32 hr hφ hacc) hc) hb (ix2 p q)
      = rowMax (fun k => x (ix2 p k)) := by
  refine (broadcastTo_a1_ab_apply _ hb p q).trans ?_
  refine (shapeCast_a_a1_apply _ hc p (0 : Fin 1)).trans ?_
  refine (Ideal.multiReduction_maximumf_single x _ hr hφ hacc (ix1 p)).trans ?_
  have hf : (x ∘ hr.lift (ix1 p)) = fun k : Fin 64 => x (ix2 p k) :=
    funext fun k => congrArg x (lift_axis1_ix2 hr p k)
  exact congrArg (fun f => Finset.fold max (Ideal.ofBits .f32 0xFF800000#32) f (Finset.univ : Finset (Fin 64))) hf

/-- The log of the lane sum of a 5000×64 array, the sum kept as a column and the log broadcast back along the rows,
    at `(p, q)`: the log of the sum of row `p`. -/
theorem colLogSum_apply (e : FVec Ideal S5000x64 .f32) (hr : S5000x64.Reduces [1] S5000) (hφ : FKind.Formats .f32)
    (hacc : (0x00000000#32 : BitVec 32) = FKind.add.neutral .f32 hφ) (hc : S5000.ShapeCasts S5000x1)
    (hb : S5000x1.Broadcasts S5000x64) (p : Fin 5000) (q : Fin 64) :
    broadcastTo S5000x64 (log (shapeCast S5000x1 (multiReduction (F := Ideal) .add [1] S5000 e 0x00000000#32 hr hφ hacc) hc)) hb (ix2 p q)
      = Ideal.log (∑ k : Fin 64, e (ix2 p k)) := by
  refine (broadcastTo_a1_ab_apply _ hb p q).trans ?_
  refine congrArg Ideal.log ?_
  refine (shapeCast_a_a1_apply _ hc p (0 : Fin 1)).trans ?_
  refine (Ideal.multiReduction_add_single e _ hr hφ hacc (ix1 p)).trans ?_
  exact Finset.sum_congr rfl fun k _ => congrArg e (lift_axis1_ix2 hr p k)

/-- The block plus the bias row broadcast over the rows, at `(p, k)`. -/
theorem biased_apply (v0 : FVec Ideal S5000x64 .f32) (v2 : FVec Ideal S1x64 .f32) (h0 : S5000x64.ShapeCasts S5000x64)
    (h1 : S1x64.ShapeCasts S1x64) (hb : S1x64.Broadcasts S5000x64) (p : Fin 5000) (k : Fin 64) :
    addf (shapeCast S5000x64 v0 h0) (broadcastTo S5000x64 (shapeCast S1x64 v2 h1) hb) (ix2 p k)
      = v0 (ix2 p k) + v2 (ix2 (0 : Fin 1) k) := by
  rw [shapeCast_self v0 h0, shapeCast_self v2 h1]
  exact congrArg (v0 (ix2 p k) + ·) (broadcastTo_1b_ab_apply v2 hb p k)

/-- THE BODY'S VALUE at row `p`, lane `q`: the log-softmax of the biased row. -/
theorem k2_pay1_apply (v0 : Vec Ideal S5000x64 .f32) (v2 : Vec Ideal S1x64 .f32) (p : Fin 5000) (q : Fin 64) :
    k2_pay1 (F := Ideal) v0 v2 (ix2 p q) = lsmRow (fun k => v0 (ix2 p k) + v2 (ix2 (0 : Fin 1) k)) q := by
  unfold k2_pay1
  dsimp only
  -- name the biased block once: its row `p` is `k ↦ block (p, k) + bias (0, k)`
  have hX : ∀ k : Fin 64, (addf (shapeCast S5000x64 v0 shapeCasts_S5000x64_S5000x64)
      (broadcastTo S5000x64 (shapeCast S1x64 v2 shapeCasts_S1x64_S1x64) broadcasts_S1x64_S5000x64) : FVec Ideal S5000x64 .f32) (ix2 p k)
        = v0 (ix2 p k) + v2 (ix2 (0 : Fin 1) k) := fun k => biased_apply v0 v2 _ _ _ p k
  generalize (addf (shapeCast S5000x64 v0 shapeCasts_S5000x64_S5000x64)
      (broadcastTo S5000x64 (shapeCast S1x64 v2 shapeCasts_S1x64_S1x64) broadcasts_S1x64_S5000x64) : FVec Ideal S5000x64 .f32) = X at hX ⊢
  have hrow : (fun k : Fin 64 => X (ix2 p k)) = fun k => v0 (ix2 p k) + v2 (ix2 (0 : Fin 1) k) := funext hX
  rw [← hrow]
  unfold lsmRow
  refine (subf_apply _ _ _).trans ?_
  refine congrArg₂ (· - ·) ?_ ?_
  · refine (subf_apply _ _ _).trans ?_
    exact congrArg (X (ix2 p q) - ·) (colMax_apply X _ _ _ _ _ p q)
  · refine (colLogSum_apply _ _ _ _ _ _ p q).trans ?_
    refine congrArg Ideal.log (Finset.sum_congr rfl fun k _ => ?_)
    show Ideal.exp (subf X _ (ix2 p k)) = _
    refine congrArg Ideal.exp ?_
    refine (subf_apply _ _ _).trans ?_
    exact congrArg (X (ix2 p k) - ·) (colMax_apply X _ _ _ _ _ p k)

end Cert.KernelIdeal.RegionValue
-- ==== Proof.RefLogSoftmaxRow.lean ====
import proofs.«180835_j69956427317969_2_alg».proof.Proof.RefLogSoftmax
import proofs.«180835_j69956427317969_2_alg».proof.Proof.LogSoftmaxRow

/-! The reference's log-softmax read at row `r` and lane `q` of its 100000×64 operand.

The reference takes the row maximum by a reduce from `-∞` (and a further `max` with `-∞`, which changes nothing),
keeps it as a column `[100000, 1]`, broadcasts it back, and does the same with the sum of exponentials started from
`0`: at `(r, q)` this is the log-softmax of row `r` at lane `q`. -/

noncomputable section

namespace Cert.Bridge

open Cert.ReferenceIdeal Cert.ReferenceIdeal.Gen Idealize.ShloMosaic Idealize.ShloMosaic.ValueIdx Idealize.SL.Sem
open scoped BigOperators

variable {α : Type}

/-- A column `[a, 1]` broadcast to `[a, b]` on the axes `(0, 1)` reads, at `(r, c)`, the column's entry of row `r`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2)) (r : Fin a) (c : Fin b) :
    broadcastInDim ⟨2, ![a, b]⟩ ![0, 1] h v (ix2 r c) = v (ix2 r (0 : Fin 1)) := by
  refine broadcastInDim_apply ![0, 1] h v (ix2 r c) (ix2 r (0 : Fin 1)) fun ax => ?_
  match ax with
  | ⟨0, _⟩ =>
    show r.val = if a = 1 then 0 else r.val
    split
    · have := r.isLt; omega
    · rfl
  | ⟨1, _⟩ => rfl

/-- A row `[1, b]` broadcast to `[a, b]` on the axes `(0, 1)` reads, at `(r, c)`, the row's entry at lane `c`. -/
theorem broadcastInDim_1b_ab_apply {a b : ℕ} (v : (⟨2, ![1, b]⟩ : Shape).Idx → α)
    (h : (⟨2, ![1, b]⟩ : Shape).BroadcastsInDim ⟨2, ![a, b]⟩ (![0, 1] : Fin 2 → Fin 2)) (r : Fin a) (c : Fin b) :
    broadcastInDim ⟨2, ![a, b]⟩ ![0, 1] h v (ix2 r c) = v (ix2 (0 : Fin 1) c) := by
  refine broadcastInDim_apply ![0, 1] h v (ix2 r c) (ix2 (0 : Fin 1) c) fun ax => ?_
  match ax with
  | ⟨0, _⟩ => rfl
  | ⟨1, _⟩ =>
    show c.val = if b = 1 then 0 else c.val
    split
    · have := c.isLt; omega
    · rfl

/-- An `[a]` array broadcast to a column `[a, 1]` on axis 0 reads, at `(r, u)`, the array at `r`. -/
theorem broadcastInDim_a_a1_apply {a : ℕ} (v : (⟨1, ![a]⟩ : Shape).Idx → α)
    (h : (⟨1, ![a]⟩ : Shape).BroadcastsInDim ⟨2, ![a, 1]⟩ (![0] : Fin 1 → Fin 2)) (r : Fin a) (u : Fin 1) :
    broadcastInDim ⟨2, ![a, 1]⟩ ![0] h v (ix2 r u) = v (ix1 r) := by
  refine broadcastInDim_apply ![0] h v (ix2 r u) (ix1 r) fun ax => ?_
  match ax with
  | ⟨0, _⟩ =>
    show r.val = if a = 1 then 0 else r.val
    split
    · have := r.isLt; omega
    · rfl

/-- A scalar broadcast to `[a]` reads the scalar at every index. -/
theorem broadcastInDim_scalar_apply {a : ℕ} (v : (⟨0, ![]⟩ : Shape).Idx → α)
    (h : (⟨0, ![]⟩ : Shape).BroadcastsInDim ⟨1, ![a]⟩ (![] : Fin 0 → Fin 1)) (j : (⟨1, ![a]⟩ : Shape).Idx) :
    broadcastInDim ⟨1, ![a]⟩ ![] h v j = v ix0 :=
  broadcastInDim_apply ![] h v j ix0 fun ax => ax.elim0

/-- From `-∞`, `max` returns the other operand. -/
theorem max_negInf (y : EReal) : max (Ideal.ofBits .f32 0xFF800000#32) y = y := by
  simp [Ideal.ofBits, Ideal.ieee]

/-- The host's `log` of an array, at an index: the extended-real `log` of the entry. -/
theorem hostLog_apply {s : Shape} (x : FVec Ideal s .f32) (i : s.Idx) : Host.log x i = Ideal.log (x i) := by
  unfold Host.log
  exact Ideal.hostUnary_log_def (x i)

/-- The host's `exp` of an array, at an index: the extended-real `exp` of the entry. -/
theorem hostExp_apply {s : Shape} (x : FVec Ideal s .f32) (i : s.Idx) : Host.exp x i = Ideal.exp (x i) := by
  unfold Host.exp
  exact Ideal.hostUnary_exp_def (x i)

/-- The 100000×64 array reduces along its lanes to the 100000 rows. -/
theorem reduces_rows : S100000x64.Reduces [1] S100000 := by decide

/-- The reference's row maximum, kept as a column and broadcast back, at `(r, c)`: the maximum of row `r`. -/
theorem refColMax_apply (X : FVec Ideal S100000x64 .f32) (r : Fin 100000) (c : Fin 64) :
    broadcastInDim S100000x64 ![0, 1] bcast_S100000x1_S100000x64_0_1 (broadcastInDim S100000x1 ![0] bcast_S100000_S100000x1_0
        (maximumf (broadcastInDim S100000 ![] bcast_S_S100000 (constant (F := Ideal) S_ .f32 0xFF800000#32))
          (Host.reduce FloatOps.maximumf X (constant (F := Ideal) S_ .f32 0xFF800000#32) reducesTo_S100000x64_S100000_d1 h_S_))) (ix2 r c)
      = rowMax (fun k => X (ix2 r k)) := by
  refine (broadcastInDim_a1_ab_apply _ _ r c).trans ?_
  refine (broadcastInDim_a_a1_apply _ _ r (0 : Fin 1)).trans ?_
  refine (maximumf_apply _ _ _).trans ?_
  have h1 : broadcastInDim S100000 ![] bcast_S_S100000 (constant (F := Ideal) S_ .f32 0xFF800000#32) (ix1 r)
      = Ideal.ofBits .f32 0xFF800000#32 := broadcastInDim_scalar_apply _ _ (ix1 r)
  have h2 : Host.reduce FloatOps.maximumf X (constant (F := Ideal) S_ .f32 0xFF800000#32) reducesTo_S100000x64_S100000_d1 h_S_ (ix1 r)
      = rowMax (fun k => X (ix2 r k)) := by
    refine (Host.reduce_eq_fold_single FloatOps.maximumf X _ reducesTo_S100000x64_S100000_d1 reduces_rows h_S_ (ix1 r)).trans ?_
    have hf : (X ∘ reduces_rows.lift (ix1 r)) = fun k : Fin 64 => X (ix2 r k) :=
      funext fun k => congrArg X (lift_axis1_ix2 reduces_rows r k)
    exact congrArg (fun f => Finset.fold max (Ideal.ofBits .f32 0xFF800000#32) f (Finset.univ : Finset (Fin 64))) hf
  rw [h1, h2]
  exact max_negInf _

/-- The reference's log of the row sum from `0`, the sum kept as a column and the log broadcast back, at `(r, q)`. -/
theorem refColLogSum_apply (E : FVec Ideal S100000x64 .f32) (r : Fin 100000) (q : Fin 64) :
    broadcastInDim S100000x64 ![0, 1] bcast_S100000x1_S100000x64_0_1 (Host.log (broadcastInDim S100000x1 ![0] bcast_S100000_S100000x1_0
        (Host.reduceAdd E (constant (F := Ideal) S_ .f32 0x00000000#32) reducesTo_S100000x64_S100000_d1 h_S_))) (ix2 r q)
      = Ideal.log (∑ k : Fin 64, E (ix2 r k)) := by
  refine (broadcastInDim_a1_ab_apply _ _ r q).trans ?_
  refine (hostLog_apply _ _).trans ?_
  refine congrArg Ideal.log ?_
  refine (broadcastInDim_a_a1_apply _ _ r (0 : Fin 1)).trans ?_
  refine (Ideal.hostReduceAdd_single reducesTo_S100000x64_S100000_d1 reduces_rows E _ (ix1 r)).trans ?_
  show Ideal.ofBits .f32 0x00000000#32 + _ = _
  rw [Ideal.ofBits_zero_f32, zero_add]
  exact Finset.sum_congr rfl fun k _ => congrArg E (lift_axis1_ix2 reduces_rows r k)

/-- THE REFERENCE'S VALUE at row `r`, lane `q`: the log-softmax of row `r` of its operand. -/
theorem refLogSoftmax_apply (X : FVec Ideal S100000x64 .f32) (r : Fin 100000) (q : Fin 64) :
    refLogSoftmax X (ix2 r q) = lsmRow (fun k => X (ix2 r k)) q := by
  unfold refLogSoftmax lsmRow
  refine (subf_apply _ _ _).trans ?_
  refine congrArg₂ (· - ·) ?_ ?_
  · refine (subf_apply _ _ _).trans ?_
    exact congrArg (X (ix2 r q) - ·) (refColMax_apply X r q)
  · refine (refColLogSum_apply _ r q).trans ?_
    refine congrArg Ideal.log (Finset.sum_congr rfl fun k _ => ?_)
    refine (hostExp_apply _ _).trans ?_
    refine congrArg Ideal.exp ?_
    refine (subf_apply _ _ _).trans ?_
    exact congrArg (X (ix2 r k) - ·) (refColMax_apply X r k)

end Cert.Bridge
-- ==== Proof.RegionLogSoftmax.lean ====
import proofs.«180835_j69956427317969_2_alg».proof.Proof.Gen.KernelIdeal.Frame
import proofs.«180835_j69956427317969_2_alg».proof.Proof.PayloadLogSoftmax
import proofs.«180835_j69956427317969_2_alg».proof.Proof.RefLogSoftmaxRow
import Idealize.ShloMosaic.Lib.Pipeline.Value

/-! The third region (bias + log-softmax over rows of 64) as a whole array.

The region runs 20 points; point `t` reads rows `5000 t … 5000 t + 4999` of its 100000×64 input and the one bias row,
and writes back the 5000×64 block whose row `p` is the log-softmax of input row `5000 t + p` plus the bias. Each such block
is the block of ONE array — the reference's log-softmax of (input + bias row broadcast over the rows) — and the 20 blocks
cover that array (row `r` is in the block of point `r / 5000`), so the region's output array is that array. -/

set_option maxRecDepth 16384

noncomputable section

namespace Cert.KernelIdeal.RegionValue

open Cert.KernelIdeal Cert.KernelIdeal.Gen Cert.Bridge Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets, however spelt. -/
theorem hz : (![0, 0] : Fin 2 → Nat) = fun _ => 0 := funext fun a => by fin_cases a <;> rfl

/-- The block indices, decided over the 20 points: the input and the output move together along the rows (block `t` at
    point `t`, one block across the lanes), and the bias row's only block is read at every point. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The array the region leaves: the reference's log-softmax of the entry array plus the bias row over the rows. -/
abbrev G (c : Dev nD) : FVec Ideal Cert.ReferenceIdeal.S100000x64 .f32 :=
  Cert.Bridge.refLogSoftmax (addf (V c (Pipeline.arrRef spec2 0))
    (broadcastInDim Cert.ReferenceIdeal.S100000x64 ![0, 1] Cert.ReferenceIdeal.Facts₀.bcast_S1x64_S100000x64_0_1 (V c (Pipeline.arrRef spec2 1))))

/-- Row `p` of a block against row `r` of the array: if the block's row is the array's row `r` and the bias block is the
    bias row, the row's log-softmax at lane `q` is the reference's log-softmax of the biased array at `(r, q)`. -/
theorem row_eq (A0 : FVec Ideal Cert.ReferenceIdeal.S100000x64 .f32) (A1 : FVec Ideal Cert.ReferenceIdeal.S1x64 .f32)
    (x0 : FVec Ideal S5000x64 .f32) (x1 : FVec Ideal S1x64 .f32) (p : Fin 5000) (q : Fin 64) (r : Fin 100000)
    (h0 : ∀ k : Fin 64, x0 (ix2 p k) = A0 (ix2 r k)) (h1 : ∀ k : Fin 64, x1 (ix2 (0 : Fin 1) k) = A1 (ix2 (0 : Fin 1) k)) :
    lsmRow (fun k => x0 (ix2 p k) + x1 (ix2 (0 : Fin 1) k)) q
      = Cert.Bridge.refLogSoftmax (addf A0 (broadcastInDim Cert.ReferenceIdeal.S100000x64 ![0, 1]
          Cert.ReferenceIdeal.Facts₀.bcast_S1x64_S100000x64_0_1 A1)) (ix2 r q) := by
  refine Eq.trans ?_ (refLogSoftmax_apply _ r q).symm
  refine congrArg (fun f => lsmRow f q) (funext fun k => ?_)
  rw [h0 k, h1 k]
  refine ((addf_apply _ _ _).trans ?_).symm
  exact congrArg (A0 (ix2 r k) + ·) (broadcastInDim_1b_ab_apply A1 _ r k)

/-- WHAT POINT `t` WRITES BACK is block `t` of that array: row `p` of the body's block is the log-softmax of the biased
    input row `5000 t + p`, which is the reference's value at that row. -/
theorem flushed_eq (c : Dev nD) (t : Fin cfg2.N) :
    (dat2 (F := Ideal) V c).flushed 2 t = ((cfg2.win 2).blk t).view.read (Elt Ideal) (G V c) := by
  show (cfg2.win 2).cut (grid2.coords t) ((dat2 V c).after 2 t) = _
  rw [after2_2]
  unfold out2_2
  rw [View.canon_unit_zero hz]
  simp only [View.ld_unit_zero (S := S5000x64) hz, View.ld_unit_zero (S := S1x64) hz]
  funext j
  revert j
  show ∀ j : S5000x64.Idx, k2_pay1 (iblk2 V c 0 t) (iblk2 V c 1 t) j
      = View.read (Elt Ideal) ((View.whole main_v69).slice ((win2 2).rect t)) (G V c) j
  intro j
  obtain ⟨p, q, rfl⟩ : ∃ (p : Fin 5000) (q : Fin 64), j = ix2 p q := ⟨j 0, j 1, eq_ix2 j⟩
  refine (k2_pay1_apply (iblk2 V c 0 t) (iblk2 V c 1 t) p q).trans ?_
  have hN : cfg2.N = 20 := N_2
  have ht : t.val < 20 := by have := t.isLt; omega
  obtain ⟨e0, e1, e2, e3, e4, e5⟩ := idx_facts t
  have hp : p.val < 5000 := p.isLt
  -- row `p` of block `t` is row `5000 * t + p` of the array
  obtain ⟨r, hr⟩ : ∃ r : Fin 100000, r.val = 5000 * t.val + p.val := ⟨⟨5000 * t.val + p.val, by omega⟩, rfl⟩
  have hb0 : ∀ k : Fin 64, iblk2 V c 0 t (ix2 p k)
      = (V c (Pipeline.arrRef spec2 0) : Cert.ReferenceIdeal.S100000x64.Idx → EReal) (ix2 r k) := fun k => by
    unfold iblk2
    rw [View.read_apply]
    show (V c (Pipeline.arrRef spec2 0) : Cert.ReferenceIdeal.S100000x64.Idx → EReal) _ = _
    refine congrArg (V c (Pipeline.arrRef spec2 0) : Cert.ReferenceIdeal.S100000x64.Idx → EReal) (funext fun a => Fin.ext ?_)
    match a with
    | ⟨0, _⟩ => show win2_0.index t (0 : Fin 2) * 5000 + 1 * p.val = r.val; rw [e0, hr]; omega
    | ⟨1, _⟩ => show win2_0.index t (1 : Fin 2) * 64 + 1 * k.val = k.val; rw [e1]; omega
  have hb1 : ∀ k : Fin 64, iblk2 V c 1 t (ix2 (0 : Fin 1) k)
      = (V c (Pipeline.arrRef spec2 1) : Cert.ReferenceIdeal.S1x64.Idx → EReal) (ix2 (0 : Fin 1) k) := fun k => by
    unfold iblk2
    rw [View.read_apply]
    show (V c (Pipeline.arrRef spec2 1) : Cert.ReferenceIdeal.S1x64.Idx → EReal) _ = _
    refine congrArg (V c (Pipeline.arrRef spec2 1) : Cert.ReferenceIdeal.S1x64.Idx → EReal) (funext fun a => Fin.ext ?_)
    match a with
    | ⟨0, _⟩ => show win2_1.index t (0 : Fin 2) * 1 + 1 * 0 = 0; rw [e2]
    | ⟨1, _⟩ => show win2_1.index t (1 : Fin 2) * 64 + 1 * k.val = k.val; rw [e3]; omega
  have hG : View.read (Elt Ideal) ((View.whole main_v69).slice ((win2 2).rect t)) (G V c) (ix2 p q) = G V c (ix2 r q) := by
    rw [View.read_apply]
    show (G V c : Cert.ReferenceIdeal.S100000x64.Idx → EReal) _ = _
    refine congrArg (G V c : Cert.ReferenceIdeal.S100000x64.Idx → EReal) (funext fun a => Fin.ext ?_)
    match a with
    | ⟨0, _⟩ => show win2_2.index t (0 : Fin 2) * 5000 + 1 * p.val = r.val; rw [e4, hr]; omega
    | ⟨1, _⟩ => show win2_2.index t (1 : Fin 2) * 64 + 1 * q.val = q.val; rw [e5]; omega
  rw [hG]
  exact row_eq (V c (Pipeline.arrRef spec2 0)) (V c (Pipeline.arrRef spec2 1)) (iblk2 V c 0 t) (iblk2 V c 1 t) p q r hb0 hb1

/-- An index of the array is in point `t`'s block iff each coordinate is in the block's range on its axis. -/
theorem mem_blk (t : Fin cfg2.N) (i : Cert.ReferenceIdeal.S100000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v69).slice (win2_2.rect t)).set ↔ _
  rw [View.set_slice_whole, Rect.mem_set_unit]
  exact Iff.rfl

/-- Every row `r` of the array lies in the block of point `r / 5000`, and every point writes its block back. -/
theorem covered (i : Cert.ReferenceIdeal.S100000x64.Idx) :
    ∃ t : Fin cfg2.N, (cfg2.win 2).flush t = true ∧ i ∈ ((cfg2.win 2).blk t).view.set := by
  have hN : cfg2.N = 20 := N_2
  have hi0 : (i 0).val < 100000 := (i 0).isLt
  have hi1 : (i 1).val < 64 := (i 1).isLt
  obtain ⟨t, htv⟩ : ∃ t : Fin cfg2.N, t.val = (i 0).val / 5000 := ⟨⟨(i 0).val / 5000, by omega⟩, rfl⟩
  obtain ⟨e0, e1, e2, e3, e4, e5⟩ := idx_facts t
  refine ⟨t, flush2_2 t, ?_⟩
  rw [mem_blk]
  intro a
  match a with
  | ⟨0, _⟩ =>
    show win2_2.index t (0 : Fin 2) * 5000 ≤ (i 0).val ∧ (i 0).val < win2_2.index t (0 : Fin 2) * 5000 + 5000
    rw [e4, htv]; omega
  | ⟨1, _⟩ =>
    show win2_2.index t (1 : Fin 2) * 64 ≤ (i 1).val ∧ (i 1).val < win2_2.index t (1 : Fin 2) * 64 + 64
    rw [e5]; omega

/-- THE THIRD REGION'S ARRAY after its 20 points: the reference's log-softmax of the entry array plus the bias row
    broadcast over the rows — every block is a block of that one array, and the blocks cover it. -/
theorem logsoftmax_array (c : Dev nD) :
    (dat2 (F := Ideal) V c).arrAt 2 cfg2.N
      = Cert.Bridge.refLogSoftmax (addf (V c (Pipeline.arrRef spec2 0))
          (broadcastInDim Cert.ReferenceIdeal.S100000x64 ![0, 1] Cert.ReferenceIdeal.Facts₀.bcast_S1x64_S100000x64_0_1
            (V c (Pipeline.arrRef spec2 1)))) :=
  (dat2 (F := Ideal) V c).arrAt_eq_of_cover 2 (G V c) (fun t _ => flushed_eq V c t) covered

end Cert.KernelIdeal.RegionValue
-- ==== Proof.KernelValue.lean ====
/-
  The idealized kernel program's result as ONE function of its six arguments: the first matrix product, the
  aggregation of its rows over the graph (real edges, then the self-loop term), the bias and the maximum with zero, the
  second product, the same aggregation at 64 columns, the bias and the row-wise log-softmax. The three pipelined
  regions contribute the two products and the log-softmax as whole arrays; the host stretches between them the rest.
-/
import proofs.«180835_j69956427317969_2_alg».proof.Proof.KernelFold
import proofs.«180835_j69956427317969_2_alg».proof.Proof.RegionMatmul0
import proofs.«180835_j69956427317969_2_alg».proof.Proof.RegionMatmul1
import proofs.«180835_j69956427317969_2_alg».proof.Proof.RefLogSoftmax
import proofs.«180835_j69956427317969_2_alg».proof.Proof.RegionLogSoftmax

set_option maxRecDepth 16384

noncomputable section

namespace Cert.KernelIdeal.Out

open Cert.KernelIdeal Cert.KernelIdeal.Gen Cert.KernelIdeal.Fold
open Idealize.ShloMosaic Idealize.ShloMosaic.TcCoe Idealize.SL.Sem

abbrev EdgeArr := (⟨S2x640000, .i32⟩ : BufTy).Contents (Elt Ideal)

/-- The inverse root degree of every node, from the edge array. -/
def dinvOf (e : EdgeArr) : FVec Ideal S100000 .f32 := dinv (F := Ideal) (dstRow e)
/-- The first product x · W1. -/
def h1 (x : FVec Ideal S100000x128 .f32) (W1 : FVec Ideal S128x128 .f32) : FVec Ideal S100000x128 .f32 :=
  Host.dotGeneral (F := Ideal) (φ₁ := .f32) (φ₂ := .f32) Cert.ReferenceIdeal.dot_S100000x128_S128x128_S100000x128_1_0_0_1_n_n none x W1
/-- Its rows aggregated over the graph. -/
def a1 (x : FVec Ideal S100000x128 .f32) (e : EdgeArr) (W1 : FVec Ideal S128x128 .f32) : FVec Ideal S100000x128 .f32 :=
  agg128 (F := Ideal) (h1 x W1) (srcRow e) (dstRow e) (edgeW (dinvOf e) (srcRow e) (dstRow e)) (mulf (dinvOf e) (dinvOf e))
/-- The second product: (the aggregate plus the bias row, at least zero) · W2. -/
def h2 (x : FVec Ideal S100000x128 .f32) (e : EdgeArr) (W1 : FVec Ideal S128x128 .f32) (b1 : FVec Ideal S128 .f32)
    (W2 : FVec Ideal S128x64 .f32) : FVec Ideal S100000x64 .f32 :=
  Host.dotGeneral (F := Ideal) (φ₁ := .f32) (φ₂ := .f32) Cert.ReferenceIdeal.dot_S100000x128_S128x64_S100000x64_1_0_0_1_n_n none
    (maximumf (F := Ideal) (φ := .f32)
      (addf (F := Ideal) (φ := .f32) (a1 x e W1)
        (broadcastInDim Cert.ReferenceIdeal.S100000x128 ![0, 1] Cert.ReferenceIdeal.Facts₀.bcast_S1x128_S100000x128_0_1
          (shapeCast S1x128 b1 shapeCasts_S128_S1x128)))
      (broadcastInDim Cert.ReferenceIdeal.S100000x128 ![] Cert.ReferenceIdeal.Facts₀.bcast_S_S100000x128 (constant (F := Ideal) Cert.ReferenceIdeal.S_ .f32 0x00000000#32)))
    W2
/-- Its rows aggregated over the graph. -/
def a2 (x : FVec Ideal S100000x128 .f32) (e : EdgeArr) (W1 : FVec Ideal S128x128 .f32) (b1 : FVec Ideal S128 .f32)
    (W2 : FVec Ideal S128x64 .f32) : FVec Ideal S100000x64 .f32 :=
  agg64 (F := Ideal) (h2 x e W1 b1 W2) (srcRow e) (dstRow e) (edgeW (dinvOf e) (srcRow e) (dstRow e)) (mulf (dinvOf e) (dinvOf e))
/-- The result: the row-wise log-softmax of the second aggregate plus the bias row. -/
def out (x : FVec Ideal S100000x128 .f32) (e : EdgeArr) (W1 : FVec Ideal S128x128 .f32) (b1 : FVec Ideal S128 .f32)
    (W2 : FVec Ideal S128x64 .f32) (b2 : FVec Ideal S64 .f32) : FVec Ideal S100000x64 .f32 :=
  Cert.Bridge.refLogSoftmax (addf (F := Ideal) (φ := .f32) (a2 x e W1 b1 W2)
    (broadcastInDim Cert.ReferenceIdeal.S100000x64 ![0, 1] Cert.ReferenceIdeal.Facts₀.bcast_S1x64_S100000x64_0_1
      (shapeCast S1x64 b2 shapeCasts_S64_S1x64)))

variable (m : (ℓ : Loc nD τ sig) → Buf (Elt Ideal) ℓ) (ρ : Dev nD → PrngReg) (c : Dev nD)

/-! ## Region 0 and the stretch after it -/

/-- What region 0 finds in its two input arrays: the launch contents of the feature array and of the first weight. -/
theorem entry0_left : V1 (F := Ideal) m ρ c (Pipeline.arrRef spec0 0) = m ((c : Thread nD τ).loc main_arg0) := W1_main_arg0 m ρ c
theorem entry0_right : V1 (F := Ideal) m ρ c (Pipeline.arrRef spec0 1) = m ((c : Thread nD τ).loc main_arg2) := W1_main_arg2 m ρ c

/-- Region 0 leaves the first product. -/
theorem region0_out : W2 (F := Ideal) m ρ c (Proc.devRef .tc main_v27)
    = h1 (m ((c : Thread nD τ).loc main_arg0)) (m ((c : Thread nD τ).loc main_arg2)) := by
  rw [W2_out, RegionValue.matmul0_array, entry0_left, entry0_right]
  rfl

/-- The two edge rows, the edge weights and the self weights, as the later boundaries still hold them. -/
theorem src2 : W2 (F := Ideal) m ρ c (Proc.devRef .tc main_v1) = srcRow (m ((c : Thread nD τ).loc main_arg1)) := by
  rw [W2_main_v1, W1_src]
theorem dst2 : W2 (F := Ideal) m ρ c (Proc.devRef .tc main_v3) = dstRow (m ((c : Thread nD τ).loc main_arg1)) := by
  rw [W2_main_v3, W1_dst]
theorem edgeW2 : W2 (F := Ideal) m ρ c (Proc.devRef .tc main_v25)
    = edgeW (dinvOf (m ((c : Thread nD τ).loc main_arg1))) (srcRow (m ((c : Thread nD τ).loc main_arg1))) (dstRow (m ((c : Thread nD τ).loc main_arg1))) := by
  rw [W2_main_v25, W1_edgeW]; rfl
theorem selfW2 : W2 (F := Ideal) m ρ c (Proc.devRef .tc main_v26)
    = mulf (dinvOf (m ((c : Thread nD τ).loc main_arg1))) (dinvOf (m ((c : Thread nD τ).loc main_arg1))) := by
  rw [W2_main_v26, W1_selfW]; rfl

/-- The stretch after region 0 leaves the first aggregate … -/
theorem stretch1_agg : W3 (F := Ideal) m ρ c (Proc.devRef .tc main_v46)
    = a1 (m ((c : Thread nD τ).loc main_arg0)) (m ((c : Thread nD τ).loc main_arg1)) (m ((c : Thread nD τ).loc main_arg2)) := by
  rw [W3_agg, region0_out, src2, dst2, edgeW2, selfW2]
  rfl
/-- … and the first bias as a row, … -/
theorem stretch1_bias : W3 (F := Ideal) m ρ c (Proc.devRef .tc main_v47)
    = shapeCast S1x128 (m ((c : Thread nD τ).loc main_arg3)) shapeCasts_S128_S1x128 := by
  rw [W3_bias, W2_main_arg3, W1_main_arg3]
/-- … and keeps the second weight. -/
theorem stretch1_weight : W3 (F := Ideal) m ρ c (Proc.devRef .tc main_arg4) = m ((c : Thread nD τ).loc main_arg4) := by
  rw [W3_main_arg4, W2_main_arg4, W1_main_arg4]

/-! ## Region 1 and the stretch after it -/

theorem entry1_left : V3 (F := Ideal) m ρ c (Pipeline.arrRef spec1 0)
    = a1 (m ((c : Thread nD τ).loc main_arg0)) (m ((c : Thread nD τ).loc main_arg1)) (m ((c : Thread nD τ).loc main_arg2)) := stretch1_agg m ρ c
theorem entry1_bias : V3 (F := Ideal) m ρ c (Pipeline.arrRef spec1 1)
    = shapeCast S1x128 (m ((c : Thread nD τ).loc main_arg3)) shapeCasts_S128_S1x128 := stretch1_bias m ρ c
theorem entry1_right : V3 (F := Ideal) m ρ c (Pipeline.arrRef spec1 2) = m ((c : Thread nD τ).loc main_arg4) := stretch1_weight m ρ c

/-- Region 1 leaves the second product. -/
theorem region1_out : W4 (F := Ideal) m ρ c (Proc.devRef .tc main_v48)
    = h2 (m ((c : Thread nD τ).loc main_arg0)) (m ((c : Thread nD τ).loc main_arg1)) (m ((c : Thread nD τ).loc main_arg2))
        (m ((c : Thread nD τ).loc main_arg3)) (m ((c : Thread nD τ).loc main_arg4)) := by
  rw [W4_out, RegionValue.matmul1_array, entry1_left, entry1_bias, entry1_right]
  rfl

theorem src4 : W4 (F := Ideal) m ρ c (Proc.devRef .tc main_v1) = srcRow (m ((c : Thread nD τ).loc main_arg1)) := by
  rw [W4_main_v1, W3_main_v1, src2]
theorem dst4 : W4 (F := Ideal) m ρ c (Proc.devRef .tc main_v3) = dstRow (m ((c : Thread nD τ).loc main_arg1)) := by
  rw [W4_main_v3, W3_main_v3, dst2]
theorem edgeW4 : W4 (F := Ideal) m ρ c (Proc.devRef .tc main_v25)
    = edgeW (dinvOf (m ((c : Thread nD τ).loc main_arg1))) (srcRow (m ((c : Thread nD τ).loc main_arg1))) (dstRow (m ((c : Thread nD τ).loc main_arg1))) := by
  rw [W4_main_v25, W3_main_v25, edgeW2]
theorem selfW4 : W4 (F := Ideal) m ρ c (Proc.devRef .tc main_v26)
    = mulf (dinvOf (m ((c : Thread nD τ).loc main_arg1))) (dinvOf (m ((c : Thread nD τ).loc main_arg1))) := by
  rw [W4_main_v26, W3_main_v26, selfW2]

/-- The stretch after region 1 leaves the second aggregate … -/
theorem stretch2_agg : W5 (F := Ideal) m ρ c (Proc.devRef .tc main_v67)
    = a2 (m ((c : Thread nD τ).loc main_arg0)) (m ((c : Thread nD τ).loc main_arg1)) (m ((c : Thread nD τ).loc main_arg2))
        (m ((c : Thread nD τ).loc main_arg3)) (m ((c : Thread nD τ).loc main_arg4)) := by
  rw [W5_agg, region1_out, src4, dst4, edgeW4, selfW4]
  rfl
/-- … and the second bias as a row. -/
theorem stretch2_bias : W5 (F := Ideal) m ρ c (Proc.devRef .tc main_v68)
    = shapeCast S1x64 (m ((c : Thread nD τ).loc main_arg5)) shapeCasts_S64_S1x64 := by
  rw [W5_bias, W4_main_arg5, W3_main_arg5, W2_main_arg5, W1_main_arg5]

/-! ## Region 2 -/

theorem entry2_left : V5 (F := Ideal) m ρ c (Pipeline.arrRef spec2 0)
    = a2 (m ((c : Thread nD τ).loc main_arg0)) (m ((c : Thread nD τ).loc main_arg1)) (m ((c : Thread nD τ).loc main_arg2))
        (m ((c : Thread nD τ).loc main_arg3)) (m ((c : Thread nD τ).loc main_arg4)) := stretch2_agg m ρ c
theorem entry2_bias : V5 (F := Ideal) m ρ c (Pipeline.arrRef spec2 1)
    = shapeCast S1x64 (m ((c : Thread nD τ).loc main_arg5)) shapeCasts_S64_S1x64 := stretch2_bias m ρ c

/-- The program's result buffer at the last boundary is that function of the launch contents of the six arguments,
    given that region 2 leaves the row-wise log-softmax of its left array plus its bias row. -/
theorem result_of_region2
    (hls : ∀ (V : (c : Dev nD) → (b : Ref sig .tc) → Buf (Elt Ideal) ((c : Thread nD τ).loc b)) (c : Dev nD),
      (Gen.dat2 (F := Ideal) V c).arrAt 2 cfg2.N
        = Cert.Bridge.refLogSoftmax (addf (F := Ideal) (φ := .f32) (V c (Pipeline.arrRef spec2 0))
            (broadcastInDim Cert.ReferenceIdeal.S100000x64 ![0, 1] Cert.ReferenceIdeal.Facts₀.bcast_S1x64_S100000x64_0_1 (V c (Pipeline.arrRef spec2 1))))) :
    W6 (F := Ideal) m ρ c (Proc.devRef .tc main_v69)
      = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [W6_out, hls, entry2_left, entry2_bias]
  rfl

/-- The program's result buffer at the last boundary is that function of the launch contents of the six arguments. -/
theorem result_eq : W6 (F := Ideal) m ρ c (Proc.devRef .tc main_v69)
    = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  result_of_region2 m ρ c RegionValue.logsoftmax_array

end Cert.KernelIdeal.Out

end
-- ==== Proof.RefFold.lean ====
/-
  The reference program's result, read back. Its @main is one straight line of host operations, here cut into five
  consecutive stages: (A) the product x·W1, the two edge rows each extended by the node numbers 0 … 99999 (the
  self-loops), the degree as a scatter-add of ones over the extended target row, its inverse square root kept where the
  degree is positive, and the weight of each of the 740000 entries; (B) the aggregation at 128 columns, the bias and the
  maximum with zero; (C) the second product and the same index, degree and weight work again; (D) the aggregation at 64
  columns and the bias; (E) the row-wise log-softmax. Each stage's buffers are stated as plain functions of the buffers
  the stage before left, so that no term is ever written out as a tree over the arguments.
-/
import proofs.«180835_j69956427317969_2_alg».proof.Proof.RefRun
import proofs.«180835_j69956427317969_2_alg».proof.Proof.RefLogSoftmax

set_option maxRecDepth 16384

noncomputable section

namespace Cert.ReferenceIdeal.Fold

open Cert.ReferenceIdeal Cert.ReferenceIdeal.Gen Idealize.ShloMosaic Idealize.ShloMosaic.TcCoe Idealize.SL.Sem Idealize.ShloMosaic.StableHlo

variable {F : FTy → Type} [FloatOps F]

/-- Contents written to a typed buffer and read back are the contents: the two transports along the type equation cancel. -/
theorem ofBuf_toBuf {T : BufTy} {Val : EltTy → Type} (x : TRef sig T) (v : T.Contents Val) : x.ofBuf (x.toBuf v) = v := by
  unfold TRef.ofBuf TRef.toBuf
  simp only [cast_cast, cast_eq]

/-- Running two lines of operations one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The five stages of @main -/

/-- Operations 1 … 40 of @main. -/
abbrev opsA : List (HloOp τ sig (Elt F)) :=
  [ binary main_arg0 main_arg2 main_v0 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_v1 (iotaInDim S100000 32 0),
    unary main_arg1 main_v2 ((extractStridedSlice S1x640000 ![0, 0] · slices_S2x640000_S1x640000_0_0) : (⟨S2x640000, .i32⟩ : BufTy).Contents (Elt F) → (⟨S1x640000, .i32⟩ : BufTy).Contents (Elt F)),
    reshape main_v2 main_v3 rfl shapeCasts_S1x640000_S640000,
    binary main_v3 main_v1 main_v4 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    unary main_arg1 main_v5 ((extractStridedSlice S1x640000 ![1, 0] · slices_S2x640000_S1x640000_1_0) : (⟨S2x640000, .i32⟩ : BufTy).Contents (Elt F) → (⟨S1x640000, .i32⟩ : BufTy).Contents (Elt F)),
    reshape main_v5 main_v6 rfl shapeCasts_S1x640000_S640000,
    binary main_v6 main_v1 main_v7 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    nullary main_cst (constant S_ .f32 0x3F800000#32),
    unary main_cst main_v8 (broadcastInDim S740000 ![] bcast_S_S740000 : (⟨S_, .f32⟩ : BufTy).Contents (Elt F) → (⟨S740000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S740000x1 ![0] bcast_S740000_S740000x1_0 : (⟨S740000, .i32⟩ : BufTy).Contents (Elt F) → (⟨S740000x1, .i32⟩ : BufTy).Contents (Elt F)),
    ternary main_v9 main_v10 main_v8 main_v11 ((fun x i u => Host.scatterAdd scatter_S100000_S740000x1_S740000_n_0_0_1 x i u) : (⟨S100000, .f32⟩ : BufTy).Contents (Elt F) → (⟨S740000x1, .i32⟩ : BufTy).Contents (Elt F) → (⟨S740000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    TRef.ternary (TRef.of (T := ⟨S100000, .i1⟩) main_v13) (TRef.of (T := ⟨S100000, .f32⟩) main_v14) (TRef.of (T := ⟨S100000, .f32⟩) main_v15) (TRef.of (T := ⟨S100000, .f32⟩) main_v16) select,
    nullary main_c (constantI S_ 32 0#32),
    unary main_c main_v17 (broadcastInDim S740000 ![] bcast_S_S740000 : (⟨S_, .i32⟩ : BufTy).Contents (Elt F) → (⟨S740000, .i32⟩ : BufTy).Contents (Elt F)),
    binary main_v4 main_v17 main_v18 (cmpi .slt : (⟨S740000, .i32⟩ : BufTy).Contents (Elt F) → (⟨S740000, .i32⟩ : BufTy).Contents (Elt F) → (⟨S740000, .i1⟩ : BufTy).Contents (Elt F)),
    nullary main_c_3 (constantI S_ 32 100000#32),
    unary main_c_3 main_v19 (broadcastInDim S740000 ![] bcast_S_S740000 : (⟨S_, .i32⟩ : BufTy).Contents (Elt F) → (⟨S740000, .i32⟩ : BufTy).Contents (Elt F)),
    binary main_v4 main_v19 main_v20 (addi : (⟨S740000, .i32⟩ : BufTy).Contents (Elt F) → (⟨S740000, .i32⟩ : BufTy).Contents (Elt F) → (⟨S740000, .i32⟩ : BufTy).Contents (Elt F)),
    ternary main_v18 main_v20 main_v4 main_v21 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v21 main_v22 (broadcastInDim S740000x1 ![0] bcast_S740000_S740000x1_0 : (⟨S740000, .i32⟩ : BufTy).Contents (Elt F) → (⟨S740000x1, .i32⟩ : BufTy).Contents (Elt F)),
    binary main_v16 main_v22 main_v23 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    nullary main_c_4 (constantI S_ 32 0#32),
    unary main_c_4 main_v24 (broadcastInDim S740000 ![] bcast_S_S740000 : (⟨S_, .i32⟩ : BufTy).Contents (Elt F) → (⟨S740000, .i32⟩ : BufTy).Contents (Elt F)),
    binary main_v7 main_v24 main_v25 (cmpi .slt : (⟨S740000, .i32⟩ : BufTy).Contents (Elt F) → (⟨S740000, .i32⟩ : BufTy).Contents (Elt F) → (⟨S740000, .i1⟩ : BufTy).Contents (Elt F)),
    nullary main_c_5 (constantI S_ 32 100000#32),
    unary main_c_5 main_v26 (broadcastInDim S740000 ![] bcast_S_S740000 : (⟨S_, .i32⟩ : BufTy).Contents (Elt F) → (⟨S740000, .i32⟩ : BufTy).Contents (Elt F)),
    binary main_v7 main_v26 main_v27 (addi : (⟨S740000, .i32⟩ : BufTy).Contents (Elt F) → (⟨S740000, .i32⟩ : BufTy).Contents (Elt F) → (⟨S740000, .i32⟩ : BufTy).Contents (Elt F)),
    ternary main_v25 main_v27 main_v7 main_v28 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v28 main_v29 (broadcastInDim S740000x1 ![0] bcast_S740000_S740000x1_0 : (⟨S740000, .i32⟩ : BufTy).Contents (Elt F) → (⟨S740000x1, .i32⟩ : BufTy).Contents (Elt F)),
    binary main_v16 main_v29 main_v30 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    binary main_v23 main_v30 main_v31 (mulf : (⟨S740000, .f32⟩ : BufTy).Contents (Elt F) → (⟨S740000, .f32⟩ : BufTy).Contents (Elt F) → (⟨S740000, .f32⟩ : BufTy).Contents (Elt F)) ]

/-- Operations 41 … 62 of @main. -/
abbrev opsB : List (HloOp τ sig (Elt F)) :=
  [ nullary main_c_6 (constantI S_ 32 0#32),
    unary main_c_6 main_v32 (broadcastInDim S740000 ![] bcast_S_S740000 : (⟨S_, .i32⟩ : BufTy).Contents (Elt F) → (⟨S740000, .i32⟩ : BufTy).Contents (Elt F)),
    binary main_v4 main_v32 main_v33 (cmpi .slt : (⟨S740000, .i32⟩ : BufTy).Contents (Elt F) → (⟨S740000, .i32⟩ : BufTy).Contents (Elt F) → (⟨S740000, .i1⟩ : BufTy).Contents (Elt F)),
    nullary main_c_7 (constantI S_ 32 100000#32),
    unary main_c_7 main_v34 (broadcastInDim S740000 ![] bcast_S_S740000 : (⟨S_, .i32⟩ : BufTy).Contents (Elt F) → (⟨S740000, .i32⟩ : BufTy).Contents (Elt F)),
    binary main_v4 main_v34 main_v35 (addi : (⟨S740000, .i32⟩ : BufTy).Contents (Elt F) → (⟨S740000, .i32⟩ : BufTy).Contents (Elt F) → (⟨S740000, .i32⟩ : BufTy).Contents (Elt F)),
    ternary main_v33 main_v35 main_v4 main_v36 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v36 main_v37 (broadcastInDim S740000x1 ![0] bcast_S740000_S740000x1_0 : (⟨S740000, .i32⟩ : BufTy).Contents (Elt F) → (⟨S740000x1, .i32⟩ : BufTy).Contents (Elt F)),
    binary main_v0 main_v37 main_v38 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    unary main_v31 main_v39 (broadcastInDim S740000x1 ![0] bcast_S740000_S740000x1_0 : (⟨S740000, .f32⟩ : BufTy).Contents (Elt F) → (⟨S740000x1, .f32⟩ : BufTy).Contents (Elt F)),
    unary main_v39 main_v40 (broadcastInDim S740000x128 ![0, 1] bcast_S740000x1_S740000x128_0_1 : (⟨S740000x1, .f32⟩ : BufTy).Contents (Elt F) → (⟨S740000x128, .f32⟩ : BufTy).Contents (Elt F)),
    binary main_v38 main_v40 main_v41 (mulf : (⟨S740000x128, .f32⟩ : BufTy).Contents (Elt F) → (⟨S740000x128, .f32⟩ : BufTy).Contents (Elt F) → (⟨S740000x128, .f32⟩ : BufTy).Contents (Elt F)),
    nullary main_cst_8 (constant S_ .f32 0x00000000#32),
    unary main_cst_8 main_v42 (broadcastInDim S100000x128 ![] bcast_S_S100000x128 : (⟨S_, .f32⟩ : BufTy).Contents (Elt F) → (⟨S100000x128, .f32⟩ : BufTy).Contents (Elt F)),
    unary main_v7 main_v43 (broadcastInDim S740000x1 ![0] bcast_S740000_S740000x1_0 : (⟨S740000, .i32⟩ : BufTy).Contents (Elt F) → (⟨S740000x1, .i32⟩ : BufTy).Contents (Elt F)),
    ternary main_v42 main_v43 main_v41 main_v44 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)),
    unary main_arg3 main_v45 (broadcastInDim S1x128 ![1] bcast_S128_S1x128_1 : (⟨S128, .f32⟩ : BufTy).Contents (Elt F) → (⟨S1x128, .f32⟩ : BufTy).Contents (Elt F)),
    unary main_v45 main_v46 (broadcastInDim S100000x128 ![0, 1] bcast_S1x128_S100000x128_0_1 : (⟨S1x128, .f32⟩ : BufTy).Contents (Elt F) → (⟨S100000x128, .f32⟩ : BufTy).Contents (Elt F)),
    binary main_v44 main_v46 main_v47 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v47) (TRef.of (T := ⟨S100000x128, .f32⟩) main_call1_v0) (TRef.of (T := ⟨S100000x128, .f32⟩) main_v48) maximumf ]

/-- Operations 63 … 102 of @main. -/
abbrev opsC : List (HloOp τ sig (Elt F)) :=
  [ binary main_v48 main_arg4 main_v49 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_v50 (iotaInDim S100000 32 0),
    unary main_arg1 main_v51 ((extractStridedSlice S1x640000 ![0, 0] · slices_S2x640000_S1x640000_0_0) : (⟨S2x640000, .i32⟩ : BufTy).Contents (Elt F) → (⟨S1x640000, .i32⟩ : BufTy).Contents (Elt F)),
    reshape main_v51 main_v52 rfl shapeCasts_S1x640000_S640000,
    binary main_v52 main_v50 main_v53 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    unary main_arg1 main_v54 ((extractStridedSlice S1x640000 ![1, 0] · slices_S2x640000_S1x640000_1_0) : (⟨S2x640000, .i32⟩ : BufTy).Contents (Elt F) → (⟨S1x640000, .i32⟩ : BufTy).Contents (Elt F)),
    reshape main_v54 main_v55 rfl shapeCasts_S1x640000_S640000,
    binary main_v55 main_v50 main_v56 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    nullary main_cst_9 (constant S_ .f32 0x3F800000#32),
    unary main_cst_9 main_v57 (broadcastInDim S740000 ![] bcast_S_S740000 : (⟨S_, .f32⟩ : BufTy).Contents (Elt F) → (⟨S740000, .f32⟩ : BufTy).Contents (Elt F)),
    nullary main_cst_10 (constant S_ .f32 0x00000000#32),
    unary main_cst_10 main_v58 (broadcastInDim S100000 ![] bcast_S_S100000 : (⟨S_, .f32⟩ : BufTy).Contents (Elt F) → (⟨S100000, .f32⟩ : BufTy).Contents (Elt F)),
    unary main_v56 main_v59 (broadcastInDim S740000x1 ![0] bcast_S740000_S740000x1_0 : (⟨S740000, .i32⟩ : BufTy).Contents (Elt F) → (⟨S740000x1, .i32⟩ : BufTy).Contents (Elt F)),
    ternary main_v58 main_v59 main_v57 main_v60 ((fun x i u => Host.scatterAdd scatter_S100000_S740000x1_S740000_n_0_0_1 x i u) : (⟨S100000, .f32⟩ : BufTy).Contents (Elt F) → (⟨S740000x1, .i32⟩ : BufTy).Contents (Elt F) → (⟨S740000, .f32⟩ : BufTy).Contents (Elt F) → (⟨S100000, .f32⟩ : BufTy).Contents (Elt F)),
    nullary main_cst_11 (constant S_ .f32 0x00000000#32),
    unary main_cst_11 main_v61 (broadcastInDim S100000 ![] bcast_S_S100000 : (⟨S_, .f32⟩ : BufTy).Contents (Elt F) → (⟨S100000, .f32⟩ : BufTy).Contents (Elt F)),
    binary main_v60 main_v61 main_v62 (cmpf .ogt : (⟨S100000, .f32⟩ : BufTy).Contents (Elt F) → (⟨S100000, .f32⟩ : BufTy).Contents (Elt F) → (⟨S100000, .i1⟩ : BufTy).Contents (Elt F)),
    unary main_v60 main_v63 (Host.rsqrt : (⟨S100000, .f32⟩ : BufTy).Contents (Elt F) → (⟨S100000, .f32⟩ : BufTy).Contents (Elt F)),
    nullary main_cst_12 (constant S_ .f32 0x00000000#32),
    unary main_cst_12 main_v64 (broadcastInDim S100000 ![] bcast_S_S100000 : (⟨S_, .f32⟩ : BufTy).Contents (Elt F) → (⟨S100000, .f32⟩ : BufTy).Contents (Elt F)),
    TRef.ternary (TRef.of (T := ⟨S100000, .i1⟩) main_v62) (TRef.of (T := ⟨S100000, .f32⟩) main_v63) (TRef.of (T := ⟨S100000, .f32⟩) main_v64) (TRef.of (T := ⟨S100000, .f32⟩) main_v65) select,
    nullary main_c_13 (constantI S_ 32 0#32),
    unary main_c_13 main_v66 (broadcastInDim S740000 ![] bcast_S_S740000 : (⟨S_, .i32⟩ : BufTy).Contents (Elt F) → (⟨S740000, .i32⟩ : BufTy).Contents (Elt F)),
    binary main_v53 main_v66 main_v67 (cmpi .slt : (⟨S740000, .i32⟩ : BufTy).Contents (Elt F) → (⟨S740000, .i32⟩ : BufTy).Contents (Elt F) → (⟨S740000, .i1⟩ : BufTy).Contents (Elt F)),
    nullary main_c_14 (constantI S_ 32 100000#32),
    unary main_c_14 main_v68 (broadcastInDim S740000 ![] bcast_S_S740000 : (⟨S_, .i32⟩ : BufTy).Contents (Elt F) → (⟨S740000, .i32⟩ : BufTy).Contents (Elt F)),
    binary main_v53 main_v68 main_v69 (addi : (⟨S740000, .i32⟩ : BufTy).Contents (Elt F) → (⟨S740000, .i32⟩ : BufTy).Contents (Elt F) → (⟨S740000, .i32⟩ : BufTy).Contents (Elt F)),
    ternary main_v67 main_v69 main_v53 main_v70 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v70 main_v71 (broadcastInDim S740000x1 ![0] bcast_S740000_S740000x1_0 : (⟨S740000, .i32⟩ : BufTy).Contents (Elt F) → (⟨S740000x1, .i32⟩ : BufTy).Contents (Elt F)),
    binary main_v65 main_v71 main_v72 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    nullary main_c_15 (constantI S_ 32 0#32),
    unary main_c_15 main_v73 (broadcastInDim S740000 ![] bcast_S_S740000 : (⟨S_, .i32⟩ : BufTy).Contents (Elt F) → (⟨S740000, .i32⟩ : BufTy).Contents (Elt F)),
    binary main_v56 main_v73 main_v74 (cmpi .slt : (⟨S740000, .i32⟩ : BufTy).Contents (Elt F) → (⟨S740000, .i32⟩ : BufTy).Contents (Elt F) → (⟨S740000, .i1⟩ : BufTy).Contents (Elt F)),
    nullary main_c_16 (constantI S_ 32 100000#32),
    unary main_c_16 main_v75 (broadcastInDim S740000 ![] bcast_S_S740000 : (⟨S_, .i32⟩ : BufTy).Contents (Elt F) → (⟨S740000, .i32⟩ : BufTy).Contents (Elt F)),
    binary main_v56 main_v75 main_v76 (addi : (⟨S740000, .i32⟩ : BufTy).Contents (Elt F) → (⟨S740000, .i32⟩ : BufTy).Contents (Elt F) → (⟨S740000, .i32⟩ : BufTy).Contents (Elt F)),
    ternary main_v74 main_v76 main_v56 main_v77 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v77 main_v78 (broadcastInDim S740000x1 ![0] bcast_S740000_S740000x1_0 : (⟨S740000, .i32⟩ : BufTy).Contents (Elt F) → (⟨S740000x1, .i32⟩ : BufTy).Contents (Elt F)),
    binary main_v65 main_v78 main_v79 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    binary main_v72 main_v79 main_v80 (mulf : (⟨S740000, .f32⟩ : BufTy).Contents (Elt F) → (⟨S740000, .f32⟩ : BufTy).Contents (Elt F) → (⟨S740000, .f32⟩ : BufTy).Contents (Elt F)) ]

/-- Operations 103 … 121 of @main. -/
abbrev opsD : List (HloOp τ sig (Elt F)) :=
  [ nullary main_c_17 (constantI S_ 32 0#32),
    unary main_c_17 main_v81 (broadcastInDim S740000 ![] bcast_S_S740000 : (⟨S_, .i32⟩ : BufTy).Contents (Elt F) → (⟨S740000, .i32⟩ : BufTy).Contents (Elt F)),
    binary main_v53 main_v81 main_v82 (cmpi .slt : (⟨S740000, .i32⟩ : BufTy).Contents (Elt F) → (⟨S740000, .i32⟩ : BufTy).Contents (Elt F) → (⟨S740000, .i1⟩ : BufTy).Contents (Elt F)),
    nullary main_c_18 (constantI S_ 32 100000#32),
    unary main_c_18 main_v83 (broadcastInDim S740000 ![] bcast_S_S740000 : (⟨S_, .i32⟩ : BufTy).Contents (Elt F) → (⟨S740000, .i32⟩ : BufTy).Contents (Elt F)),
    binary main_v53 main_v83 main_v84 (addi : (⟨S740000, .i32⟩ : BufTy).Contents (Elt F) → (⟨S740000, .i32⟩ : BufTy).Contents (Elt F) → (⟨S740000, .i32⟩ : BufTy).Contents (Elt F)),
    ternary main_v82 main_v84 main_v53 main_v85 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v85 main_v86 (broadcastInDim S740000x1 ![0] bcast_S740000_S740000x1_0 : (⟨S740000, .i32⟩ : BufTy).Contents (Elt F) → (⟨S740000x1, .i32⟩ : BufTy).Contents (Elt F)),
    binary main_v49 main_v86 main_v87 ((fun x i => Host.gather gather_S100000x64_S740000x1_S740000x64_1_0_n_n_0_1_164 x i) : (⟨S100000x64, .f32⟩ : BufTy).Contents (Elt F) → (⟨S740000x1, .i32⟩ : BufTy).Contents (Elt F) → (⟨S740000x64, .f32⟩ : BufTy).Contents (Elt F)),
    unary main_v80 main_v88 (broadcastInDim S740000x1 ![0] bcast_S740000_S740000x1_0 : (⟨S740000, .f32⟩ : BufTy).Contents (Elt F) → (⟨S740000x1, .f32⟩ : BufTy).Contents (Elt F)),
    unary main_v88 main_v89 (broadcastInDim S740000x64 ![0, 1] bcast_S740000x1_S740000x64_0_1 : (⟨S740000x1, .f32⟩ : BufTy).Contents (Elt F) → (⟨S740000x64, .f32⟩ : BufTy).Contents (Elt F)),
    binary main_v87 main_v89 main_v90 (mulf : (⟨S740000x64, .f32⟩ : BufTy).Contents (Elt F) → (⟨S740000x64, .f32⟩ : BufTy).Contents (Elt F) → (⟨S740000x64, .f32⟩ : BufTy).Contents (Elt F)),
    nullary main_cst_19 (constant S_ .f32 0x00000000#32),
    unary main_cst_19 main_v91 (broadcastInDim S100000x64 ![] bcast_S_S100000x64 : (⟨S_, .f32⟩ : BufTy).Contents (Elt F) → (⟨S100000x64, .f32⟩ : BufTy).Contents (Elt F)),
    unary main_v56 main_v92 (broadcastInDim S740000x1 ![0] bcast_S740000_S740000x1_0 : (⟨S740000, .i32⟩ : BufTy).Contents (Elt F) → (⟨S740000x1, .i32⟩ : BufTy).Contents (Elt F)),
    ternary main_v91 main_v92 main_v90 main_v93 ((fun x i u => Host.scatterAdd scatter_S100000x64_S740000x1_S740000x64_1_0_0_1 x i u) : (⟨S100000x64, .f32⟩ : BufTy).Contents (Elt F) → (⟨S740000x1, .i32⟩ : BufTy).Contents (Elt F) → (⟨S740000x64, .f32⟩ : BufTy).Contents (Elt F) → (⟨S100000x64, .f32⟩ : BufTy).Contents (Elt F)),
    unary main_arg5 main_v94 (broadcastInDim S1x64 ![1] bcast_S64_S1x64_1 : (⟨S64, .f32⟩ : BufTy).Contents (Elt F) → (⟨S1x64, .f32⟩ : BufTy).Contents (Elt F)),
    unary main_v94 main_v95 (broadcastInDim S100000x64 ![0, 1] bcast_S1x64_S100000x64_0_1 : (⟨S1x64, .f32⟩ : BufTy).Contents (Elt F) → (⟨S100000x64, .f32⟩ : BufTy).Contents (Elt F)),
    binary main_v93 main_v95 main_v96 (addf : (⟨S100000x64, .f32⟩ : BufTy).Contents (Elt F) → (⟨S100000x64, .f32⟩ : BufTy).Contents (Elt F) → (⟨S100000x64, .f32⟩ : BufTy).Contents (Elt F)) ]

/-- Operations 122 … 136 of @main. -/
abbrev opsE : List (HloOp τ sig (Elt F)) :=
  [ TRef.nullary (TRef.of (T := ⟨S_, .f32⟩) main_call3_cst) (constant S_ .f32 0xFF800000#32),
    TRef.binary (TRef.of (T := ⟨S100000x64, .f32⟩) main_v96) (TRef.of (T := ⟨S_, .f32⟩) main_call3_cst) (TRef.of (T := ⟨S100000, .f32⟩) main_call3_v0) (fun x v => Host.reduce FloatOps.maximumf x v reducesTo_S100000x64_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x64, .f32⟩) main_call3_v4) (broadcastInDim S100000x64 ![0, 1] bcast_S100000x1_S100000x64_0_1),
    TRef.binary (TRef.of (T := ⟨S100000x64, .f32⟩) main_v96) (TRef.of (T := ⟨S100000x64, .f32⟩) main_call3_v4) (TRef.of (T := ⟨S100000x64, .f32⟩) main_call3_v5) subf,
    TRef.unary (TRef.of (T := ⟨S100000x64, .f32⟩) main_call3_v5) (TRef.of (T := ⟨S100000x64, .f32⟩) main_call3_v6) Host.exp,
    TRef.nullary (TRef.of (T := ⟨S_, .f32⟩) main_call3_cst_1) (constant S_ .f32 0x00000000#32),
    TRef.binary (TRef.of (T := ⟨S100000x64, .f32⟩) main_call3_v6) (TRef.of (T := ⟨S_, .f32⟩) main_call3_cst_1) (TRef.of (T := ⟨S100000, .f32⟩) main_call3_v7) (fun x v => Host.reduceAdd x v reducesTo_S100000x64_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x64, .f32⟩) main_call3_v10) (broadcastInDim S100000x64 ![0, 1] bcast_S100000x1_S100000x64_0_1),
    TRef.binary (TRef.of (T := ⟨S100000x64, .f32⟩) main_call3_v5) (TRef.of (T := ⟨S100000x64, .f32⟩) main_call3_v10) (TRef.of (T := ⟨S100000x64, .f32⟩) main_v97) subf ]

/-- @main's operations are the five stages in order. -/
theorem ops_split : (ValueP.ops : List (HloOp τ sig (Elt F))) = opsA ++ (opsB ++ (opsC ++ (opsD ++ opsE))) := rfl

/-! ## The host terms -/

/-- A row of the edge array. -/
def rowR0 (e : (⟨S2x640000, .i32⟩ : BufTy).Contents (Elt F)) : (⟨S640000, .i32⟩ : BufTy).Contents (Elt F) :=
  shapeCast _ (extractStridedSlice S1x640000 ![0, 0] e slices_S2x640000_S1x640000_0_0) shapeCasts_S1x640000_S640000
def rowR1 (e : (⟨S2x640000, .i32⟩ : BufTy).Contents (Elt F)) : (⟨S640000, .i32⟩ : BufTy).Contents (Elt F) :=
  shapeCast _ (extractStridedSlice S1x640000 ![1, 0] e slices_S2x640000_S1x640000_1_0) shapeCasts_S1x640000_S640000

/-- A row of 640000 edge ends followed by the 100000 node numbers: the self-loops appended. -/
def catR (a : (⟨S640000, .i32⟩ : BufTy).Contents (Elt F)) : (⟨S740000, .i32⟩ : BufTy).Contents (Elt F) :=
  concatenate S740000 0 [⟨S640000, a⟩, ⟨S100000, iotaInDim S100000 32 0⟩] concatenates_S640000_S100000_S740000_d0

/-- An index normalized before a gather: a negative entry has the node count added. -/
def nrmR (x : (⟨S740000, .i32⟩ : BufTy).Contents (Elt F)) : (⟨S740000, .i32⟩ : BufTy).Contents (Elt F) :=
  select (cmpi .slt x (broadcastInDim S740000 ![] bcast_S_S740000 (constantI S_ 32 0#32)))
    (addi x (broadcastInDim S740000 ![] bcast_S_S740000 (constantI S_ 32 100000#32))) x

/-- The degree over the extended target row: the entries landing on each node, counted. -/
def degR (t : (⟨S740000, .i32⟩ : BufTy).Contents (Elt F)) : (⟨S100000, .f32⟩ : BufTy).Contents (Elt F) :=
  Host.scatterAdd scatter_S100000_S740000x1_S740000_n_0_0_1
    (broadcastInDim S100000 ![] bcast_S_S100000 (constant S_ .f32 0x00000000#32))
    (broadcastInDim S740000x1 ![0] bcast_S740000_S740000x1_0 t)
    (broadcastInDim S740000 ![] bcast_S_S740000 (constant S_ .f32 0x3F800000#32))

/-- The inverse root degree, kept where the degree is positive and zero elsewhere. -/
def dinvR (t : (⟨S740000, .i32⟩ : BufTy).Contents (Elt F)) : (⟨S100000, .f32⟩ : BufTy).Contents (Elt F) :=
  select (cmpf (F := F) .ogt (degR t) (broadcastInDim S100000 ![] bcast_S_S100000 (constant S_ .f32 0x00000000#32)))
    (Host.rsqrt (degR t)) (broadcastInDim S100000 ![] bcast_S_S100000 (constant S_ .f32 0x00000000#32))

/-- The weight of each of the 740000 entries. -/
def normR (d : (⟨S100000, .f32⟩ : BufTy).Contents (Elt F)) (s t : (⟨S740000, .i32⟩ : BufTy).Contents (Elt F)) : (⟨S740000, .f32⟩ : BufTy).Contents (Elt F) :=
  mulf (Host.gather gather_S100000_S740000x1_S740000_n_0_n_n_0_1_1 d (broadcastInDim S740000x1 ![0] bcast_S740000_S740000x1_0 (nrmR s)))
    (Host.gather gather_S100000_S740000x1_S740000_n_0_n_n_0_1_1 d (broadcastInDim S740000x1 ![0] bcast_S740000_S740000x1_0 (nrmR t)))

/-- The reference's aggregation at 128 columns: one scatter-add, over all 740000 entries (the real edges, then the
    self-loops), of the gathered feature rows times the entry weights. -/
def aggR128 (h : (⟨S100000x128, .f32⟩ : BufTy).Contents (Elt F)) (s t : (⟨S740000, .i32⟩ : BufTy).Contents (Elt F)) (w : (⟨S740000, .f32⟩ : BufTy).Contents (Elt F)) : (⟨S100000x128, .f32⟩ : BufTy).Contents (Elt F) :=
  Host.scatterAdd scatter_S100000x128_S740000x1_S740000x128_1_0_0_1
    (broadcastInDim S100000x128 ![] bcast_S_S100000x128 (constant S_ .f32 0x00000000#32))
    (broadcastInDim S740000x1 ![0] bcast_S740000_S740000x1_0 t)
    (mulf (Host.gather gather_S100000x128_S740000x1_S740000x128_1_0_n_n_0_1_1128 h (broadcastInDim S740000x1 ![0] bcast_S740000_S740000x1_0 (nrmR s)))
      (broadcastInDim S740000x128 ![0, 1] bcast_S740000x1_S740000x128_0_1 (broadcastInDim S740000x1 ![0] bcast_S740000_S740000x1_0 w)))

/-- The reference's aggregation at 64 columns: one scatter-add, over all 740000 entries (the real edges, then the
    self-loops), of the gathered feature rows times the entry weights. -/
def aggR64 (h : (⟨S100000x64, .f32⟩ : BufTy).Contents (Elt F)) (s t : (⟨S740000, .i32⟩ : BufTy).Contents (Elt F)) (w : (⟨S740000, .f32⟩ : BufTy).Contents (Elt F)) : (⟨S100000x64, .f32⟩ : BufTy).Contents (Elt F) :=
  Host.scatterAdd scatter_S100000x64_S740000x1_S740000x64_1_0_0_1
    (broadcastInDim S100000x64 ![] bcast_S_S100000x64 (constant S_ .f32 0x00000000#32))
    (broadcastInDim S740000x1 ![0] bcast_S740000_S740000x1_0 t)
    (mulf (Host.gather gather_S100000x64_S740000x1_S740000x64_1_0_n_n_0_1_164 h (broadcastInDim S740000x1 ![0] bcast_S740000_S740000x1_0 (nrmR s)))
      (broadcastInDim S740000x64 ![0, 1] bcast_S740000x1_S740000x64_0_1 (broadcastInDim S740000x1 ![0] bcast_S740000_S740000x1_0 w)))

variable (m : (ℓ : Loc nD τ sig) → Buf (Elt F) ℓ) (c : Dev nD)

/-! ## The buffers after each stage -/

def SA : Valuation τ sig (Elt F) := after opsA (launchContents m c)
def SB : Valuation τ sig (Elt F) := after opsB (SA m c)
def SC : Valuation τ sig (Elt F) := after opsC (SB m c)
def SD : Valuation τ sig (Elt F) := after opsD (SC m c)
def SE : Valuation τ sig (Elt F) := after opsE (SD m c)

/-- The result buffer after the whole line is the result buffer after the fifth stage. -/
theorem after_ops : after ValueP.ops (launchContents m c) (Proc.devRef .tc main_v97) = SE m c (Proc.devRef .tc main_v97) := by
  rw [ops_split, after_append, after_append, after_append, after_append]
  rfl

/-! ### Stage A -/
theorem SA_v0 : SA m c (Proc.devRef .tc main_v0) = Host.dotGeneral dot_S100000x128_S128x128_S100000x128_1_0_0_1_n_n none (m ((c.tc : Thread nD τ).loc main_arg0)) (m ((c.tc : Thread nD τ).loc main_arg2)) := by
  show after opsA (launchContents m c) (Proc.devRef .tc main_v0) = _
  after_results_simp <;> rfl
theorem SA_v4 : SA m c (Proc.devRef .tc main_v4) = catR (rowR0 (m ((c.tc : Thread nD τ).loc main_arg1))) := by
  show after opsA (launchContents m c) (Proc.devRef .tc main_v4) = _
  after_results_simp <;> rfl
theorem SA_v7 : SA m c (Proc.devRef .tc main_v7) = catR (rowR1 (m ((c.tc : Thread nD τ).loc main_arg1))) := by
  show after opsA (launchContents m c) (Proc.devRef .tc main_v7) = _
  after_results_simp <;> rfl
theorem SA_v31 : SA m c (Proc.devRef .tc main_v31) = normR (dinvR (catR (rowR1 (m ((c.tc : Thread nD τ).loc main_arg1))))) (catR (rowR0 (m ((c.tc : Thread nD τ).loc main_arg1)))) (catR (rowR1 (m ((c.tc : Thread nD τ).loc main_arg1)))) := by
  show after opsA (launchContents m c) (Proc.devRef .tc main_v31) = _
  after_results_simp <;> rfl
theorem SA_arg1 : SA m c (Proc.devRef .tc main_arg1) = m ((c.tc : Thread nD τ).loc main_arg1) := by
  show after opsA (launchContents m c) (Proc.devRef .tc main_arg1) = _
  after_results_simp <;> rfl
theorem SA_arg3 : SA m c (Proc.devRef .tc main_arg3) = m ((c.tc : Thread nD τ).loc main_arg3) := by
  show after opsA (launchContents m c) (Proc.devRef .tc main_arg3) = _
  after_results_simp <;> rfl
theorem SA_arg4 : SA m c (Proc.devRef .tc main_arg4) = m ((c.tc : Thread nD τ).loc main_arg4) := by
  show after opsA (launchContents m c) (Proc.devRef .tc main_arg4) = _
  after_results_simp <;> rfl
theorem SA_arg5 : SA m c (Proc.devRef .tc main_arg5) = m ((c.tc : Thread nD τ).loc main_arg5) := by
  show after opsA (launchContents m c) (Proc.devRef .tc main_arg5) = _
  after_results_simp <;> rfl

/-! ### Stage B -/
theorem SB_v48 : SB m c (Proc.devRef .tc main_v48) = maximumf (addf (aggR128 (SA m c (Proc.devRef .tc main_v0)) (SA m c (Proc.devRef .tc main_v4)) (SA m c (Proc.devRef .tc main_v7)) (SA m c (Proc.devRef .tc main_v31)))
      (broadcastInDim S100000x128 ![0, 1] bcast_S1x128_S100000x128_0_1 (broadcastInDim S1x128 ![1] bcast_S128_S1x128_1 (SA m c (Proc.devRef .tc main_arg3)))))
    (broadcastInDim S100000x128 ![] bcast_S_S100000x128 (constant S_ .f32 0x00000000#32)) := by
  show after opsB (SA m c) (Proc.devRef .tc main_v48) = _
  generalize SA m c = V
  after_results_simp <;> rfl
theorem SB_arg1 : SB m c (Proc.devRef .tc main_arg1) = SA m c (Proc.devRef .tc main_arg1) := by
  show after opsB (SA m c) (Proc.devRef .tc main_arg1) = _
  generalize SA m c = V
  after_results_simp <;> rfl
theorem SB_arg4 : SB m c (Proc.devRef .tc main_arg4) = SA m c (Proc.devRef .tc main_arg4) := by
  show after opsB (SA m c) (Proc.devRef .tc main_arg4) = _
  generalize SA m c = V
  after_results_simp <;> rfl
theorem SB_arg5 : SB m c (Proc.devRef .tc main_arg5) = SA m c (Proc.devRef .tc main_arg5) := by
  show after opsB (SA m c) (Proc.devRef .tc main_arg5) = _
  generalize SA m c = V
  after_results_simp <;> rfl

/-! ### Stage C -/
theorem SC_v49 : SC m c (Proc.devRef .tc main_v49) = Host.dotGeneral dot_S100000x128_S128x64_S100000x64_1_0_0_1_n_n none (SB m c (Proc.devRef .tc main_v48)) (SB m c (Proc.devRef .tc main_arg4)) := by
  show after opsC (SB m c) (Proc.devRef .tc main_v49) = _
  generalize SB m c = V
  after_results_simp <;> rfl
theorem SC_v53 : SC m c (Proc.devRef .tc main_v53) = catR (rowR0 (SB m c (Proc.devRef .tc main_arg1))) := by
  show after opsC (SB m c) (Proc.devRef .tc main_v53) = _
  generalize SB m c = V
  after_results_simp <;> rfl
theorem SC_v56 : SC m c (Proc.devRef .tc main_v56) = catR (rowR1 (SB m c (Proc.devRef .tc main_arg1))) := by
  show after opsC (SB m c) (Proc.devRef .tc main_v56) = _
  generalize SB m c = V
  after_results_simp <;> rfl
theorem SC_v80 : SC m c (Proc.devRef .tc main_v80) = normR (dinvR (catR (rowR1 (SB m c (Proc.devRef .tc main_arg1))))) (catR (rowR0 (SB m c (Proc.devRef .tc main_arg1)))) (catR (rowR1 (SB m c (Proc.devRef .tc main_arg1)))) := by
  show after opsC (SB m c) (Proc.devRef .tc main_v80) = _
  generalize SB m c = V
  after_results_simp <;> rfl
theorem SC_arg5 : SC m c (Proc.devRef .tc main_arg5) = SB m c (Proc.devRef .tc main_arg5) := by
  show after opsC (SB m c) (Proc.devRef .tc main_arg5) = _
  generalize SB m c = V
  after_results_simp <;> rfl

/-! ### Stage D -/
theorem SD_v96 : SD m c (Proc.devRef .tc main_v96) = addf (aggR64 (SC m c (Proc.devRef .tc main_v49)) (SC m c (Proc.devRef .tc main_v53)) (SC m c (Proc.devRef .tc main_v56)) (SC m c (Proc.devRef .tc main_v80)))
      (broadcastInDim S100000x64 ![0, 1] bcast_S1x64_S100000x64_0_1 (broadcastInDim S1x64 ![1] bcast_S64_S1x64_1 (SC m c (Proc.devRef .tc main_arg5)))) := by
  show after opsD (SC m c) (Proc.devRef .tc main_v96) = _
  generalize SC m c = V
  after_results_simp <;> rfl

/-! ### Stage E, at the ideal instance: the row-wise log-softmax of what stage D left -/

theorem SE_v97 (m : (ℓ : Loc nD τ sig) → Buf (Elt Ideal) ℓ) (c : Dev nD) :
    SE (F := Ideal) m c (Proc.devRef .tc main_v97) = Cert.Bridge.refLogSoftmax (SD (F := Ideal) m c (Proc.devRef .tc main_v96)) := by
  show after opsE (SD (F := Ideal) m c) (Proc.devRef .tc main_v97) = _
  generalize SD (F := Ideal) m c = V
  after_results_simp
  simp only [ofBuf_toBuf]
  rfl

end Cert.ReferenceIdeal.Fold

end
-- ==== Proof.RefValue.lean ====
/-
  The reference program's result as ONE function of its six arguments, in the reference's own operations: the product
  x · W1, its rows aggregated by one scatter-add over the 740000 entries (real edges, then self-loops) with the
  entry weights, the bias and the maximum with zero, the second product, the same aggregation at 64 columns, the bias
  and the row-wise log-softmax.
-/
import proofs.«180835_j69956427317969_2_alg».proof.Proof.RefFold

set_option maxRecDepth 16384

noncomputable section

namespace Cert.ReferenceIdeal.Out

open Cert.ReferenceIdeal Cert.ReferenceIdeal.Gen Cert.ReferenceIdeal.Fold
open Idealize.ShloMosaic Idealize.ShloMosaic.TcCoe Idealize.SL.Sem Idealize.ShloMosaic.StableHlo

abbrev EdgeArr := (⟨S2x640000, .i32⟩ : BufTy).Contents (Elt Ideal)

/-- The two extended index rows and the entry weights, from the edge array. -/
def srcAll (e : EdgeArr) : (⟨S740000, .i32⟩ : BufTy).Contents (Elt Ideal) := catR (F := Ideal) (rowR0 e)
def dstAll (e : EdgeArr) : (⟨S740000, .i32⟩ : BufTy).Contents (Elt Ideal) := catR (F := Ideal) (rowR1 e)
def wAll (e : EdgeArr) : FVec Ideal S740000 .f32 := normR (F := Ideal) (dinvR (dstAll e)) (srcAll e) (dstAll e)

def h1 (x : FVec Ideal S100000x128 .f32) (W1 : FVec Ideal S128x128 .f32) : FVec Ideal S100000x128 .f32 :=
  Host.dotGeneral (F := Ideal) (φ₁ := .f32) (φ₂ := .f32) dot_S100000x128_S128x128_S100000x128_1_0_0_1_n_n none x W1
def a1 (x : FVec Ideal S100000x128 .f32) (e : EdgeArr) (W1 : FVec Ideal S128x128 .f32) : FVec Ideal S100000x128 .f32 :=
  aggR128 (F := Ideal) (h1 x W1) (srcAll e) (dstAll e) (wAll e)
def h2 (x : FVec Ideal S100000x128 .f32) (e : EdgeArr) (W1 : FVec Ideal S128x128 .f32) (b1 : FVec Ideal S128 .f32)
    (W2 : FVec Ideal S128x64 .f32) : FVec Ideal S100000x64 .f32 :=
  Host.dotGeneral (F := Ideal) (φ₁ := .f32) (φ₂ := .f32) dot_S100000x128_S128x64_S100000x64_1_0_0_1_n_n none
    (maximumf (F := Ideal) (φ := .f32)
      (addf (F := Ideal) (φ := .f32) (a1 x e W1)
        (broadcastInDim S100000x128 ![0, 1] bcast_S1x128_S100000x128_0_1 (broadcastInDim S1x128 ![1] bcast_S128_S1x128_1 b1)))
      (broadcastInDim S100000x128 ![] bcast_S_S100000x128 (constant (F := Ideal) S_ .f32 0x00000000#32)))
    W2
def a2 (x : FVec Ideal S100000x128 .f32) (e : EdgeArr) (W1 : FVec Ideal S128x128 .f32) (b1 : FVec Ideal S128 .f32)
    (W2 : FVec Ideal S128x64 .f32) : FVec Ideal S100000x64 .f32 :=
  aggR64 (F := Ideal) (h2 x e W1 b1 W2) (srcAll e) (dstAll e) (wAll e)
def out (x : FVec Ideal S100000x128 .f32) (e : EdgeArr) (W1 : FVec Ideal S128x128 .f32) (b1 : FVec Ideal S128 .f32)
    (W2 : FVec Ideal S128x64 .f32) (b2 : FVec Ideal S64 .f32) : FVec Ideal S100000x64 .f32 :=
  Cert.Bridge.refLogSoftmax (addf (F := Ideal) (φ := .f32) (a2 x e W1 b1 W2)
    (broadcastInDim S100000x64 ![0, 1] bcast_S1x64_S100000x64_0_1 (broadcastInDim S1x64 ![1] bcast_S64_S1x64_1 b2)))

variable (m : (ℓ : Loc nD τ sig) → Buf (Elt Ideal) ℓ) (c : Dev nD)

/-! ## Stage A: the first product, the extended index rows, the entry weights -/

theorem stageA_prod : SA (F := Ideal) m c (Proc.devRef .tc main_v0)
    = h1 (m ((c.tc : Thread nD τ).loc main_arg0)) (m ((c.tc : Thread nD τ).loc main_arg2)) := SA_v0 m c
theorem stageA_src : SA (F := Ideal) m c (Proc.devRef .tc main_v4) = srcAll (m ((c.tc : Thread nD τ).loc main_arg1)) := SA_v4 m c
theorem stageA_dst : SA (F := Ideal) m c (Proc.devRef .tc main_v7) = dstAll (m ((c.tc : Thread nD τ).loc main_arg1)) := SA_v7 m c
theorem stageA_w : SA (F := Ideal) m c (Proc.devRef .tc main_v31) = wAll (m ((c.tc : Thread nD τ).loc main_arg1)) := SA_v31 m c

/-! ## Stage B: the first aggregate, the bias, the maximum with zero; the arguments carried -/

theorem stageB_relu : SB (F := Ideal) m c (Proc.devRef .tc main_v48)
    = maximumf (F := Ideal) (φ := .f32)
        (addf (F := Ideal) (φ := .f32) (a1 (m ((c.tc : Thread nD τ).loc main_arg0)) (m ((c.tc : Thread nD τ).loc main_arg1)) (m ((c.tc : Thread nD τ).loc main_arg2)))
          (broadcastInDim S100000x128 ![0, 1] bcast_S1x128_S100000x128_0_1 (broadcastInDim S1x128 ![1] bcast_S128_S1x128_1 (m ((c.tc : Thread nD τ).loc main_arg3)))))
        (broadcastInDim S100000x128 ![] bcast_S_S100000x128 (constant (F := Ideal) S_ .f32 0x00000000#32)) := by
  rw [SB_v48, stageA_prod, stageA_src, stageA_dst, stageA_w, SA_arg3]
  rfl
theorem stageB_edges : SB (F := Ideal) m c (Proc.devRef .tc main_arg1) = m ((c.tc : Thread nD τ).loc main_arg1) := by
  rw [SB_arg1, SA_arg1]
theorem stageB_weight : SB (F := Ideal) m c (Proc.devRef .tc main_arg4) = m ((c.tc : Thread nD τ).loc main_arg4) := by
  rw [SB_arg4, SA_arg4]
theorem stageB_bias : SB (F := Ideal) m c (Proc.devRef .tc main_arg5) = m ((c.tc : Thread nD τ).loc main_arg5) := by
  rw [SB_arg5, SA_arg5]

/-! ## Stage C: the second product; the index rows and the entry weights computed again from the same edge array -/

theorem stageC_prod : SC (F := Ideal) m c (Proc.devRef .tc main_v49)
    = h2 (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  rw [SC_v49, stageB_relu, stageB_weight]
  rfl
theorem stageC_src : SC (F := Ideal) m c (Proc.devRef .tc main_v53) = srcAll (m ((c.tc : Thread nD τ).loc main_arg1)) := by
  rw [SC_v53, stageB_edges]; rfl
theorem stageC_dst : SC (F := Ideal) m c (Proc.devRef .tc main_v56) = dstAll (m ((c.tc : Thread nD τ).loc main_arg1)) := by
  rw [SC_v56, stageB_edges]; rfl
theorem stageC_w : SC (F := Ideal) m c (Proc.devRef .tc main_v80) = wAll (m ((c.tc : Thread nD τ).loc main_arg1)) := by
  rw [SC_v80, stageB_edges]; rfl
theorem stageC_bias : SC (F := Ideal) m c (Proc.devRef .tc main_arg5) = m ((c.tc : Thread nD τ).loc main_arg5) := by
  rw [SC_arg5, stageB_bias]

/-! ## Stage D: the second aggregate and the bias -/

theorem stageD_sum : SD (F := Ideal) m c (Proc.devRef .tc main_v96)
    = addf (F := Ideal) (φ := .f32) (a2 (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)))
        (broadcastInDim S100000x64 ![0, 1] bcast_S1x64_S100000x64_0_1 (broadcastInDim S1x64 ![1] bcast_S64_S1x64_1 (m ((c.tc : Thread nD τ).loc main_arg5)))) := by
  rw [SD_v96, stageC_prod, stageC_src, stageC_dst, stageC_w, stageC_bias]
  rfl

/-! ## Stage E: the row-wise log-softmax -/

/-- The reference program's result buffer after its last operation is that function of the launch contents of the
    six arguments. -/
theorem result_eq : SE (F := Ideal) m c (Proc.devRef .tc main_v97)
    = out (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  rw [SE_v97, stageD_sum]
  rfl

end Cert.ReferenceIdeal.Out

end
-- ==== Proof.LibRowScatter2.lean ====
/-
  A ROW SCATTER AND A ROW GATHER OF A RANK-2 ARRAY, READ AT AN INDEX.

  The operand is a table `[N, C]` of `N` rows of `C` columns; the indices are a column `[R, 1]` of `R` row numbers
  (any words: they are read as SIGNED integers).
  • The row gather (offset axis 1, collapsed axis 0, start index map `[0]`, index vector on axis 1, slices `[1, C]`)
    gives the `[R, C]` array whose row `r` is the table's row number `idx r`, CLAMPED into `[0, N − 1]`.
  • The row scatter (update window axis 1, inserted window axis 0, scatter axis to operand axis `[0]`, index vector on
    axis 1) sends update element `(r, f)` to table element `(idx r, f)`, and DROPS it when `idx r` is not a row
    of the table (no clamping).  With an additive body the exact (order-free) sum of the extended reals is: table
    element `(n, f)` plus the sum over all update rows `r` with `idx r = n` of the update's element `(r, f)`.
  Also here: a sum over `Fin k` with `k = m + n` split into the first `m` and the last `n` terms, and the two column
  broadcasts `[R] → [R, 1]` and `[R, 1] → [R, C]` read at an index.
-/
import Idealize.ShloMosaic.Lib.ValueIdx
import Idealize.ShloMosaic.Lib.IdealHost

noncomputable section

open scoped BigOperators

namespace Idealize.ShloMosaic.RowScatter2

open Idealize.ShloMosaic Idealize.ShloMosaic.ValueIdx

/-! ## Sums over an initial and a final segment -/

/-- A sum over `Fin k`, `k = m + n`, is the sum of its first `m` terms plus the sum of its last `n` terms. -/
theorem sum_fin_split {M : Type*} [AddCommMonoid M] (m n k : Nat) (h : k = m + n) (g : Fin k → M) :
    ∑ r, g r = ∑ j : Fin m, g ⟨j.val, by omega⟩ + ∑ i : Fin n, g ⟨m + i.val, by omega⟩ := by
  subst h
  exact Fin.sum_univ_add g

/-- An axis is among the axes kept beside the list `l` exactly when it is not in `l`. -/
theorem mem_kept_iff {s : Shape} (l : List (Fin s.rank)) (a : Fin s.rank) : a ∈ s.kept l ↔ a ∉ l := by
  simp [Shape.kept, List.mem_filter, List.mem_finRange]

/-! ## The column broadcasts -/

/-- A vector `[R]` made a column `[R, 1]`: the column's entry `(r, 0)` is the vector's entry `r`. -/
theorem bcast_col_apply {α : Type} {R : Nat} (h : (⟨1, ![R]⟩ : Shape).BroadcastsInDim ⟨2, ![R, 1]⟩ ![0])
    (v : (⟨1, ![R]⟩ : Shape).Idx → α) (r : Fin R) (z : Fin 1) :
    broadcastInDim ⟨2, ![R, 1]⟩ ![0] h v (ix2 r z) = v (ix1 r) := by
  unfold broadcastInDim
  refine congrArg v (funext fun a => Fin.ext ?_)
  match a with
  | ⟨0, _⟩ =>
    dsimp only
    split
    · rename_i h1
      have hR : R = 1 := h1
      have := r.isLt
      show 0 = r.val
      omega
    · rfl

/-- A column `[R, 1]` spread over `C` columns: entry `(r, f)` of the result is the column's entry `(r, 0)`. -/
theorem bcast_cols_apply {α : Type} {R C : Nat}
    (h : (⟨2, ![R, 1]⟩ : Shape).BroadcastsInDim ⟨2, ![R, C]⟩ ![0, 1])
    (v : (⟨2, ![R, 1]⟩ : Shape).Idx → α) (r : Fin R) (f : Fin C) :
    broadcastInDim ⟨2, ![R, C]⟩ ![0, 1] h v (ix2 r f) = v (ix2 r (0 : Fin 1)) := by
  unfold broadcastInDim
  refine congrArg v (funext fun a => Fin.ext ?_)
  match a with
  | ⟨0, _⟩ =>
    dsimp only
    split
    · rename_i h1
      have hR : R = 1 := h1
      have := r.isLt
      show 0 = r.val
      omega
    · rfl
  | ⟨1, _⟩ =>
    dsimp only
    split
    · rfl
    · rename_i h1
      exact absurd rfl h1

/-! ## The row gather -/

section Gather
variable {α : Type}

/-- The row gather's dimension numbers for a table `[N, C]`, row numbers `[R, 1]` and a result `[R, C]`; their conditions
    `wf` are decided on a program's literal shapes. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, f)`: the table at row `idx[r, 0]`, read signed and clamped into `[0, N − 1]`, column
    `f`. -/
theorem rowGather_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (f : Fin C) :
    Host.gather (rowGatherDims N R C wf) x idx (ix2 r f)
      = x (ix2 ⟨min (idx (ix2 r (0 : Fin 1))).toInt.toNat (N - 1), by omega⟩ f) := by
  unfold Host.gather
  congr 1
  funext a
  refine Fin.ext ?_
  match a with
  | ⟨0, _⟩ =>
    show (rowGatherDims N R C wf).start (ix2 r f) idx 0 + (rowGatherDims N R C wf).batchCoord (ix2 r f) 0
      + (rowGatherDims N R C wf).offCoord (ix2 r f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 r f) ⟨List.idxOf (0 : Fin 2) (rowGatherDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowGatherDims N R C wf).start (ix2 r f) idx 1 + (rowGatherDims N R C wf).batchCoord (ix2 r f) 1
      + (rowGatherDims N R C wf).offCoord (ix2 r f) 1 = f.val
    rw [GatherDims.batchCoord_eq_zero _ _ _ List.not_mem_nil]
    have hs : (rowGatherDims N R C wf).start (ix2 r f) idx 1 = 0 := by
      unfold GatherDims.start
      rw [dif_neg (show (1 : Fin 2) ∉ (rowGatherDims N R C wf).startIndexMap from
        fun h => Nat.one_ne_zero (congrArg Fin.val (List.mem_singleton.mp h)))]
    have ho : (rowGatherDims N R C wf).offCoord (ix2 r f) 1 = f.val := by
      unfold GatherDims.offCoord
      rw [dif_pos (show (1 : Fin 2) ∈ (rowGatherDims N R C wf).sKept from (GatherDims.mem_sKept _ _).2
        ⟨fun h => Nat.one_ne_zero (congrArg Fin.val (List.mem_singleton.mp h)), List.not_mem_nil⟩)]
      rfl
    rw [hs, ho]; omega

/-- A row number, read as a signed integer and clamped into the table's rows `[0, N − 1]`. -/
def clampRow (N : Nat) (hN : 0 < N) {w : Nat} (z : BitVec w) : Fin N := ⟨min z.toInt.toNat (N - 1), by omega⟩

/-- A row number whose signed value is the row `i` of the table is left where it is by the clamp. -/
theorem clampRow_of_toInt {N w : Nat} (hN : 0 < N) (z : BitVec w) (i : Fin N) (hz : z.toInt = (i.val : Int)) :
    clampRow N hN z = i := by
  refine Fin.ext ?_
  show min z.toInt.toNat (N - 1) = i.val
  have := i.isLt
  omega

/-- The row gather read at `(r, f)`, with the clamped row number named: the table at `(clampRow idx[r, 0], f)`. -/
theorem rowGather_apply_clampRow {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (f : Fin C) :
    Host.gather (rowGatherDims N R C wf) x idx (ix2 r f) = x (ix2 (clampRow N hN (idx (ix2 r (0 : Fin 1)))) f) :=
  rowGather_apply hN wf x idx r f

end Gather

/-! ## The row scatter -/

section Scatter

/-- The row scatter's dimension numbers for a table `[N, C]`, row numbers `[R, 1]` and updates `[R, C]`; their conditions
    `wf` are decided on a program's literal shapes. -/
abbrev rowScatterDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C w : Nat} (wf : ScatterDims.WF ⟨2, ![N, C]⟩ ⟨2, ![R, 1]⟩ ⟨2, ![R, C]⟩ [1] [0] [0] 1)

/-- On the table's row axis the window of update `(r, f)` starts at the row number `idx[r, 0]`, read signed … -/
theorem rowScatter_start0 (idx : IVec ⟨2, ![R, 1]⟩ w) (r : Fin R) (f : Fin C) :
    (rowScatterDims N R C wf).start (ix2 r f) idx 0 = (idx (ix2 r (0 : Fin 1))).toInt := by
  unfold ScatterDims.start
  rw [dif_pos (show (0 : Fin 2) ∈ (rowScatterDims N R C wf).scatterDimsToOperandDims from List.mem_singleton.mpr rfl)]
  have hsi : (rowScatterDims N R C wf).siIdx (ix2 r f) ⟨List.idxOf (0 : Fin 2) (rowScatterDims N R C wf).scatterDimsToOperandDims,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]

/-- … and on the column axis at `0`. -/
theorem rowScatter_start1 (idx : IVec ⟨2, ![R, 1]⟩ w) (r : Fin R) (f : Fin C) :
    (rowScatterDims N R C wf).start (ix2 r f) idx 1 = 0 := by
  unfold ScatterDims.start
  rw [dif_neg (show (1 : Fin 2) ∉ (rowScatterDims N R C wf).scatterDimsToOperandDims from
    fun h => Nat.one_ne_zero (congrArg Fin.val (List.mem_singleton.mp h)))]

/-- The window coordinate of update `(r, f)` is `0` on the row axis … -/
theorem rowScatter_window0 (r : Fin R) (f : Fin C) : (rowScatterDims N R C wf).window (ix2 r f) 0 = 0 := by
  unfold ScatterDims.window
  rw [dif_neg (show (0 : Fin 2) ∉ (rowScatterDims N R C wf).sKept from
    fun h => (mem_kept_iff _ _).1 h (List.mem_singleton.mpr rfl))]

/-- … and `f` on the column axis. -/
theorem rowScatter_window1 (r : Fin R) (f : Fin C) : (rowScatterDims N R C wf).window (ix2 r f) 1 = f.val := by
  unfold ScatterDims.window
  rw [dif_pos (show (1 : Fin 2) ∈ (rowScatterDims N R C wf).sKept from (mem_kept_iff _ _).2
    fun h => Nat.one_ne_zero (congrArg Fin.val (List.mem_singleton.mp h)))]
  rfl

/-- WHERE AN UPDATE LANDS: update element `(r, f)` lands on table element `(n, f')` exactly when the row number
    `idx[r, 0]`, read signed, is `n`, and the columns agree.  (A row number that is negative or at least `N` is no row
    `n` of the table: that update lands nowhere.) -/
theorem rowScatter_resultIdx?_eq_some_iff (idx : IVec ⟨2, ![R, 1]⟩ w) (r : Fin R) (f : Fin C) (n : Fin N) (f' : Fin C) :
    (rowScatterDims N R C wf).resultIdx? (ix2 r f) idx = some (ix2 n f')
      ↔ (idx (ix2 r (0 : Fin 1))).toInt = (n.val : Int) ∧ f = f' := by
  have hs0 := rowScatter_start0 wf idx r f
  have hs1 := rowScatter_start1 wf idx r f
  have hw0 := rowScatter_window0 wf r f
  have hw1 := rowScatter_window1 wf r f
  have hn := n.isLt
  have hf := f.isLt
  unfold ScatterDims.resultIdx?
  constructor
  · intro e
    split at e
    · rename_i h
      have e' := Option.some.inj e
      have e0 : ((rowScatterDims N R C wf).start (ix2 r f) idx 0 + ((rowScatterDims N R C wf).window (ix2 r f) 0 : Nat)).toNat
          = n.val := congrArg (fun k => (k 0).val) e'
      have e1 : ((rowScatterDims N R C wf).start (ix2 r f) idx 1 + ((rowScatterDims N R C wf).window (ix2 r f) 1 : Nat)).toNat
          = f'.val := congrArg (fun k => (k 1).val) e'
      have h0 := (h 0).1
      rw [hs0, hw0] at e0 h0
      rw [hs1, hw1] at e1
      exact ⟨by omega, Fin.ext (by omega)⟩
    · exact absurd e (by simp)
  · rintro ⟨hz, rfl⟩
    have hall : ∀ a : Fin 2, 0 ≤ (rowScatterDims N R C wf).start (ix2 r f) idx a + ((rowScatterDims N R C wf).window (ix2 r f) a : Nat)
        ∧ (rowScatterDims N R C wf).start (ix2 r f) idx a + ((rowScatterDims N R C wf).window (ix2 r f) a : Nat)
          < ((⟨2, ![N, C]⟩ : Shape).size a : Nat) := by
      intro a
      match a with
      | ⟨0, _⟩ =>
        show 0 ≤ (rowScatterDims N R C wf).start (ix2 r f) idx 0 + ((rowScatterDims N R C wf).window (ix2 r f) 0 : Nat)
          ∧ (rowScatterDims N R C wf).start (ix2 r f) idx 0 + ((rowScatterDims N R C wf).window (ix2 r f) 0 : Nat) < (N : Int)
        rw [hs0, hw0]; omega
      | ⟨1, _⟩ =>
        show 0 ≤ (rowScatterDims N R C wf).start (ix2 r f) idx 1 + ((rowScatterDims N R C wf).window (ix2 r f) 1 : Nat)
          ∧ (rowScatterDims N R C wf).start (ix2 r f) idx 1 + ((rowScatterDims N R C wf).window (ix2 r f) 1 : Nat) < (C : Int)
        rw [hs1, hw1]; omega
    rw [dif_pos hall]
    congr 1
    funext a
    refine Fin.ext ?_
    match a with
    | ⟨0, _⟩ =>
      show ((rowScatterDims N R C wf).start (ix2 r f) idx 0 + ((rowScatterDims N R C wf).window (ix2 r f) 0 : Nat)).toNat = n.val
      rw [hs0, hw0]; omega
    | ⟨1, _⟩ =>
      show ((rowScatterDims N R C wf).start (ix2 r f) idx 1 + ((rowScatterDims N R C wf).window (ix2 r f) 1 : Nat)).toNat = f.val
      rw [hs1, hw1]; omega

/-- THE ROW SCATTER-ADD READ AT `(n, f)`, at the ideal instance: the table's element plus the sum, over the update rows
    `r` whose row number `idx[r, 0]` (read signed) is `n`, of the update's element `(r, f)`. -/
theorem rowScatterAdd_apply (x : (⟨2, ![N, C]⟩ : Shape).Idx → EReal) (idx : IVec ⟨2, ![R, 1]⟩ w)
    (upd : (⟨2, ![R, C]⟩ : Shape).Idx → EReal) (n : Fin N) (f : Fin C) :
    Ideal.hostScatterAdd (rowScatterDims N R C wf) x idx upd (ix2 n f)
      = x (ix2 n f) + ∑ r : Fin R, if (idx (ix2 r (0 : Fin 1))).toInt = (n.val : Int) then upd (ix2 r f) else 0 := by
  unfold Ideal.hostScatterAdd
  congr 1
  rw [Finset.sum_filter, sum_idx2]
  refine Finset.sum_congr rfl fun r _ => ?_
  simp only [rowScatter_resultIdx?_eq_some_iff]
  by_cases hz : (idx (ix2 r (0 : Fin 1))).toInt = (n.val : Int)
  · simp only [hz, true_and, if_true]
    rw [Finset.sum_ite_eq' Finset.univ f (fun f' => upd (ix2 r f'))]
    simp
  · simp [hz]

end Scatter

end Idealize.ShloMosaic.RowScatter2

end
-- ==== Proof.LibRowIndex.lean ====
import Idealize.ShloMosaic.Lib.ValueIdx
import Idealize.ShloMosaic.Lib.Pipeline.Value
import Idealize.ShloMosaic.Lib.IdealHost

/-!
# Reading rank-1 rows at an index

General lemmas about one-axis arrays: a two-piece concatenation read in its first and in its second piece, the
iota along the one axis, the wrap-around normalisation of a non-negative index word, and the row forms of the
host scatter (`x.at[idx].add(v)`) and the host gather (`x[idx]`) — operand `[M]`, indices `[E, 1]`, updates or
result `[E]` — read at an index.
-/

noncomputable section

namespace RowIndex

open Idealize.ShloMosaic Idealize.ShloMosaic.ValueIdx
open scoped BigOperators

variable {α : Type}

/-! ## One-axis indices -/

/-- A one-axis index is its one coordinate … -/
def idxEquiv1 {n : Nat} : (⟨1, ![n]⟩ : Shape).Idx ≃ Fin n where
  toFun i := i 0
  invFun a := ix1 a
  left_inv i := (eq_ix1 i).symm
  right_inv _ := rfl

/-- … so a sum over one-axis indices is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Concatenation of two rows -/

/-- A concatenation of two rows of lengths `n₁` and `n₂` read at a position `j < n₁` is the first row at `j`. -/
theorem concat1_left {n₁ n₂ n : Nat} (x₁ : (⟨1, ![n₁]⟩ : Shape).Idx → α) (x₂ : (⟨1, ![n₂]⟩ : Shape).Idx → α)
    (h : Shape.Concatenates [⟨1, ![n₁]⟩, ⟨1, ![n₂]⟩] ⟨1, ![n]⟩ 0) (j : Fin n) (hj : j.val < n₁) :
    concatenate ⟨1, ![n]⟩ 0 [⟨⟨1, ![n₁]⟩, x₁⟩, ⟨⟨1, ![n₂]⟩, x₂⟩] h (ix1 j) = x₁ (ix1 ⟨j.val, hj⟩) := by
  refine concatenate_pair_apply_left 0 x₁ x₂ h (ix1 j) rfl (ix1 ⟨j.val, hj⟩) ?_
  intro b
  obtain rfl : b = 0 := Subsingleton.elim _ _
  rfl

/-- A concatenation of two rows of lengths `n₁` and `n₂` read at position `n₁ + i`, `i < n₂`, is the second row
    at `i`. -/
theorem concat1_right {n₁ n₂ n : Nat} (x₁ : (⟨1, ![n₁]⟩ : Shape).Idx → α) (x₂ : (⟨1, ![n₂]⟩ : Shape).Idx → α)
    (h : Shape.Concatenates [⟨1, ![n₁]⟩, ⟨1, ![n₂]⟩] ⟨1, ![n]⟩ 0) (i : Fin n₂) (hi : n₁ + i.val < n) :
    concatenate ⟨1, ![n]⟩ 0 [⟨⟨1, ![n₁]⟩, x₁⟩, ⟨⟨1, ![n₂]⟩, x₂⟩] h (ix1 ⟨n₁ + i.val, hi⟩) = x₂ (ix1 i) := by
  refine concatenate_pair_apply_right 0 x₁ x₂ h (ix1 ⟨n₁ + i.val, hi⟩) rfl rfl (ix1 i) ?_ ?_
  · intro b hb
    obtain rfl : b = 0 := Subsingleton.elim _ _
    exact absurd rfl hb
  · exact Nat.add_comm _ _

/-! ## The iota row and the index normalisation -/

/-- The iota along the one axis of a row reads the position as a word. -/
theorem iota1_apply {n : Nat} (w : Nat) (i : Fin n) : iotaInDim ⟨1, ![n]⟩ w 0 (ix1 i) = BitVec.ofNat w i.val := rfl

/-- A natural number below `2 ^ 31`, as a 32-bit word read signed, is itself. -/
theorem toInt_ofNat32 (i : Nat) (hi : i < 2 ^ 31) : (BitVec.ofNat 32 i).toInt = (i : Int) := by
  rw [BitVec.toInt_eq_toNat_cond, BitVec.toNat_ofNat]
  have : i % 2 ^ 32 = i := Nat.mod_eq_of_lt (by omega)
  rw [this, if_pos (by omega)]

/-- Such a word is not negative: the signed comparison with zero answers no. -/
theorem slt_zero_ofNat32 (i : Nat) (hi : i < 2 ^ 31) : IntOp.cmpi .slt (BitVec.ofNat 32 i) 0#32 = 0#1 := by
  have h := toInt_ofNat32 i hi
  simp only [IntOp.cmpi, BitVec.slt, h, BitVec.toInt_zero]
  have : ¬ ((i : Int) < 0) := by omega
  simp [this]

/-- The wrap-around normalisation `if x < 0 then x + c else x` leaves a word `i < 2 ^ 31` unchanged. -/
theorem nrm_ofNat32 (i : Nat) (hi : i < 2 ^ 31) (c : BitVec 32) :
    Scalar.select (IntOp.cmpi .slt (BitVec.ofNat 32 i) 0#32) (IntOp.addi (BitVec.ofNat 32 i) c) (BitVec.ofNat 32 i)
      = BitVec.ofNat 32 i := by
  rw [slt_zero_ofNat32 i hi]; exact select_zero _ _

/-- A word `i ≤ m` (and below `2 ^ 31`) read signed and clamped into `[0, m]` is `i`. -/
theorem clamp_ofNat32 (i m : Nat) (hi : i < 2 ^ 31) (him : i ≤ m) : min (BitVec.ofNat 32 i).toInt.toNat m = i := by
  rw [toInt_ofNat32 i hi, Int.toNat_natCast]; exact Nat.min_eq_left him

/-! ## A row broadcast to a column of index vectors -/

/-- The row `[E]` laid out as `[E, 1]` (one index per index vector) reads the row at the first coordinate. -/
theorem bcastCol_apply {E : Nat} (h : (⟨1, ![E]⟩ : Shape).BroadcastsInDim ⟨2, ![E, 1]⟩ ![0])
    (x : (⟨1, ![E]⟩ : Shape).Idx → α) (j : Fin E) (z : Fin 1) :
    broadcastInDim ⟨2, ![E, 1]⟩ ![0] h x (ix2 j z) = x (ix1 j) := by
  unfold broadcastInDim
  refine congrArg x (funext fun a => ?_)
  obtain rfl : a = 0 := Subsingleton.elim _ _
  refine Fin.ext ?_
  split
  · next h1 =>
    have : E = 1 := h1
    have := j.isLt
    show 0 = j.val
    omega
  · rfl

/-! ## The row scatter -/

/-- The dimension numbers of `x.at[idx].add(v)` on rows: operand `[M]`, scatter indices `[E, 1]`, updates `[E]`, no
    window axes, the operand's one axis inserted and scattered to, the index vector on axis 1. -/
abbrev rowScatter (M E : Nat) (wf : ScatterDims.WF ⟨1, ![M]⟩ ⟨2, ![E, 1]⟩ ⟨1, ![E]⟩ [] [0] [0] 1) :
    ScatterDims ⟨1, ![M]⟩ ⟨2, ![E, 1]⟩ ⟨1, ![E]⟩ where
  updateWindowDims := []
  insertedWindowDims := [0]
  scatterDimsToOperandDims := [0]
  indexVectorDim := 1
  wf := wf

/-- Update `j` of a row scatter starts at the signed value of its index word. -/
theorem rowScatter_start {M E w : Nat} (wf : ScatterDims.WF ⟨1, ![M]⟩ ⟨2, ![E, 1]⟩ ⟨1, ![E]⟩ [] [0] [0] 1)
    (idx : IVec ⟨2, ![E, 1]⟩ w) (j : Fin E) (a : Fin 1) :
    (rowScatter M E wf).start (ix1 j) idx a = (idx (ix2 j 0)).toInt := by
  obtain rfl : a = 0 := Subsingleton.elim _ _
  unfold ScatterDims.start
  rw [dif_pos (show (0 : Fin 1) ∈ (rowScatter M E wf).scatterDimsToOperandDims from List.mem_singleton.mpr rfl)]
  have hsi : (rowScatter M E wf).siIdx (ix1 j) ⟨List.idxOf (0 : Fin 1) (rowScatter M E wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- A row scatter has no window: the window coordinate is zero. -/
theorem rowScatter_window {M E : Nat} (wf : ScatterDims.WF ⟨1, ![M]⟩ ⟨2, ![E, 1]⟩ ⟨1, ![E]⟩ [] [0] [0] 1)
    (j : Fin E) (a : Fin 1) : (rowScatter M E wf).window (ix1 j) a = 0 := by
  obtain rfl : a = 0 := Subsingleton.elim _ _
  unfold ScatterDims.window
  rw [dif_neg]
  simp [ScatterDims.sKept, Shape.kept]

/-- WHERE UPDATE `j` OF A ROW SCATTER LANDS: at operand position `i` exactly when its index word, read signed, is
    `i` (a word outside `[0, M)` lands nowhere). -/
theorem rowScatter_resultIdx?_eq_some {M E w : Nat}
    (wf : ScatterDims.WF ⟨1, ![M]⟩ ⟨2, ![E, 1]⟩ ⟨1, ![E]⟩ [] [0] [0] 1)
    (idx : IVec ⟨2, ![E, 1]⟩ w) (j : Fin E) (i : Fin M) :
    (rowScatter M E wf).resultIdx? (ix1 j) idx = some (ix1 i) ↔ (idx (ix2 j 0)).toInt = (i.val : Int) := by
  unfold ScatterDims.resultIdx?
  constructor
  · intro h
    split at h
    · next hb =>
      have h0 := congrArg (fun f => (f 0).val) (Option.some.inj h)
      simp only [rowScatter_start, rowScatter_window] at h0
      have hb0 := hb 0
      simp only [rowScatter_start, rowScatter_window] at hb0
      have : ((ix1 i : (⟨1, ![M]⟩ : Shape).Idx) 0).val = i.val := rfl
      rw [this] at h0
      omega
    · exact absurd h (by simp)
  · intro h
    have hb : ∀ a, 0 ≤ (rowScatter M E wf).start (ix1 j) idx a + ((rowScatter M E wf).window (ix1 j) a : Int) ∧
        (rowScatter M E wf).start (ix1 j) idx a + ((rowScatter M E wf).window (ix1 j) a : Int)
          < ((⟨1, ![M]⟩ : Shape).size a : Int) := by
      intro a
      obtain rfl : a = 0 := Subsingleton.elim _ _
      rw [rowScatter_start, rowScatter_window, h]
      have := i.isLt
      show 0 ≤ (i.val : Int) + ((0 : Nat) : Int) ∧ (i.val : Int) + ((0 : Nat) : Int) < ((M : Nat) : Int)
      omega
    rw [dif_pos hb]
    congr 1
    funext a
    obtain rfl : a = 0 := Subsingleton.elim _ _
    refine Fin.ext ?_
    show ((rowScatter M E wf).start (ix1 j) idx 0 + ((rowScatter M E wf).window (ix1 j) 0 : Int)).toNat = i.val
    rw [rowScatter_start, rowScatter_window, h]
    simp

/-! ## The row gather -/

/-- The dimension numbers of `x[idx]` on rows: operand `[M]`, start indices `[E, 1]`, result `[E]`, no offset axes,
    the operand's one axis collapsed and indexed, slices of one element, the index vector on axis 1. -/
abbrev rowGather (M E : Nat) (wf : GatherDims.WF ⟨1, ![M]⟩ ⟨2, ![E, 1]⟩ ⟨1, ![E]⟩ [] [0] [] [0] [] 1 ![1]) :
    GatherDims ⟨1, ![M]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ROW GATHER READ AT `j`: the operand at index word `j`, read signed and clamped into `[0, M − 1]`. -/
theorem rowGather_apply {M E w : Nat} (hM : 0 < M)
    (wf : GatherDims.WF ⟨1, ![M]⟩ ⟨2, ![E, 1]⟩ ⟨1, ![E]⟩ [] [0] [] [0] [] 1 ![1])
    (x : (⟨1, ![M]⟩ : Shape).Idx → α) (idx : IVec ⟨2, ![E, 1]⟩ w) (j : Fin E) :
    Host.gather (rowGather M E wf) x idx (ix1 j) = x (ix1 ⟨min (idx (ix2 j 0)).toInt.toNat (M - 1), by omega⟩) := by
  unfold Host.gather
  congr 1
  funext a
  obtain rfl : a = 0 := Subsingleton.elim _ _
  refine Fin.ext ?_
  show (rowGather M E wf).start (ix1 j) idx 0 + (rowGather M E wf).batchCoord (ix1 j) 0
    + (rowGather M E wf).offCoord (ix1 j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (rowGather M E wf).startIndexMap from List.mem_singleton.mpr rfl)]
  have hsi : (rowGather M E wf).siIdx (ix1 j) ⟨List.idxOf (0 : Fin 1) (rowGather M E wf).startIndexMap,
      List.idxOf_lt_length_iff.2 (List.mem_singleton.mpr rfl)⟩ = ix2 j 0 := by
    funext b; refine Fin.ext ?_
    match b with
    | ⟨0, _⟩ => rfl
    | ⟨1, _⟩ => rfl
  rw [hsi]
  rfl

end RowIndex

end
-- ==== Proof.Aggregate128.lean ====
/-
  THE AGGREGATION STEP OF A GRAPH CONVOLUTION, WRITTEN TWO WAYS, IS ONE ARRAY (feature width 128).

  A graph has 100000 nodes and 640000 edges, given as a row `a` of source numbers and a row `b` of target numbers (any
  32-bit words).  For node features `h : [100000, 128]` and edge weights, the aggregate at node `n`, column `f`, is the
  sum over the edges `j` whose target is `n` of `h (source j, f) · weight j`.

  • One program first appends the 100000 self-loops `i → i` to the edge rows and makes ONE scatter-add of the 740000
    weighted messages; the self-loop `i` carries the weight `self i`.
  • The other scatter-adds the 640000 real-edge messages and adds the self-loop term `self n · h (n, f)` afterwards.

  At the extended reals the scatter-add is the exact, order-free sum: element `(n, f)` of the result is the operand's
  element plus the sum of the messages `(r, f)` over the rows `r` whose target number, read as a signed integer, is
  `n`.  Split the 740000 rows into the first 640000 — there both the summand and the landing condition are the second
  program's, term by term — and the last 100000, where row `640000 + i` carries source and target `i`: that value is not
  negative and below 100000, so neither the "negative index counts from the end" step nor the gather's clamp moves it, the
  message is `h (i, f) · self i`, and it lands on `(i, f)`; exactly one of these lands on `(n, f)`.  What is left is
  `z + (A + h · s) = (z + A) + s · h`: associativity of `+` and commutativity of `·`, which hold on all extended reals
  (no finiteness is used, nor distributivity).
-/
import Idealize.ShloMosaic.Lib.ValueIdx
import Idealize.ShloMosaic.Lib.IdealHost
import proofs.«180835_j69956427317969_2_alg».proof.Proof.Gen.ReferenceIdeal
import proofs.«180835_j69956427317969_2_alg».proof.Proof.Gen.KernelIdeal
import proofs.«180835_j69956427317969_2_alg».proof.Proof.LibRowScatter2
import proofs.«180835_j69956427317969_2_alg».proof.Proof.LibRowIndex

noncomputable section

open scoped BigOperators

namespace Aggregate128

open Idealize.ShloMosaic Idealize.ShloMosaic.ValueIdx Idealize.ShloMosaic.RowScatter2

/-! ## The two scatter-adds and the two gathers read at an index -/

/-- The 740000-row scatter-add at `(n, f)`: the operand's element plus the messages of the rows whose target is `n`. -/
theorem scatter740_apply (x : FVec Ideal Cert.ReferenceIdeal.S100000x128 .f32) (idx : IVec Cert.ReferenceIdeal.S740000x1 32)
    (upd : FVec Ideal Cert.ReferenceIdeal.S740000x128 .f32) (n : Fin 100000) (f : Fin 128) :
    (Host.scatterAdd (F := Ideal) Cert.ReferenceIdeal.scatter_S100000x128_S740000x1_S740000x128_1_0_0_1 x idx upd) (ix2 n f)
      = x (ix2 n f) + ∑ r : Fin 740000, if (idx (ix2 r (0 : Fin 1))).toInt = (n.val : Int) then upd (ix2 r f) else 0 :=
  rowScatterAdd_apply Cert.ReferenceIdeal.Facts₀.scatter_S100000x128_S740000x1_S740000x128_1_0_0_1_wf x idx upd n f

/-- The 640000-row scatter-add at `(n, f)`. -/
theorem scatter640_apply (x : FVec Ideal Cert.KernelIdeal.S100000x128 .f32) (idx : IVec Cert.KernelIdeal.S640000x1 32)
    (upd : FVec Ideal Cert.KernelIdeal.S640000x128 .f32) (n : Fin 100000) (f : Fin 128) :
    (Host.scatterAdd (F := Ideal) Cert.KernelIdeal.scatter_S100000x128_S640000x1_S640000x128_1_0_0_1 x idx upd) (ix2 n f)
      = x (ix2 n f) + ∑ r : Fin 640000, if (idx (ix2 r (0 : Fin 1))).toInt = (n.val : Int) then upd (ix2 r f) else 0 :=
  rowScatterAdd_apply Cert.KernelIdeal.Facts₀.scatter_S100000x128_S640000x1_S640000x128_1_0_0_1_wf x idx upd n f

/-- The 740000-row gather at `(r, f)`: the features' row `idx r` (clamped), column `f`. -/
theorem gather740_apply (x : (⟨2, ![100000, 128]⟩ : Shape).Idx → EReal) (idx : IVec Cert.ReferenceIdeal.S740000x1 32) (r : Fin 740000) (f : Fin 128) :
    (Host.gather Cert.ReferenceIdeal.gather_S100000x128_S740000x1_S740000x128_1_0_n_n_0_1_1128 x idx) (ix2 r f) = x (ix2 (clampRow 100000 (by decide) (idx (ix2 r (0 : Fin 1)))) f) :=
  rowGather_apply_clampRow (by decide) Cert.ReferenceIdeal.Facts₀.gather_S100000x128_S740000x1_S740000x128_1_0_n_n_0_1_1128_wf x idx r f

/-- The 640000-row gather at `(r, f)`. -/
theorem gather640_apply (x : (⟨2, ![100000, 128]⟩ : Shape).Idx → EReal) (idx : IVec Cert.KernelIdeal.S640000x1 32) (r : Fin 640000) (f : Fin 128) :
    (Host.gather Cert.KernelIdeal.gather_S100000x128_S640000x1_S640000x128_1_0_n_n_0_1_1128 x idx) (ix2 r f) = x (ix2 (clampRow 100000 (by decide) (idx (ix2 r (0 : Fin 1)))) f) :=
  rowGather_apply_clampRow (by decide) Cert.KernelIdeal.Facts₀.gather_S100000x128_S640000x1_S640000x128_1_0_n_n_0_1_1128_wf x idx r f

/-! ## One message of each program -/

/-- Message `(r, f)` of the 740000-row program: the features' row "source `r`, a negative number counted from the end,
    clamped", column `f`, times the weight of row `r`. -/
theorem msg740_apply (h : (⟨2, ![100000, 128]⟩ : Shape).Idx → EReal) (src : IVec Cert.ReferenceIdeal.S740000 32) (wt : FVec Ideal Cert.ReferenceIdeal.S740000 .f32)
    (r : Fin 740000) (f : Fin 128) :
    (mulf (F := Ideal) (φ := .f32) (Host.gather Cert.ReferenceIdeal.gather_S100000x128_S740000x1_S740000x128_1_0_n_n_0_1_1128 h (broadcastInDim Cert.ReferenceIdeal.S740000x1 ![0] Cert.ReferenceIdeal.Facts₀.bcast_S740000_S740000x1_0 (select (cmpi .slt src (broadcastInDim Cert.ReferenceIdeal.S740000 ![] Cert.ReferenceIdeal.Facts₀.bcast_S_S740000 (constantI Cert.ReferenceIdeal.S_ 32 0#32))) (addi src (broadcastInDim Cert.ReferenceIdeal.S740000 ![] Cert.ReferenceIdeal.Facts₀.bcast_S_S740000 (constantI Cert.ReferenceIdeal.S_ 32 100000#32))) src))) (broadcastInDim Cert.ReferenceIdeal.S740000x128 ![0, 1] Cert.ReferenceIdeal.Facts₀.bcast_S740000x1_S740000x128_0_1 (broadcastInDim Cert.ReferenceIdeal.S740000x1 ![0] Cert.ReferenceIdeal.Facts₀.bcast_S740000_S740000x1_0 wt))) (ix2 r f)
      = h (ix2 (clampRow 100000 (by decide) (Scalar.select (IntOp.cmpi .slt (src (ix1 r)) 0#32) (IntOp.addi (src (ix1 r)) 100000#32) (src (ix1 r)))) f) * wt (ix1 r) := by
  rw [mulf_apply, gather740_apply, bcast_cols_apply, bcast_col_apply, bcast_col_apply]
  rfl

/-- Message `(r, f)` of the 640000-row program. -/
theorem msg640_apply (h : (⟨2, ![100000, 128]⟩ : Shape).Idx → EReal) (src : IVec Cert.KernelIdeal.S640000 32) (wt : FVec Ideal Cert.KernelIdeal.S640000 .f32)
    (r : Fin 640000) (f : Fin 128) :
    (mulf (F := Ideal) (φ := .f32) (extf (F := Ideal) (φ := .bf16) .f32 (Host.gather Cert.KernelIdeal.gather_S100000x128_S640000x1_S640000x128_1_0_n_n_0_1_1128 h (broadcastInDim Cert.KernelIdeal.S640000x1 ![0] Cert.KernelIdeal.Facts₀.bcast_S640000_S640000x1_0 (select (cmpi .slt src (broadcastInDim Cert.KernelIdeal.S640000 ![] Cert.KernelIdeal.Facts₀.bcast_S_S640000 (constantI Cert.KernelIdeal.S_ 32 0#32))) (addi src (broadcastInDim Cert.KernelIdeal.S640000 ![] Cert.KernelIdeal.Facts₀.bcast_S_S640000 (constantI Cert.KernelIdeal.S_ 32 100000#32))) src))) Cert.KernelIdeal.Facts₀.bitsLt_bf16_f32) (broadcastInDim Cert.KernelIdeal.S640000x128 ![0, 1] Cert.KernelIdeal.Facts₀.bcast_S640000x1_S640000x128_0_1 (broadcastInDim Cert.KernelIdeal.S640000x1 ![0] Cert.KernelIdeal.Facts₀.bcast_S640000_S640000x1_0 wt))) (ix2 r f)
      = h (ix2 (clampRow 100000 (by decide) (Scalar.select (IntOp.cmpi .slt (src (ix1 r)) 0#32) (IntOp.addi (src (ix1 r)) 100000#32) (src (ix1 r)))) f) * wt (ix1 r) := by
  rw [mulf_apply, extf_apply, gather640_apply, bcast_cols_apply, bcast_col_apply, bcast_col_apply]
  rfl

/-! ## The identity -/

/-- THE AGGREGATION WITH THE SELF-LOOPS APPENDED IS THE AGGREGATION OVER THE EDGES PLUS THE SELF-LOOP TERM, for every
    feature array `h`, every two rows `a`, `b` of 32-bit words, and weights that agree: the appended program's weight row
    `w740` is the edge weights `wK` on its first 640000 entries (`hE`) and the self-loop weights `self` on its last
    100000 (`hL`). -/
theorem agg128 (h : (⟨2, ![100000, 128]⟩ : Shape).Idx → EReal) (w740 : FVec Ideal Cert.ReferenceIdeal.S740000 .f32) (wK : FVec Ideal Cert.KernelIdeal.S640000 .f32)
    (self : FVec Ideal Cert.KernelIdeal.S100000 .f32) (a b : IVec Cert.KernelIdeal.S640000 32)
    (hE : ∀ j : Fin 640000, w740 (ix1 ⟨j.val, by omega⟩) = wK (ix1 j))
    (hL : ∀ i : Fin 100000, w740 (ix1 ⟨640000 + i.val, by omega⟩) = self (ix1 i)) :
    (Host.scatterAdd (F := Ideal) Cert.ReferenceIdeal.scatter_S100000x128_S740000x1_S740000x128_1_0_0_1 (broadcastInDim Cert.ReferenceIdeal.S100000x128 ![] Cert.ReferenceIdeal.Facts₀.bcast_S_S100000x128 (constant (F := Ideal) Cert.ReferenceIdeal.S_ .f32 0x00000000#32)) (broadcastInDim Cert.ReferenceIdeal.S740000x1 ![0] Cert.ReferenceIdeal.Facts₀.bcast_S740000_S740000x1_0 (concatenate Cert.ReferenceIdeal.S740000 0 [⟨Cert.ReferenceIdeal.S640000, b⟩, ⟨Cert.ReferenceIdeal.S100000, iotaInDim Cert.ReferenceIdeal.S100000 32 0⟩] Cert.ReferenceIdeal.Facts₀.concatenates_S640000_S100000_S740000_d0)) (mulf (F := Ideal) (φ := .f32) (Host.gather Cert.ReferenceIdeal.gather_S100000x128_S740000x1_S740000x128_1_0_n_n_0_1_1128 h (broadcastInDim Cert.ReferenceIdeal.S740000x1 ![0] Cert.ReferenceIdeal.Facts₀.bcast_S740000_S740000x1_0 (select (cmpi .slt (concatenate Cert.ReferenceIdeal.S740000 0 [⟨Cert.ReferenceIdeal.S640000, a⟩, ⟨Cert.ReferenceIdeal.S100000, iotaInDim Cert.ReferenceIdeal.S100000 32 0⟩] Cert.ReferenceIdeal.Facts₀.concatenates_S640000_S100000_S740000_d0) (broadcastInDim Cert.ReferenceIdeal.S740000 ![] Cert.ReferenceIdeal.Facts₀.bcast_S_S740000 (constantI Cert.ReferenceIdeal.S_ 32 0#32))) (addi (concatenate Cert.ReferenceIdeal.S740000 0 [⟨Cert.ReferenceIdeal.S640000, a⟩, ⟨Cert.ReferenceIdeal.S100000, iotaInDim Cert.ReferenceIdeal.S100000 32 0⟩] Cert.ReferenceIdeal.Facts₀.concatenates_S640000_S100000_S740000_d0) (broadcastInDim Cert.ReferenceIdeal.S740000 ![] Cert.ReferenceIdeal.Facts₀.bcast_S_S740000 (constantI Cert.ReferenceIdeal.S_ 32 100000#32))) (concatenate Cert.ReferenceIdeal.S740000 0 [⟨Cert.ReferenceIdeal.S640000, a⟩, ⟨Cert.ReferenceIdeal.S100000, iotaInDim Cert.ReferenceIdeal.S100000 32 0⟩] Cert.ReferenceIdeal.Facts₀.concatenates_S640000_S100000_S740000_d0)))) (broadcastInDim Cert.ReferenceIdeal.S740000x128 ![0, 1] Cert.ReferenceIdeal.Facts₀.bcast_S740000x1_S740000x128_0_1 (broadcastInDim Cert.ReferenceIdeal.S740000x1 ![0] Cert.ReferenceIdeal.Facts₀.bcast_S740000_S740000x1_0 w740))))
    = addf (F := Ideal) (φ := .f32) (Host.scatterAdd (F := Ideal) Cert.KernelIdeal.scatter_S100000x128_S640000x1_S640000x128_1_0_0_1 (broadcastInDim Cert.KernelIdeal.S100000x128 ![] Cert.KernelIdeal.Facts₀.bcast_S_S100000x128 (constant (F := Ideal) Cert.KernelIdeal.S_ .f32 0x00000000#32)) (broadcastInDim Cert.KernelIdeal.S640000x1 ![0] Cert.KernelIdeal.Facts₀.bcast_S640000_S640000x1_0 b) (mulf (F := Ideal) (φ := .f32) (extf (F := Ideal) (φ := .bf16) .f32 (Host.gather Cert.KernelIdeal.gather_S100000x128_S640000x1_S640000x128_1_0_n_n_0_1_1128 h (broadcastInDim Cert.KernelIdeal.S640000x1 ![0] Cert.KernelIdeal.Facts₀.bcast_S640000_S640000x1_0 (select (cmpi .slt a (broadcastInDim Cert.KernelIdeal.S640000 ![] Cert.KernelIdeal.Facts₀.bcast_S_S640000 (constantI Cert.KernelIdeal.S_ 32 0#32))) (addi a (broadcastInDim Cert.KernelIdeal.S640000 ![] Cert.KernelIdeal.Facts₀.bcast_S_S640000 (constantI Cert.KernelIdeal.S_ 32 100000#32))) a))) Cert.KernelIdeal.Facts₀.bitsLt_bf16_f32) (broadcastInDim Cert.KernelIdeal.S640000x128 ![0, 1] Cert.KernelIdeal.Facts₀.bcast_S640000x1_S640000x128_0_1 (broadcastInDim Cert.KernelIdeal.S640000x1 ![0] Cert.KernelIdeal.Facts₀.bcast_S640000_S640000x1_0 wK)))) (mulf (F := Ideal) (φ := .f32) (broadcastInDim Cert.KernelIdeal.S100000x128 ![0, 1] Cert.KernelIdeal.Facts₀.bcast_S100000x1_S100000x128_0_1 (broadcastInDim Cert.KernelIdeal.S100000x1 ![0] Cert.KernelIdeal.Facts₀.bcast_S100000_S100000x1_0 self)) (extf (F := Ideal) (φ := .bf16) .f32 h Cert.KernelIdeal.Facts₀.bitsLt_bf16_f32)) := by
  funext i
  obtain ⟨n, f, rfl⟩ : ∃ (n : Fin 100000) (f : Fin 128), i = ix2 n f := ⟨i 0, i 1, eq_ix2 i⟩
  rw [addf_apply, mulf_apply, extf_apply, scatter740_apply, scatter640_apply, bcast_cols_apply, bcast_col_apply,
    sum_fin_split 640000 100000 740000 rfl]
  -- the first 640000 rows: the other program's terms, one by one
  have hedge : ∀ j : Fin 640000,
      (if ((broadcastInDim Cert.ReferenceIdeal.S740000x1 ![0] Cert.ReferenceIdeal.Facts₀.bcast_S740000_S740000x1_0 (concatenate Cert.ReferenceIdeal.S740000 0 [⟨Cert.ReferenceIdeal.S640000, b⟩, ⟨Cert.ReferenceIdeal.S100000, iotaInDim Cert.ReferenceIdeal.S100000 32 0⟩] Cert.ReferenceIdeal.Facts₀.concatenates_S640000_S100000_S740000_d0)) (ix2 (⟨j.val, by omega⟩ : Fin 740000) (0 : Fin 1))).toInt = (n.val : Int) then (mulf (F := Ideal) (φ := .f32) (Host.gather Cert.ReferenceIdeal.gather_S100000x128_S740000x1_S740000x128_1_0_n_n_0_1_1128 h (broadcastInDim Cert.ReferenceIdeal.S740000x1 ![0] Cert.ReferenceIdeal.Facts₀.bcast_S740000_S740000x1_0 (select (cmpi .slt (concatenate Cert.ReferenceIdeal.S740000 0 [⟨Cert.ReferenceIdeal.S640000, a⟩, ⟨Cert.ReferenceIdeal.S100000, iotaInDim Cert.ReferenceIdeal.S100000 32 0⟩] Cert.ReferenceIdeal.Facts₀.concatenates_S640000_S100000_S740000_d0) (broadcastInDim Cert.ReferenceIdeal.S740000 ![] Cert.ReferenceIdeal.Facts₀.bcast_S_S740000 (constantI Cert.ReferenceIdeal.S_ 32 0#32))) (addi (concatenate Cert.ReferenceIdeal.S740000 0 [⟨Cert.ReferenceIdeal.S640000, a⟩, ⟨Cert.ReferenceIdeal.S100000, iotaInDim Cert.ReferenceIdeal.S100000 32 0⟩] Cert.ReferenceIdeal.Facts₀.concatenates_S640000_S100000_S740000_d0) (broadcastInDim Cert.ReferenceIdeal.S740000 ![] Cert.ReferenceIdeal.Facts₀.bcast_S_S740000 (constantI Cert.ReferenceIdeal.S_ 32 100000#32))) (concatenate Cert.ReferenceIdeal.S740000 0 [⟨Cert.ReferenceIdeal.S640000, a⟩, ⟨Cert.ReferenceIdeal.S100000, iotaInDim Cert.ReferenceIdeal.S100000 32 0⟩] Cert.ReferenceIdeal.Facts₀.concatenates_S640000_S100000_S740000_d0)))) (broadcastInDim Cert.ReferenceIdeal.S740000x128 ![0, 1] Cert.ReferenceIdeal.Facts₀.bcast_S740000x1_S740000x128_0_1 (broadcastInDim Cert.ReferenceIdeal.S740000x1 ![0] Cert.ReferenceIdeal.Facts₀.bcast_S740000_S740000x1_0 w740))) (ix2 (⟨j.val, by omega⟩ : Fin 740000) f) else 0)
      = (if ((broadcastInDim Cert.KernelIdeal.S640000x1 ![0] Cert.KernelIdeal.Facts₀.bcast_S640000_S640000x1_0 b) (ix2 j (0 : Fin 1))).toInt = (n.val : Int) then (mulf (F := Ideal) (φ := .f32) (extf (F := Ideal) (φ := .bf16) .f32 (Host.gather Cert.KernelIdeal.gather_S100000x128_S640000x1_S640000x128_1_0_n_n_0_1_1128 h (broadcastInDim Cert.KernelIdeal.S640000x1 ![0] Cert.KernelIdeal.Facts₀.bcast_S640000_S640000x1_0 (select (cmpi .slt a (broadcastInDim Cert.KernelIdeal.S640000 ![] Cert.KernelIdeal.Facts₀.bcast_S_S640000 (constantI Cert.KernelIdeal.S_ 32 0#32))) (addi a (broadcastInDim Cert.KernelIdeal.S640000 ![] Cert.KernelIdeal.Facts₀.bcast_S_S640000 (constantI Cert.KernelIdeal.S_ 32 100000#32))) a))) Cert.KernelIdeal.Facts₀.bitsLt_bf16_f32) (broadcastInDim Cert.KernelIdeal.S640000x128 ![0, 1] Cert.KernelIdeal.Facts₀.bcast_S640000x1_S640000x128_0_1 (broadcastInDim Cert.KernelIdeal.S640000x1 ![0] Cert.KernelIdeal.Facts₀.bcast_S640000_S640000x1_0 wK))) (ix2 j f) else 0) := by
    intro j
    have hj : (⟨j.val, by omega⟩ : Fin 740000).val < 640000 := j.isLt
    rw [msg740_apply, msg640_apply, bcast_col_apply, bcast_col_apply,
      RowIndex.concat1_left b _ _ _ hj, RowIndex.concat1_left a _ _ _ hj, hE j]
  -- the last 100000 rows: row 640000 + i is the self-loop of node i
  have hloop : ∀ i : Fin 100000,
      (if ((broadcastInDim Cert.ReferenceIdeal.S740000x1 ![0] Cert.ReferenceIdeal.Facts₀.bcast_S740000_S740000x1_0 (concatenate Cert.ReferenceIdeal.S740000 0 [⟨Cert.ReferenceIdeal.S640000, b⟩, ⟨Cert.ReferenceIdeal.S100000, iotaInDim Cert.ReferenceIdeal.S100000 32 0⟩] Cert.ReferenceIdeal.Facts₀.concatenates_S640000_S100000_S740000_d0)) (ix2 (⟨640000 + i.val, by omega⟩ : Fin 740000) (0 : Fin 1))).toInt = (n.val : Int) then (mulf (F := Ideal) (φ := .f32) (Host.gather Cert.ReferenceIdeal.gather_S100000x128_S740000x1_S740000x128_1_0_n_n_0_1_1128 h (broadcastInDim Cert.ReferenceIdeal.S740000x1 ![0] Cert.ReferenceIdeal.Facts₀.bcast_S740000_S740000x1_0 (select (cmpi .slt (concatenate Cert.ReferenceIdeal.S740000 0 [⟨Cert.ReferenceIdeal.S640000, a⟩, ⟨Cert.ReferenceIdeal.S100000, iotaInDim Cert.ReferenceIdeal.S100000 32 0⟩] Cert.ReferenceIdeal.Facts₀.concatenates_S640000_S100000_S740000_d0) (broadcastInDim Cert.ReferenceIdeal.S740000 ![] Cert.ReferenceIdeal.Facts₀.bcast_S_S740000 (constantI Cert.ReferenceIdeal.S_ 32 0#32))) (addi (concatenate Cert.ReferenceIdeal.S740000 0 [⟨Cert.ReferenceIdeal.S640000, a⟩, ⟨Cert.ReferenceIdeal.S100000, iotaInDim Cert.ReferenceIdeal.S100000 32 0⟩] Cert.ReferenceIdeal.Facts₀.concatenates_S640000_S100000_S740000_d0) (broadcastInDim Cert.ReferenceIdeal.S740000 ![] Cert.ReferenceIdeal.Facts₀.bcast_S_S740000 (constantI Cert.ReferenceIdeal.S_ 32 100000#32))) (concatenate Cert.ReferenceIdeal.S740000 0 [⟨Cert.ReferenceIdeal.S640000, a⟩, ⟨Cert.ReferenceIdeal.S100000, iotaInDim Cert.ReferenceIdeal.S100000 32 0⟩] Cert.ReferenceIdeal.Facts₀.concatenates_S640000_S100000_S740000_d0)))) (broadcastInDim Cert.ReferenceIdeal.S740000x128 ![0, 1] Cert.ReferenceIdeal.Facts₀.bcast_S740000x1_S740000x128_0_1 (broadcastInDim Cert.ReferenceIdeal.S740000x1 ![0] Cert.ReferenceIdeal.Facts₀.bcast_S740000_S740000x1_0 w740))) (ix2 (⟨640000 + i.val, by omega⟩ : Fin 740000) f) else 0)
      = (if i = n then h (ix2 i f) * self (ix1 i) else 0) := by
    intro i
    have hi : i.val < 2 ^ 31 := by have := i.isLt; omega
    rw [msg740_apply, bcast_col_apply,
      RowIndex.concat1_right b _ _ i, RowIndex.concat1_right a _ _ i, RowIndex.iota1_apply,
      RowIndex.nrm_ofNat32 i.val hi, RowIndex.toInt_ofNat32 i.val hi,
      clampRow_of_toInt (by decide) _ i (RowIndex.toInt_ofNat32 i.val hi), hL i]
    by_cases hin : i = n
    · rw [if_pos hin, if_pos (by rw [hin])]
    · rw [if_neg hin, if_neg (fun e => hin (Fin.ext (Int.ofNat_inj.mp e)))]
  rw [Finset.sum_congr rfl (fun j _ => hedge j), Finset.sum_congr rfl (fun i _ => hloop i),
    Finset.sum_ite_eq' Finset.univ n (fun i => h (ix2 i f) * self (ix1 i)), if_pos (Finset.mem_univ n),
    broadcastInDim_scalar_apply, mul_comm (h (ix2 n f)), add_assoc]

end Aggregate128

end
-- ==== Proof.Aggregate64.lean ====
/-
  THE AGGREGATION STEP OF A GRAPH CONVOLUTION, WRITTEN TWO WAYS, IS ONE ARRAY (feature width 64).

  A graph has 100000 nodes and 640000 edges, given as a row `a` of source numbers and a row `b` of target numbers (any
  32-bit words).  For node features `h : [100000, 64]` and edge weights, the aggregate at node `n`, column `f`, is the
  sum over the edges `j` whose target is `n` of `h (source j, f) · weight j`.

  • One program first appends the 100000 self-loops `i → i` to the edge rows and makes ONE scatter-add of the 740000
    weighted messages; the self-loop `i` carries the weight `self i`.
  • The other scatter-adds the 640000 real-edge messages and adds the self-loop term `self n · h (n, f)` afterwards.

  At the extended reals the scatter-add is the exact, order-free sum: element `(n, f)` of the result is the operand's
  element plus the sum of the messages `(r, f)` over the rows `r` whose target number, read as a signed integer, is
  `n`.  Split the 740000 rows into the first 640000 — there both the summand and the landing condition are the second
  program's, term by term — and the last 100000, where row `640000 + i` carries source and target `i`: that value is not
  negative and below 100000, so neither the "negative index counts from the end" step nor the gather's clamp moves it, the
  message is `h (i, f) · self i`, and it lands on `(i, f)`; exactly one of these lands on `(n, f)`.  What is left is
  `z + (A + h · s) = (z + A) + s · h`: associativity of `+` and commutativity of `·`, which hold on all extended reals
  (no finiteness is used, nor distributivity).
-/
import Idealize.ShloMosaic.Lib.ValueIdx
import Idealize.ShloMosaic.Lib.IdealHost
import proofs.«180835_j69956427317969_2_alg».proof.Proof.Gen.ReferenceIdeal
import proofs.«180835_j69956427317969_2_alg».proof.Proof.Gen.KernelIdeal
import proofs.«180835_j69956427317969_2_alg».proof.Proof.LibRowScatter2
import proofs.«180835_j69956427317969_2_alg».proof.Proof.LibRowIndex

noncomputable section

open scoped BigOperators

namespace Aggregate64

open Idealize.ShloMosaic Idealize.ShloMosaic.ValueIdx Idealize.ShloMosaic.RowScatter2

/-! ## The two scatter-adds and the two gathers read at an index -/

/-- The 740000-row scatter-add at `(n, f)`: the operand's element plus the messages of the rows whose target is `n`. -/
theorem scatter740_apply (x : FVec Ideal Cert.ReferenceIdeal.S100000x64 .f32) (idx : IVec Cert.ReferenceIdeal.S740000x1 32)
    (upd : FVec Ideal Cert.ReferenceIdeal.S740000x64 .f32) (n : Fin 100000) (f : Fin 64) :
    (Host.scatterAdd (F := Ideal) Cert.ReferenceIdeal.scatter_S100000x64_S740000x1_S740000x64_1_0_0_1 x idx upd) (ix2 n f)
      = x (ix2 n f) + ∑ r : Fin 740000, if (idx (ix2 r (0 : Fin 1))).toInt = (n.val : Int) then upd (ix2 r f) else 0 :=
  rowScatterAdd_apply Cert.ReferenceIdeal.Facts₀.scatter_S100000x64_S740000x1_S740000x64_1_0_0_1_wf x idx upd n f

/-- The 640000-row scatter-add at `(n, f)`. -/
theorem scatter640_apply (x : FVec Ideal Cert.KernelIdeal.S100000x64 .f32) (idx : IVec Cert.KernelIdeal.S640000x1 32)
    (upd : FVec Ideal Cert.KernelIdeal.S640000x64 .f32) (n : Fin 100000) (f : Fin 64) :
    (Host.scatterAdd (F := Ideal) Cert.KernelIdeal.scatter_S100000x64_S640000x1_S640000x64_1_0_0_1 x idx upd) (ix2 n f)
      = x (ix2 n f) + ∑ r : Fin 640000, if (idx (ix2 r (0 : Fin 1))).toInt = (n.val : Int) then upd (ix2 r f) else 0 :=
  rowScatterAdd_apply Cert.KernelIdeal.Facts₀.scatter_S100000x64_S640000x1_S640000x64_1_0_0_1_wf x idx upd n f

/-- The 740000-row gather at `(r, f)`: the features' row `idx r` (clamped), column `f`. -/
theorem gather740_apply (x : (⟨2, ![100000, 64]⟩ : Shape).Idx → EReal) (idx : IVec Cert.ReferenceIdeal.S740000x1 32) (r : Fin 740000) (f : Fin 64) :
    (Host.gather Cert.ReferenceIdeal.gather_S100000x64_S740000x1_S740000x64_1_0_n_n_0_1_164 x idx) (ix2 r f) = x (ix2 (clampRow 100000 (by decide) (idx (ix2 r (0 : Fin 1)))) f) :=
  rowGather_apply_clampRow (by decide) Cert.ReferenceIdeal.Facts₀.gather_S100000x64_S740000x1_S740000x64_1_0_n_n_0_1_164_wf x idx r f

/-- The 640000-row gather at `(r, f)`. -/
theorem gather640_apply (x : (⟨2, ![100000, 64]⟩ : Shape).Idx → EReal) (idx : IVec Cert.KernelIdeal.S640000x1 32) (r : Fin 640000) (f : Fin 64) :
    (Host.gather Cert.KernelIdeal.gather_S100000x64_S640000x1_S640000x64_1_0_n_n_0_1_164 x idx) (ix2 r f) = x (ix2 (clampRow 100000 (by decide) (idx (ix2 r (0 : Fin 1)))) f) :=
  rowGather_apply_clampRow (by decide) Cert.KernelIdeal.Facts₀.gather_S100000x64_S640000x1_S640000x64_1_0_n_n_0_1_164_wf x idx r f

/-! ## One message of each program -/

/-- Message `(r, f)` of the 740000-row program: the features' row "source `r`, a negative number counted from the end,
    clamped", column `f`, times the weight of row `r`. -/
theorem msg740_apply (h : (⟨2, ![100000, 64]⟩ : Shape).Idx → EReal) (src : IVec Cert.ReferenceIdeal.S740000 32) (wt : FVec Ideal Cert.ReferenceIdeal.S740000 .f32)
    (r : Fin 740000) (f : Fin 64) :
    (mulf (F := Ideal) (φ := .f32) (Host.gather Cert.ReferenceIdeal.gather_S100000x64_S740000x1_S740000x64_1_0_n_n_0_1_164 h (broadcastInDim Cert.ReferenceIdeal.S740000x1 ![0] Cert.ReferenceIdeal.Facts₀.bcast_S740000_S740000x1_0 (select (cmpi .slt src (broadcastInDim Cert.ReferenceIdeal.S740000 ![] Cert.ReferenceIdeal.Facts₀.bcast_S_S740000 (constantI Cert.ReferenceIdeal.S_ 32 0#32))) (addi src (broadcastInDim Cert.ReferenceIdeal.S740000 ![] Cert.ReferenceIdeal.Facts₀.bcast_S_S740000 (constantI Cert.ReferenceIdeal.S_ 32 100000#32))) src))) (broadcastInDim Cert.ReferenceIdeal.S740000x64 ![0, 1] Cert.ReferenceIdeal.Facts₀.bcast_S740000x1_S740000x64_0_1 (broadcastInDim Cert.ReferenceIdeal.S740000x1 ![0] Cert.ReferenceIdeal.Facts₀.bcast_S740000_S740000x1_0 wt))) (ix2 r f)
      = h (ix2 (clampRow 100000 (by decide) (Scalar.select (IntOp.cmpi .slt (src (ix1 r)) 0#32) (IntOp.addi (src (ix1 r)) 100000#32) (src (ix1 r)))) f) * wt (ix1 r) := by
  rw [mulf_apply, gather740_apply, bcast_cols_apply, bcast_col_apply, bcast_col_apply]
  rfl

/-- Message `(r, f)` of the 640000-row program. -/
theorem msg640_apply (h : (⟨2, ![100000, 64]⟩ : Shape).Idx → EReal) (src : IVec Cert.KernelIdeal.S640000 32) (wt : FVec Ideal Cert.KernelIdeal.S640000 .f32)
    (r : Fin 640000) (f : Fin 64) :
    (mulf (F := Ideal) (φ := .f32) (extf (F := Ideal) (φ := .bf16) .f32 (Host.gather Cert.KernelIdeal.gather_S100000x64_S640000x1_S640000x64_1_0_n_n_0_1_164 h (broadcastInDim Cert.KernelIdeal.S640000x1 ![0] Cert.KernelIdeal.Facts₀.bcast_S640000_S640000x1_0 (select (cmpi .slt src (broadcastInDim Cert.KernelIdeal.S640000 ![] Cert.KernelIdeal.Facts₀.bcast_S_S640000 (constantI Cert.KernelIdeal.S_ 32 0#32))) (addi src (broadcastInDim Cert.KernelIdeal.S640000 ![] Cert.KernelIdeal.Facts₀.bcast_S_S640000 (constantI Cert.KernelIdeal.S_ 32 100000#32))) src))) Cert.KernelIdeal.Facts₀.bitsLt_bf16_f32) (broadcastInDim Cert.KernelIdeal.S640000x64 ![0, 1] Cert.KernelIdeal.Facts₀.bcast_S640000x1_S640000x64_0_1 (broadcastInDim Cert.KernelIdeal.S640000x1 ![0] Cert.KernelIdeal.Facts₀.bcast_S640000_S640000x1_0 wt))) (ix2 r f)
      = h (ix2 (clampRow 100000 (by decide) (Scalar.select (IntOp.cmpi .slt (src (ix1 r)) 0#32) (IntOp.addi (src (ix1 r)) 100000#32) (src (ix1 r)))) f) * wt (ix1 r) := by
  rw [mulf_apply, extf_apply, gather640_apply, bcast_cols_apply, bcast_col_apply, bcast_col_apply]
  rfl

/-! ## The identity -/

/-- THE AGGREGATION WITH THE SELF-LOOPS APPENDED IS THE AGGREGATION OVER THE EDGES PLUS THE SELF-LOOP TERM, for every
    feature array `h`, every two rows `a`, `b` of 32-bit words, and weights that agree: the appended program's weight row
    `w740` is the edge weights `wK` on its first 640000 entries (`hE`) and the self-loop weights `self` on its last
    100000 (`hL`). -/
theorem agg64 (h : (⟨2, ![100000, 64]⟩ : Shape).Idx → EReal) (w740 : FVec Ideal Cert.ReferenceIdeal.S740000 .f32) (wK : FVec Ideal Cert.KernelIdeal.S640000 .f32)
    (self : FVec Ideal Cert.KernelIdeal.S100000 .f32) (a b : IVec Cert.KernelIdeal.S640000 32)
    (hE : ∀ j : Fin 640000, w740 (ix1 ⟨j.val, by omega⟩) = wK (ix1 j))
    (hL : ∀ i : Fin 100000, w740 (ix1 ⟨640000 + i.val, by omega⟩) = self (ix1 i)) :
    (Host.scatterAdd (F := Ideal) Cert.ReferenceIdeal.scatter_S100000x64_S740000x1_S740000x64_1_0_0_1 (broadcastInDim Cert.ReferenceIdeal.S100000x64 ![] Cert.ReferenceIdeal.Facts₀.bcast_S_S100000x64 (constant (F := Ideal) Cert.ReferenceIdeal.S_ .f32 0x00000000#32)) (broadcastInDim Cert.ReferenceIdeal.S740000x1 ![0] Cert.ReferenceIdeal.Facts₀.bcast_S740000_S740000x1_0 (concatenate Cert.ReferenceIdeal.S740000 0 [⟨Cert.ReferenceIdeal.S640000, b⟩, ⟨Cert.ReferenceIdeal.S100000, iotaInDim Cert.ReferenceIdeal.S100000 32 0⟩] Cert.ReferenceIdeal.Facts₀.concatenates_S640000_S100000_S740000_d0)) (mulf (F := Ideal) (φ := .f32) (Host.gather Cert.ReferenceIdeal.gather_S100000x64_S740000x1_S740000x64_1_0_n_n_0_1_164 h (broadcastInDim Cert.ReferenceIdeal.S740000x1 ![0] Cert.ReferenceIdeal.Facts₀.bcast_S740000_S740000x1_0 (select (cmpi .slt (concatenate Cert.ReferenceIdeal.S740000 0 [⟨Cert.ReferenceIdeal.S640000, a⟩, ⟨Cert.ReferenceIdeal.S100000, iotaInDim Cert.ReferenceIdeal.S100000 32 0⟩] Cert.ReferenceIdeal.Facts₀.concatenates_S640000_S100000_S740000_d0) (broadcastInDim Cert.ReferenceIdeal.S740000 ![] Cert.ReferenceIdeal.Facts₀.bcast_S_S740000 (constantI Cert.ReferenceIdeal.S_ 32 0#32))) (addi (concatenate Cert.ReferenceIdeal.S740000 0 [⟨Cert.ReferenceIdeal.S640000, a⟩, ⟨Cert.ReferenceIdeal.S100000, iotaInDim Cert.ReferenceIdeal.S100000 32 0⟩] Cert.ReferenceIdeal.Facts₀.concatenates_S640000_S100000_S740000_d0) (broadcastInDim Cert.ReferenceIdeal.S740000 ![] Cert.ReferenceIdeal.Facts₀.bcast_S_S740000 (constantI Cert.ReferenceIdeal.S_ 32 100000#32))) (concatenate Cert.ReferenceIdeal.S740000 0 [⟨Cert.ReferenceIdeal.S640000, a⟩, ⟨Cert.ReferenceIdeal.S100000, iotaInDim Cert.ReferenceIdeal.S100000 32 0⟩] Cert.ReferenceIdeal.Facts₀.concatenates_S640000_S100000_S740000_d0)))) (broadcastInDim Cert.ReferenceIdeal.S740000x64 ![0, 1] Cert.ReferenceIdeal.Facts₀.bcast_S740000x1_S740000x64_0_1 (broadcastInDim Cert.ReferenceIdeal.S740000x1 ![0] Cert.ReferenceIdeal.Facts₀.bcast_S740000_S740000x1_0 w740))))
    = addf (F := Ideal) (φ := .f32) (Host.scatterAdd (F := Ideal) Cert.KernelIdeal.scatter_S100000x64_S640000x1_S640000x64_1_0_0_1 (broadcastInDim Cert.KernelIdeal.S100000x64 ![] Cert.KernelIdeal.Facts₀.bcast_S_S100000x64 (constant (F := Ideal) Cert.KernelIdeal.S_ .f32 0x00000000#32)) (broadcastInDim Cert.KernelIdeal.S640000x1 ![0] Cert.KernelIdeal.Facts₀.bcast_S640000_S640000x1_0 b) (mulf (F := Ideal) (φ := .f32) (extf (F := Ideal) (φ := .bf16) .f32 (Host.gather Cert.KernelIdeal.gather_S100000x64_S640000x1_S640000x64_1_0_n_n_0_1_164 h (broadcastInDim Cert.KernelIdeal.S640000x1 ![0] Cert.KernelIdeal.Facts₀.bcast_S640000_S640000x1_0 (select (cmpi .slt a (broadcastInDim Cert.KernelIdeal.S640000 ![] Cert.KernelIdeal.Facts₀.bcast_S_S640000 (constantI Cert.KernelIdeal.S_ 32 0#32))) (addi a (broadcastInDim Cert.KernelIdeal.S640000 ![] Cert.KernelIdeal.Facts₀.bcast_S_S640000 (constantI Cert.KernelIdeal.S_ 32 100000#32))) a))) Cert.KernelIdeal.Facts₀.bitsLt_bf16_f32) (broadcastInDim Cert.KernelIdeal.S640000x64 ![0, 1] Cert.KernelIdeal.Facts₀.bcast_S640000x1_S640000x64_0_1 (broadcastInDim Cert.KernelIdeal.S640000x1 ![0] Cert.KernelIdeal.Facts₀.bcast_S640000_S640000x1_0 wK)))) (mulf (F := Ideal) (φ := .f32) (broadcastInDim Cert.KernelIdeal.S100000x64 ![0, 1] Cert.KernelIdeal.Facts₀.bcast_S100000x1_S100000x64_0_1 (broadcastInDim Cert.KernelIdeal.S100000x1 ![0] Cert.KernelIdeal.Facts₀.bcast_S100000_S100000x1_0 self)) (extf (F := Ideal) (φ := .bf16) .f32 h Cert.KernelIdeal.Facts₀.bitsLt_bf16_f32)) := by
  funext i
  obtain ⟨n, f, rfl⟩ : ∃ (n : Fin 100000) (f : Fin 64), i = ix2 n f := ⟨i 0, i 1, eq_ix2 i⟩
  rw [addf_apply, mulf_apply, extf_apply, scatter740_apply, scatter640_apply, bcast_cols_apply, bcast_col_apply,
    sum_fin_split 640000 100000 740000 rfl]
  -- the first 640000 rows: the other program's terms, one by one
  have hedge : ∀ j : Fin 640000,
      (if ((broadcastInDim Cert.ReferenceIdeal.S740000x1 ![0] Cert.ReferenceIdeal.Facts₀.bcast_S740000_S740000x1_0 (concatenate Cert.ReferenceIdeal.S740000 0 [⟨Cert.ReferenceIdeal.S640000, b⟩, ⟨Cert.ReferenceIdeal.S100000, iotaInDim Cert.ReferenceIdeal.S100000 32 0⟩] Cert.ReferenceIdeal.Facts₀.concatenates_S640000_S100000_S740000_d0)) (ix2 (⟨j.val, by omega⟩ : Fin 740000) (0 : Fin 1))).toInt = (n.val : Int) then (mulf (F := Ideal) (φ := .f32) (Host.gather Cert.ReferenceIdeal.gather_S100000x64_S740000x1_S740000x64_1_0_n_n_0_1_164 h (broadcastInDim Cert.ReferenceIdeal.S740000x1 ![0] Cert.ReferenceIdeal.Facts₀.bcast_S740000_S740000x1_0 (select (cmpi .slt (concatenate Cert.ReferenceIdeal.S740000 0 [⟨Cert.ReferenceIdeal.S640000, a⟩, ⟨Cert.ReferenceIdeal.S100000, iotaInDim Cert.ReferenceIdeal.S100000 32 0⟩] Cert.ReferenceIdeal.Facts₀.concatenates_S640000_S100000_S740000_d0) (broadcastInDim Cert.ReferenceIdeal.S740000 ![] Cert.ReferenceIdeal.Facts₀.bcast_S_S740000 (constantI Cert.ReferenceIdeal.S_ 32 0#32))) (addi (concatenate Cert.ReferenceIdeal.S740000 0 [⟨Cert.ReferenceIdeal.S640000, a⟩, ⟨Cert.ReferenceIdeal.S100000, iotaInDim Cert.ReferenceIdeal.S100000 32 0⟩] Cert.ReferenceIdeal.Facts₀.concatenates_S640000_S100000_S740000_d0) (broadcastInDim Cert.ReferenceIdeal.S740000 ![] Cert.ReferenceIdeal.Facts₀.bcast_S_S740000 (constantI Cert.ReferenceIdeal.S_ 32 100000#32))) (concatenate Cert.ReferenceIdeal.S740000 0 [⟨Cert.ReferenceIdeal.S640000, a⟩, ⟨Cert.ReferenceIdeal.S100000, iotaInDim Cert.ReferenceIdeal.S100000 32 0⟩] Cert.ReferenceIdeal.Facts₀.concatenates_S640000_S100000_S740000_d0)))) (broadcastInDim Cert.ReferenceIdeal.S740000x64 ![0, 1] Cert.ReferenceIdeal.Facts₀.bcast_S740000x1_S740000x64_0_1 (broadcastInDim Cert.ReferenceIdeal.S740000x1 ![0] Cert.ReferenceIdeal.Facts₀.bcast_S740000_S740000x1_0 w740))) (ix2 (⟨j.val, by omega⟩ : Fin 740000) f) else 0)
      = (if ((broadcastInDim Cert.KernelIdeal.S640000x1 ![0] Cert.KernelIdeal.Facts₀.bcast_S640000_S640000x1_0 b) (ix2 j (0 : Fin 1))).toInt = (n.val : Int) then (mulf (F := Ideal) (φ := .f32) (extf (F := Ideal) (φ := .bf16) .f32 (Host.gather Cert.KernelIdeal.gather_S100000x64_S640000x1_S640000x64_1_0_n_n_0_1_164 h (broadcastInDim Cert.KernelIdeal.S640000x1 ![0] Cert.KernelIdeal.Facts₀.bcast_S640000_S640000x1_0 (select (cmpi .slt a (broadcastInDim Cert.KernelIdeal.S640000 ![] Cert.KernelIdeal.Facts₀.bcast_S_S640000 (constantI Cert.KernelIdeal.S_ 32 0#32))) (addi a (broadcastInDim Cert.KernelIdeal.S640000 ![] Cert.KernelIdeal.Facts₀.bcast_S_S640000 (constantI Cert.KernelIdeal.S_ 32 100000#32))) a))) Cert.KernelIdeal.Facts₀.bitsLt_bf16_f32) (broadcastInDim Cert.KernelIdeal.S640000x64 ![0, 1] Cert.KernelIdeal.Facts₀.bcast_S640000x1_S640000x64_0_1 (broadcastInDim Cert.KernelIdeal.S640000x1 ![0] Cert.KernelIdeal.Facts₀.bcast_S640000_S640000x1_0 wK))) (ix2 j f) else 0) := by
    intro j
    have hj : (⟨j.val, by omega⟩ : Fin 740000).val < 640000 := j.isLt
    rw [msg740_apply, msg640_apply, bcast_col_apply, bcast_col_apply,
      RowIndex.concat1_left b _ _ _ hj, RowIndex.concat1_left a _ _ _ hj, hE j]
  -- the last 100000 rows: row 640000 + i is the self-loop of node i
  have hloop : ∀ i : Fin 100000,
      (if ((broadcastInDim Cert.ReferenceIdeal.S740000x1 ![0] Cert.ReferenceIdeal.Facts₀.bcast_S740000_S740000x1_0 (concatenate Cert.ReferenceIdeal.S740000 0 [⟨Cert.ReferenceIdeal.S640000, b⟩, ⟨Cert.ReferenceIdeal.S100000, iotaInDim Cert.ReferenceIdeal.S100000 32 0⟩] Cert.ReferenceIdeal.Facts₀.concatenates_S640000_S100000_S740000_d0)) (ix2 (⟨640000 + i.val, by omega⟩ : Fin 740000) (0 : Fin 1))).toInt = (n.val : Int) then (mulf (F := Ideal) (φ := .f32) (Host.gather Cert.ReferenceIdeal.gather_S100000x64_S740000x1_S740000x64_1_0_n_n_0_1_164 h (broadcastInDim Cert.ReferenceIdeal.S740000x1 ![0] Cert.ReferenceIdeal.Facts₀.bcast_S740000_S740000x1_0 (select (cmpi .slt (concatenate Cert.ReferenceIdeal.S740000 0 [⟨Cert.ReferenceIdeal.S640000, a⟩, ⟨Cert.ReferenceIdeal.S100000, iotaInDim Cert.ReferenceIdeal.S100000 32 0⟩] Cert.ReferenceIdeal.Facts₀.concatenates_S640000_S100000_S740000_d0) (broadcastInDim Cert.ReferenceIdeal.S740000 ![] Cert.ReferenceIdeal.Facts₀.bcast_S_S740000 (constantI Cert.ReferenceIdeal.S_ 32 0#32))) (addi (concatenate Cert.ReferenceIdeal.S740000 0 [⟨Cert.ReferenceIdeal.S640000, a⟩, ⟨Cert.ReferenceIdeal.S100000, iotaInDim Cert.ReferenceIdeal.S100000 32 0⟩] Cert.ReferenceIdeal.Facts₀.concatenates_S640000_S100000_S740000_d0) (broadcastInDim Cert.ReferenceIdeal.S740000 ![] Cert.ReferenceIdeal.Facts₀.bcast_S_S740000 (constantI Cert.ReferenceIdeal.S_ 32 100000#32))) (concatenate Cert.ReferenceIdeal.S740000 0 [⟨Cert.ReferenceIdeal.S640000, a⟩, ⟨Cert.ReferenceIdeal.S100000, iotaInDim Cert.ReferenceIdeal.S100000 32 0⟩] Cert.ReferenceIdeal.Facts₀.concatenates_S640000_S100000_S740000_d0)))) (broadcastInDim Cert.ReferenceIdeal.S740000x64 ![0, 1] Cert.ReferenceIdeal.Facts₀.bcast_S740000x1_S740000x64_0_1 (broadcastInDim Cert.ReferenceIdeal.S740000x1 ![0] Cert.ReferenceIdeal.Facts₀.bcast_S740000_S740000x1_0 w740))) (ix2 (⟨640000 + i.val, by omega⟩ : Fin 740000) f) else 0)
      = (if i = n then h (ix2 i f) * self (ix1 i) else 0) := by
    intro i
    have hi : i.val < 2 ^ 31 := by have := i.isLt; omega
    rw [msg740_apply, bcast_col_apply,
      RowIndex.concat1_right b _ _ i, RowIndex.concat1_right a _ _ i, RowIndex.iota1_apply,
      RowIndex.nrm_ofNat32 i.val hi, RowIndex.toInt_ofNat32 i.val hi,
      clampRow_of_toInt (by decide) _ i (RowIndex.toInt_ofNat32 i.val hi), hL i]
    by_cases hin : i = n
    · rw [if_pos hin, if_pos (by rw [hin])]
    · rw [if_neg hin, if_neg (fun e => hin (Fin.ext (Int.ofNat_inj.mp e)))]
  rw [Finset.sum_congr rfl (fun j _ => hedge j), Finset.sum_congr rfl (fun i _ => hloop i),
    Finset.sum_ite_eq' Finset.univ n (fun i => h (ix2 i f) * self (ix1 i)), if_pos (Finset.mem_univ n),
    broadcastInDim_scalar_apply, mul_comm (h (ix2 n f)), add_assoc]

end Aggregate64

end
-- ==== Proof.DegreeNorm.lean ====
import proofs.«180835_j69956427317969_2_alg».proof.Proof.LibRowIndex
import proofs.«180835_j69956427317969_2_alg».proof.Proof.Gen.ReferenceIdeal
import proofs.«180835_j69956427317969_2_alg».proof.Proof.Gen.KernelIdeal

/-!
# The node degrees and their inverse square roots

A graph on 100000 nodes has 640000 edges with target row `a` (any 32-bit words). One program appends the 100000
self-loops (an iota) to the row and counts, per node, the entries of the 740000-long row that name it, then takes the
inverse square root where the count is positive and zero elsewhere; the other counts over the 640000 edges, adds one,
and takes the inverse square root. Every node is named by exactly one self-loop entry, so the long count is the
short count plus one; a count is a sum of ones, hence not negative, so the long count is positive and the guard is
always taken.
-/

noncomputable section

namespace DegreeNorm

open Idealize.ShloMosaic Idealize.ShloMosaic.ValueIdx RowIndex
open scoped BigOperators

/-- The row scatter-add of the ideal reals read at node `i`: the operand's element plus the updates whose index
    word, read signed, is `i`. -/
theorem rowScatterAdd_apply {M E w : Nat} (wf : ScatterDims.WF ⟨1, ![M]⟩ ⟨2, ![E, 1]⟩ ⟨1, ![E]⟩ [] [0] [0] 1)
    (x : (⟨1, ![M]⟩ : Shape).Idx → EReal) (idx : IVec ⟨2, ![E, 1]⟩ w) (upd : (⟨1, ![E]⟩ : Shape).Idx → EReal)
    (i : Fin M) :
    Ideal.hostScatterAdd (rowScatter M E wf) x idx upd (ix1 i)
      = x (ix1 i) + ∑ j : Fin E, if (idx (ix2 j 0)).toInt = (i.val : Int) then upd (ix1 j) else 0 := by
  unfold Ideal.hostScatterAdd
  congr 1
  rw [Finset.sum_filter, sum_idx1]
  refine Finset.sum_congr rfl fun j _ => ?_
  simp only [rowScatter_resultIdx?_eq_some]

/-- A count (a sum of ones and zeros) is not negative. -/
theorem count_nonneg {n : Nat} (p : Fin n → Prop) [DecidablePred p] :
    (0 : EReal) ≤ ∑ j : Fin n, if p j then (1 : EReal) else 0 := by
  refine Finset.sum_nonneg fun j _ => ?_
  split
  · exact zero_le_one
  · exact le_refl _

/-- THE LONG COUNT IS THE SHORT COUNT PLUS ONE. A row of `n₁ + M` words whose first `n₁` are the words of `a` and
    whose last `M` are `0, 1, …, M − 1` names node `i < M` once more than `a` does. -/
theorem count_concat_iota {n₁ M : Nat} (hM : M ≤ 2 ^ 31) (a : Fin n₁ → BitVec 32) (c : Fin (n₁ + M) → BitVec 32)
    (hl : ∀ j : Fin n₁, c (Fin.castAdd M j) = a j) (hr : ∀ k : Fin M, c (Fin.natAdd n₁ k) = BitVec.ofNat 32 k.val)
    (i : Fin M) :
    (∑ j : Fin (n₁ + M), if (c j).toInt = (i.val : Int) then (1 : EReal) else 0)
      = (∑ j : Fin n₁, if (a j).toInt = (i.val : Int) then (1 : EReal) else 0) + 1 := by
  rw [Fin.sum_univ_add]
  congr 1
  · exact Finset.sum_congr rfl fun j _ => by rw [hl]
  · have : ∀ k : Fin M, ((c (Fin.natAdd n₁ k)).toInt = (i.val : Int)) ↔ k = i := fun k => by
      rw [hr, toInt_ofNat32 k.val (by have := k.isLt; omega)]
      constructor
      · intro h; exact Fin.ext (by exact_mod_cast h)
      · intro h; rw [h]
    simp only [this]
    rw [Finset.sum_ite_eq' Finset.univ i (fun _ => (1 : EReal))]
    simp

/-- At the ideal reals the host scatter-add is the exact sum. -/
theorem scatterAdd_ideal {s si u : Shape} {w : Nat} (d : ScatterDims s si u) (x : FVec Ideal s .f32) (idx : IVec si w)
    (upd : FVec Ideal u .f32) : Host.scatterAdd (F := Ideal) d x idx upd = Ideal.hostScatterAdd d x idx upd := rfl

/-- The 640000-edge program's degree scatter is the row scatter. -/
theorem scatterK_eq : Cert.KernelIdeal.scatter_S100000_S640000x1_S640000_n_0_0_1
    = rowScatter 100000 640000 Cert.KernelIdeal.Facts₀.scatter_S100000_S640000x1_S640000_n_0_0_1_wf := rfl

/-- The 740000-entry program's degree scatter is the row scatter. -/
theorem scatterR_eq : Cert.ReferenceIdeal.scatter_S100000_S740000x1_S740000_n_0_0_1
    = rowScatter 100000 740000 Cert.ReferenceIdeal.Facts₀.scatter_S100000_S740000x1_S740000_n_0_0_1_wf := rfl

/-- Reading the inverse square root of a row at an index. -/
theorem rsqrt_apply {s : Shape} (x : FVec Ideal s .f32) (i : s.Idx) :
    Host.rsqrt x i = FloatOps.hostUnary .rsqrt (x i) := rfl

/-- The count of the entries of a row of words that name a given integer is not negative. -/
theorem count_words_nonneg {n : Nat} (a : IVec ⟨1, ![n]⟩ 32) (v : Int) :
    (0 : EReal) ≤ ∑ j : Fin n, if (a (ix1 j)).toInt = v then (1 : EReal) else 0 :=
  count_nonneg fun j => (a (ix1 j)).toInt = v

/-- THE GUARD IS ALWAYS TAKEN. If at node `i` one degree row holds `s + 1` and the other `s`, with `s` not
    negative, then the guarded inverse square root of the first (`d > 0 ? rsqrt d : 0`) is the inverse square root of
    the second plus one: `s + 1` is positive. -/
theorem guard_rsqrt (D740 D640 Z One : FVec Ideal ⟨1, ![100000]⟩ .f32) (i : Fin 100000) (s : EReal) (hs : 0 ≤ s)
    (h740 : D740 (ix1 i) = s + 1) (h640 : D640 (ix1 i) = s) (hz : Z (ix1 i) = 0) (hone : One (ix1 i) = 1) :
    select (cmpf (F := Ideal) .ogt D740 Z) (Host.rsqrt D740) Z (ix1 i) = Host.rsqrt (addf D640 One) (ix1 i) := by
  have hpos : (0 : EReal) < s + 1 := Right.add_pos_of_nonneg_of_pos hs zero_lt_one
  have hc : FloatOps.cmpf (F := Ideal) (φ := .f32) .ogt (s + 1) 0 = 1#1 := by
    show BitVec.ofBool (decide ((0 : EReal) < s + 1)) = 1#1
    rw [decide_eq_true hpos]; rfl
  rw [select_apply, cmpf_apply, rsqrt_apply, rsqrt_apply, addf_apply, h740, h640, hz, hone, hc, select_one]

/-- The short count at node `i`. -/
theorem deg640_apply (a : IVec Cert.KernelIdeal.S640000 32) (i : Fin 100000) :
    (Host.scatterAdd (F := Ideal) Cert.KernelIdeal.scatter_S100000_S640000x1_S640000_n_0_0_1 (broadcastInDim Cert.KernelIdeal.S100000 ![] Cert.KernelIdeal.Facts₀.bcast_S_S100000 (constant (F := Ideal) Cert.KernelIdeal.S_ .f32 0x00000000#32)) (broadcastInDim Cert.KernelIdeal.S640000x1 ![0] Cert.KernelIdeal.Facts₀.bcast_S640000_S640000x1_0 a) (broadcastInDim Cert.KernelIdeal.S640000 ![] Cert.KernelIdeal.Facts₀.bcast_S_S640000 (constant (F := Ideal) Cert.KernelIdeal.S_ .f32 0x3F800000#32))) (ix1 i)
      = ∑ j : Fin 640000, if (a (ix1 j)).toInt = (i.val : Int) then (1 : EReal) else 0 := by
  rw [scatterAdd_ideal, scatterK_eq, rowScatterAdd_apply]
  have hz : (broadcastInDim Cert.KernelIdeal.S100000 ![] Cert.KernelIdeal.Facts₀.bcast_S_S100000 (constant (F := Ideal) Cert.KernelIdeal.S_ .f32 0x00000000#32)) (ix1 i) = 0 := by
    rw [broadcastInDim_scalar_apply, constant_apply, Ideal.ofBits_zero_f32]
  rw [hz, zero_add]
  refine Finset.sum_congr rfl fun j _ => ?_
  have hone : (broadcastInDim Cert.KernelIdeal.S640000 ![] Cert.KernelIdeal.Facts₀.bcast_S_S640000 (constant (F := Ideal) Cert.KernelIdeal.S_ .f32 0x3F800000#32)) (ix1 j) = 1 := by
    rw [broadcastInDim_scalar_apply, constant_apply, Ideal.ofBits_one_f32]
  rw [bcastCol_apply, hone]

/-- The long count at node `i`: the short count plus one. -/
theorem deg740_apply (a : IVec Cert.KernelIdeal.S640000 32) (i : Fin 100000) :
    (Host.scatterAdd (F := Ideal) Cert.ReferenceIdeal.scatter_S100000_S740000x1_S740000_n_0_0_1 (broadcastInDim Cert.ReferenceIdeal.S100000 ![] Cert.ReferenceIdeal.Facts₀.bcast_S_S100000 (constant (F := Ideal) Cert.ReferenceIdeal.S_ .f32 0x00000000#32)) (broadcastInDim Cert.ReferenceIdeal.S740000x1 ![0] Cert.ReferenceIdeal.Facts₀.bcast_S740000_S740000x1_0 (concatenate Cert.ReferenceIdeal.S740000 0 [⟨Cert.ReferenceIdeal.S640000, a⟩, ⟨Cert.ReferenceIdeal.S100000, iotaInDim Cert.ReferenceIdeal.S100000 32 0⟩] Cert.ReferenceIdeal.Facts₀.concatenates_S640000_S100000_S740000_d0)) (broadcastInDim Cert.ReferenceIdeal.S740000 ![] Cert.ReferenceIdeal.Facts₀.bcast_S_S740000 (constant (F := Ideal) Cert.ReferenceIdeal.S_ .f32 0x3F800000#32))) (ix1 i)
      = (∑ j : Fin 640000, if (a (ix1 j)).toInt = (i.val : Int) then (1 : EReal) else 0) + 1 := by
  rw [scatterAdd_ideal, scatterR_eq, rowScatterAdd_apply]
  have hz : (broadcastInDim Cert.ReferenceIdeal.S100000 ![] Cert.ReferenceIdeal.Facts₀.bcast_S_S100000 (constant (F := Ideal) Cert.ReferenceIdeal.S_ .f32 0x00000000#32)) (ix1 i) = 0 := by
    rw [broadcastInDim_scalar_apply, constant_apply, Ideal.ofBits_zero_f32]
  rw [hz, zero_add]
  have hone : ∀ j : Fin 740000, (broadcastInDim Cert.ReferenceIdeal.S740000 ![] Cert.ReferenceIdeal.Facts₀.bcast_S_S740000 (constant (F := Ideal) Cert.ReferenceIdeal.S_ .f32 0x3F800000#32)) (ix1 j) = 1 := fun j => by
    rw [broadcastInDim_scalar_apply, constant_apply, Ideal.ofBits_one_f32]
  have hcol : ∀ j : Fin 740000, (broadcastInDim Cert.ReferenceIdeal.S740000x1 ![0] Cert.ReferenceIdeal.Facts₀.bcast_S740000_S740000x1_0 (concatenate Cert.ReferenceIdeal.S740000 0 [⟨Cert.ReferenceIdeal.S640000, a⟩, ⟨Cert.ReferenceIdeal.S100000, iotaInDim Cert.ReferenceIdeal.S100000 32 0⟩] Cert.ReferenceIdeal.Facts₀.concatenates_S640000_S100000_S740000_d0)) (ix2 j 0) = (concatenate Cert.ReferenceIdeal.S740000 0 [⟨Cert.ReferenceIdeal.S640000, a⟩, ⟨Cert.ReferenceIdeal.S100000, iotaInDim Cert.ReferenceIdeal.S100000 32 0⟩] Cert.ReferenceIdeal.Facts₀.concatenates_S640000_S100000_S740000_d0) (ix1 j) := fun j => by
    rw [bcastCol_apply]
  simp only [hone, hcol]
  have hl : ∀ j : Fin 640000, (concatenate Cert.ReferenceIdeal.S740000 0 [⟨Cert.ReferenceIdeal.S640000, a⟩, ⟨Cert.ReferenceIdeal.S100000, iotaInDim Cert.ReferenceIdeal.S100000 32 0⟩] Cert.ReferenceIdeal.Facts₀.concatenates_S640000_S100000_S740000_d0) (ix1 (Fin.castAdd 100000 j)) = a (ix1 j) :=
    fun j => concat1_left _ _ _ (Fin.castAdd 100000 j) j.isLt
  have hr : ∀ k : Fin 100000, (concatenate Cert.ReferenceIdeal.S740000 0 [⟨Cert.ReferenceIdeal.S640000, a⟩, ⟨Cert.ReferenceIdeal.S100000, iotaInDim Cert.ReferenceIdeal.S100000 32 0⟩] Cert.ReferenceIdeal.Facts₀.concatenates_S640000_S100000_S740000_d0) (ix1 (Fin.natAdd 640000 k)) = BitVec.ofNat 32 k.val :=
    fun k => (concat1_right _ _ _ k (by have := k.isLt; omega)).trans (iota1_apply 32 k)
  have key := count_concat_iota (n₁ := 640000) (M := 100000) (by norm_num) (fun j => a (ix1 j))
    (fun j => (concatenate Cert.ReferenceIdeal.S740000 0 [⟨Cert.ReferenceIdeal.S640000, a⟩, ⟨Cert.ReferenceIdeal.S100000, iotaInDim Cert.ReferenceIdeal.S100000 32 0⟩] Cert.ReferenceIdeal.Facts₀.concatenates_S640000_S100000_S740000_d0) (ix1 j)) hl hr i
  exact key

/-- THE TWO INVERSE SQUARE ROOTS OF THE DEGREES AGREE: the guarded inverse square root of the count over edges and
    self-loops is the inverse square root of the count over edges plus one, for every target row. -/
theorem dinv_eq (a : IVec Cert.KernelIdeal.S640000 32) :
    select (cmpf (F := Ideal) .ogt (Host.scatterAdd (F := Ideal) Cert.ReferenceIdeal.scatter_S100000_S740000x1_S740000_n_0_0_1 (broadcastInDim Cert.ReferenceIdeal.S100000 ![] Cert.ReferenceIdeal.Facts₀.bcast_S_S100000 (constant (F := Ideal) Cert.ReferenceIdeal.S_ .f32 0x00000000#32)) (broadcastInDim Cert.ReferenceIdeal.S740000x1 ![0] Cert.ReferenceIdeal.Facts₀.bcast_S740000_S740000x1_0 (concatenate Cert.ReferenceIdeal.S740000 0 [⟨Cert.ReferenceIdeal.S640000, a⟩, ⟨Cert.ReferenceIdeal.S100000, iotaInDim Cert.ReferenceIdeal.S100000 32 0⟩] Cert.ReferenceIdeal.Facts₀.concatenates_S640000_S100000_S740000_d0)) (broadcastInDim Cert.ReferenceIdeal.S740000 ![] Cert.ReferenceIdeal.Facts₀.bcast_S_S740000 (constant (F := Ideal) Cert.ReferenceIdeal.S_ .f32 0x3F800000#32))) (broadcastInDim Cert.ReferenceIdeal.S100000 ![] Cert.ReferenceIdeal.Facts₀.bcast_S_S100000 (constant (F := Ideal) Cert.ReferenceIdeal.S_ .f32 0x00000000#32))) (Host.rsqrt (Host.scatterAdd (F := Ideal) Cert.ReferenceIdeal.scatter_S100000_S740000x1_S740000_n_0_0_1 (broadcastInDim Cert.ReferenceIdeal.S100000 ![] Cert.ReferenceIdeal.Facts₀.bcast_S_S100000 (constant (F := Ideal) Cert.ReferenceIdeal.S_ .f32 0x00000000#32)) (broadcastInDim Cert.ReferenceIdeal.S740000x1 ![0] Cert.ReferenceIdeal.Facts₀.bcast_S740000_S740000x1_0 (concatenate Cert.ReferenceIdeal.S740000 0 [⟨Cert.ReferenceIdeal.S640000, a⟩, ⟨Cert.ReferenceIdeal.S100000, iotaInDim Cert.ReferenceIdeal.S100000 32 0⟩] Cert.ReferenceIdeal.Facts₀.concatenates_S640000_S100000_S740000_d0)) (broadcastInDim Cert.ReferenceIdeal.S740000 ![] Cert.ReferenceIdeal.Facts₀.bcast_S_S740000 (constant (F := Ideal) Cert.ReferenceIdeal.S_ .f32 0x3F800000#32)))) (broadcastInDim Cert.ReferenceIdeal.S100000 ![] Cert.ReferenceIdeal.Facts₀.bcast_S_S100000 (constant (F := Ideal) Cert.ReferenceIdeal.S_ .f32 0x00000000#32))
      = Host.rsqrt (addf (Host.scatterAdd (F := Ideal) Cert.KernelIdeal.scatter_S100000_S640000x1_S640000_n_0_0_1 (broadcastInDim Cert.KernelIdeal.S100000 ![] Cert.KernelIdeal.Facts₀.bcast_S_S100000 (constant (F := Ideal) Cert.KernelIdeal.S_ .f32 0x00000000#32)) (broadcastInDim Cert.KernelIdeal.S640000x1 ![0] Cert.KernelIdeal.Facts₀.bcast_S640000_S640000x1_0 a) (broadcastInDim Cert.KernelIdeal.S640000 ![] Cert.KernelIdeal.Facts₀.bcast_S_S640000 (constant (F := Ideal) Cert.KernelIdeal.S_ .f32 0x3F800000#32))) (broadcastInDim Cert.KernelIdeal.S100000 ![] Cert.KernelIdeal.Facts₀.bcast_S_S100000 (constant (F := Ideal) Cert.KernelIdeal.S_ .f32 0x3F800000#32))) := by
  funext i
  obtain ⟨i, rfl⟩ : ∃ i0 : Fin 100000, i = ix1 i0 := ⟨i 0, eq_ix1 i⟩
  have hz : (broadcastInDim Cert.ReferenceIdeal.S100000 ![] Cert.ReferenceIdeal.Facts₀.bcast_S_S100000 (constant (F := Ideal) Cert.ReferenceIdeal.S_ .f32 0x00000000#32)) (ix1 i) = 0 := by
    rw [broadcastInDim_scalar_apply, constant_apply, Ideal.ofBits_zero_f32]
  have hone : (broadcastInDim Cert.KernelIdeal.S100000 ![] Cert.KernelIdeal.Facts₀.bcast_S_S100000 (constant (F := Ideal) Cert.KernelIdeal.S_ .f32 0x3F800000#32)) (ix1 i) = 1 := by
    rw [broadcastInDim_scalar_apply, constant_apply, Ideal.ofBits_one_f32]
  exact guard_rsqrt _ _ _ _ i
    (∑ j : Fin 640000, if (a (ix1 j)).toInt = (i.val : Int) then (1 : EReal) else 0)
    (count_words_nonneg a (i.val : Int)) (deg740_apply a i) (deg640_apply a i) hz hone

end DegreeNorm

end
-- ==== Proof.EdgeWeight.lean ====
import proofs.«180835_j69956427317969_2_alg».proof.Proof.LibRowIndex
import proofs.«180835_j69956427317969_2_alg».proof.Proof.Gen.ReferenceIdeal
import proofs.«180835_j69956427317969_2_alg».proof.Proof.Gen.KernelIdeal

/-!
# The edge weights

Each edge `(s, t)` of the graph gets the weight `dinv[s] · dinv[t]`, where an index word is first normalised
(`x < 0 ↦ x + 100000`) and the read clamps it into `[0, 99999]`. One program computes the weights over the 740000-long
rows (the 640000 edges followed by the 100000 self-loops `(i, i)`), the other over the 640000 edges alone. On the
first 640000 entries the two agree, whatever the words are, since both apply the same normalisation and the same
clamped read to the same word; on entry `640000 + i` the long rows hold the word `i`, which the normalisation and
the clamp leave alone, so the weight is `dinv[i] · dinv[i]`.
-/

noncomputable section

namespace EdgeWeight

open Idealize.ShloMosaic Idealize.ShloMosaic.ValueIdx RowIndex
open scoped BigOperators

/-- The read of `dinv` at an index word: the word normalised (`v < 0 ↦ v + 100000`), read signed, clamped into
    `[0, 99999]`. -/
def readAt (dinv : (⟨1, ![100000]⟩ : Shape).Idx → EReal) (v : BitVec 32) : EReal :=
  dinv (ix1 ⟨min (Scalar.select (IntOp.cmpi .slt v 0#32) (IntOp.addi v 100000#32) v).toInt.toNat (100000 - 1),
    by omega⟩)

/-- At the word `i < 100000` the read is `dinv[i]`: the word is not negative and already in range. -/
theorem readAt_ofNat (dinv : (⟨1, ![100000]⟩ : Shape).Idx → EReal) (i : Fin 100000) :
    readAt dinv (BitVec.ofNat 32 i.val) = dinv (ix1 i) := by
  unfold readAt
  refine congrArg dinv (congrArg ix1 (Fin.ext ?_))
  have hi := i.isLt
  show min (Scalar.select (IntOp.cmpi .slt (BitVec.ofNat 32 i.val) 0#32)
    (IntOp.addi (BitVec.ofNat 32 i.val) 100000#32) (BitVec.ofNat 32 i.val)).toInt.toNat (100000 - 1) = i.val
  rw [nrm_ofNat32 _ (by omega), clamp_ofNat32 _ _ (by omega) (by omega)]

/-- The 740000-entry program's row gather is the row gather. -/
theorem gatherR_eq : Cert.ReferenceIdeal.gather_S100000_S740000x1_S740000_n_0_n_n_0_1_1 = rowGather 100000 740000 Cert.ReferenceIdeal.Facts₀.gather_S100000_S740000x1_S740000_n_0_n_n_0_1_1_wf := rfl

/-- The 640000-edge program's row gather is the row gather. -/
theorem gatherK_eq : Cert.KernelIdeal.gather_S100000_S640000x1_S640000_n_0_n_n_0_1_1 = rowGather 100000 640000 Cert.KernelIdeal.Facts₀.gather_S100000_S640000x1_S640000_n_0_n_n_0_1_1_wf := rfl

/-- The 740000-entry program's gather of `dinv` at the normalised words `x`, read at entry `j`. -/
theorem gatherR_apply (dinv : FVec Ideal Cert.KernelIdeal.S100000 .f32) (x : IVec Cert.ReferenceIdeal.S740000 32) (j : Fin 740000) :
    (Host.gather Cert.ReferenceIdeal.gather_S100000_S740000x1_S740000_n_0_n_n_0_1_1 dinv (broadcastInDim Cert.ReferenceIdeal.S740000x1 ![0] Cert.ReferenceIdeal.Facts₀.bcast_S740000_S740000x1_0 (select (cmpi .slt x (broadcastInDim Cert.ReferenceIdeal.S740000 ![] Cert.ReferenceIdeal.Facts₀.bcast_S_S740000 (constantI Cert.ReferenceIdeal.S_ 32 0#32))) (addi x (broadcastInDim Cert.ReferenceIdeal.S740000 ![] Cert.ReferenceIdeal.Facts₀.bcast_S_S740000 (constantI Cert.ReferenceIdeal.S_ 32 100000#32))) x))) (ix1 j) = readAt dinv (x (ix1 j)) := by
  rw [gatherR_eq, rowGather_apply (by norm_num)]
  unfold readAt
  refine congrArg dinv (congrArg ix1 (Fin.ext ?_))
  refine congrArg (fun v : BitVec 32 => min v.toInt.toNat (100000 - 1)) ?_
  rw [bcastCol_apply]
  rfl

/-- The 640000-edge program's gather of `dinv` at the normalised words `x`, read at edge `j`. -/
theorem gatherK_apply (dinv : FVec Ideal Cert.KernelIdeal.S100000 .f32) (x : IVec Cert.KernelIdeal.S640000 32) (j : Fin 640000) :
    (Host.gather Cert.KernelIdeal.gather_S100000_S640000x1_S640000_n_0_n_n_0_1_1 dinv (broadcastInDim Cert.KernelIdeal.S640000x1 ![0] Cert.KernelIdeal.Facts₀.bcast_S640000_S640000x1_0 (select (cmpi .slt x (broadcastInDim Cert.KernelIdeal.S640000 ![] Cert.KernelIdeal.Facts₀.bcast_S_S640000 (constantI Cert.KernelIdeal.S_ 32 0#32))) (addi x (broadcastInDim Cert.KernelIdeal.S640000 ![] Cert.KernelIdeal.Facts₀.bcast_S_S640000 (constantI Cert.KernelIdeal.S_ 32 100000#32))) x))) (ix1 j) = readAt dinv (x (ix1 j)) := by
  rw [gatherK_eq, rowGather_apply (by norm_num)]
  unfold readAt
  refine congrArg dinv (congrArg ix1 (Fin.ext ?_))
  refine congrArg (fun v : BitVec 32 => min v.toInt.toNat (100000 - 1)) ?_
  rw [bcastCol_apply]
  rfl

/-- A product of two rows at an index, from its factors at that index. -/
theorem mulf_point {s s' : Shape} (G1 G2 : FVec Ideal s .f32) (H1 H2 : FVec Ideal s' .f32) (j : s.Idx) (j' : s'.Idx)
    (h1 : G1 j = H1 j') (h2 : G2 j = H2 j') : mulf (F := Ideal) G1 G2 j = mulf (F := Ideal) H1 H2 j' := by
  rw [mulf_apply, mulf_apply, h1, h2]

/-- A product of two rows at an index, from the values of its factors there. -/
theorem mulf_point' {s : Shape} (G1 G2 : FVec Ideal s .f32) (j : s.Idx) (u v : EReal) (h1 : G1 j = u) (h2 : G2 j = v) :
    mulf (F := Ideal) G1 G2 j = u * v := by
  rw [mulf_apply, h1, h2]

/-- One factor of an edge's weight: the long gather at entry `j < 640000` is the short gather at edge `j`. -/
theorem gather_edge (dinv : FVec Ideal Cert.KernelIdeal.S100000 .f32) (x : IVec Cert.KernelIdeal.S640000 32) (j : Fin 640000) :
    (Host.gather Cert.ReferenceIdeal.gather_S100000_S740000x1_S740000_n_0_n_n_0_1_1 dinv (broadcastInDim Cert.ReferenceIdeal.S740000x1 ![0] Cert.ReferenceIdeal.Facts₀.bcast_S740000_S740000x1_0 (select (cmpi .slt (concatenate Cert.ReferenceIdeal.S740000 0 [⟨Cert.ReferenceIdeal.S640000, x⟩, ⟨Cert.ReferenceIdeal.S100000, iotaInDim Cert.ReferenceIdeal.S100000 32 0⟩] Cert.ReferenceIdeal.Facts₀.concatenates_S640000_S100000_S740000_d0) (broadcastInDim Cert.ReferenceIdeal.S740000 ![] Cert.ReferenceIdeal.Facts₀.bcast_S_S740000 (constantI Cert.ReferenceIdeal.S_ 32 0#32))) (addi (concatenate Cert.ReferenceIdeal.S740000 0 [⟨Cert.ReferenceIdeal.S640000, x⟩, ⟨Cert.ReferenceIdeal.S100000, iotaInDim Cert.ReferenceIdeal.S100000 32 0⟩] Cert.ReferenceIdeal.Facts₀.concatenates_S640000_S100000_S740000_d0) (broadcastInDim Cert.ReferenceIdeal.S740000 ![] Cert.ReferenceIdeal.Facts₀.bcast_S_S740000 (constantI Cert.ReferenceIdeal.S_ 32 100000#32))) (concatenate Cert.ReferenceIdeal.S740000 0 [⟨Cert.ReferenceIdeal.S640000, x⟩, ⟨Cert.ReferenceIdeal.S100000, iotaInDim Cert.ReferenceIdeal.S100000 32 0⟩] Cert.ReferenceIdeal.Facts₀.concatenates_S640000_S100000_S740000_d0)))) (ix1 ⟨j.val, by omega⟩) = (Host.gather Cert.KernelIdeal.gather_S100000_S640000x1_S640000_n_0_n_n_0_1_1 dinv (broadcastInDim Cert.KernelIdeal.S640000x1 ![0] Cert.KernelIdeal.Facts₀.bcast_S640000_S640000x1_0 (select (cmpi .slt x (broadcastInDim Cert.KernelIdeal.S640000 ![] Cert.KernelIdeal.Facts₀.bcast_S_S640000 (constantI Cert.KernelIdeal.S_ 32 0#32))) (addi x (broadcastInDim Cert.KernelIdeal.S640000 ![] Cert.KernelIdeal.Facts₀.bcast_S_S640000 (constantI Cert.KernelIdeal.S_ 32 100000#32))) x))) (ix1 j) := by
  have hx : (concatenate Cert.ReferenceIdeal.S740000 0 [⟨Cert.ReferenceIdeal.S640000, x⟩, ⟨Cert.ReferenceIdeal.S100000, iotaInDim Cert.ReferenceIdeal.S100000 32 0⟩] Cert.ReferenceIdeal.Facts₀.concatenates_S640000_S100000_S740000_d0) (ix1 (⟨j.val, by omega⟩ : Fin 740000)) = x (ix1 j) :=
    concat1_left _ _ _ (⟨j.val, by omega⟩ : Fin 740000) j.isLt
  exact (gatherR_apply dinv _ (⟨j.val, by omega⟩ : Fin 740000)).trans ((congrArg (readAt dinv) hx).trans (gatherK_apply dinv x j).symm)

/-- ON THE EDGES THE TWO WEIGHT ROWS AGREE: entry `j < 640000` of the 740000-long weights is edge `j`'s weight. -/
theorem weight_edge (dinv : FVec Ideal Cert.KernelIdeal.S100000 .f32) (a b : IVec Cert.KernelIdeal.S640000 32) (j : Fin 640000) :
    (mulf (F := Ideal) (Host.gather Cert.ReferenceIdeal.gather_S100000_S740000x1_S740000_n_0_n_n_0_1_1 dinv (broadcastInDim Cert.ReferenceIdeal.S740000x1 ![0] Cert.ReferenceIdeal.Facts₀.bcast_S740000_S740000x1_0 (select (cmpi .slt (concatenate Cert.ReferenceIdeal.S740000 0 [⟨Cert.ReferenceIdeal.S640000, a⟩, ⟨Cert.ReferenceIdeal.S100000, iotaInDim Cert.ReferenceIdeal.S100000 32 0⟩] Cert.ReferenceIdeal.Facts₀.concatenates_S640000_S100000_S740000_d0) (broadcastInDim Cert.ReferenceIdeal.S740000 ![] Cert.ReferenceIdeal.Facts₀.bcast_S_S740000 (constantI Cert.ReferenceIdeal.S_ 32 0#32))) (addi (concatenate Cert.ReferenceIdeal.S740000 0 [⟨Cert.ReferenceIdeal.S640000, a⟩, ⟨Cert.ReferenceIdeal.S100000, iotaInDim Cert.ReferenceIdeal.S100000 32 0⟩] Cert.ReferenceIdeal.Facts₀.concatenates_S640000_S100000_S740000_d0) (broadcastInDim Cert.ReferenceIdeal.S740000 ![] Cert.ReferenceIdeal.Facts₀.bcast_S_S740000 (constantI Cert.ReferenceIdeal.S_ 32 100000#32))) (concatenate Cert.ReferenceIdeal.S740000 0 [⟨Cert.ReferenceIdeal.S640000, a⟩, ⟨Cert.ReferenceIdeal.S100000, iotaInDim Cert.ReferenceIdeal.S100000 32 0⟩] Cert.ReferenceIdeal.Facts₀.concatenates_S640000_S100000_S740000_d0)))) (Host.gather Cert.ReferenceIdeal.gather_S100000_S740000x1_S740000_n_0_n_n_0_1_1 dinv (broadcastInDim Cert.ReferenceIdeal.S740000x1 ![0] Cert.ReferenceIdeal.Facts₀.bcast_S740000_S740000x1_0 (select (cmpi .slt (concatenate Cert.ReferenceIdeal.S740000 0 [⟨Cert.ReferenceIdeal.S640000, b⟩, ⟨Cert.ReferenceIdeal.S100000, iotaInDim Cert.ReferenceIdeal.S100000 32 0⟩] Cert.ReferenceIdeal.Facts₀.concatenates_S640000_S100000_S740000_d0) (broadcastInDim Cert.ReferenceIdeal.S740000 ![] Cert.ReferenceIdeal.Facts₀.bcast_S_S740000 (constantI Cert.ReferenceIdeal.S_ 32 0#32))) (addi (concatenate Cert.ReferenceIdeal.S740000 0 [⟨Cert.ReferenceIdeal.S640000, b⟩, ⟨Cert.ReferenceIdeal.S100000, iotaInDim Cert.ReferenceIdeal.S100000 32 0⟩] Cert.ReferenceIdeal.Facts₀.concatenates_S640000_S100000_S740000_d0) (broadcastInDim Cert.ReferenceIdeal.S740000 ![] Cert.ReferenceIdeal.Facts₀.bcast_S_S740000 (constantI Cert.ReferenceIdeal.S_ 32 100000#32))) (concatenate Cert.ReferenceIdeal.S740000 0 [⟨Cert.ReferenceIdeal.S640000, b⟩, ⟨Cert.ReferenceIdeal.S100000, iotaInDim Cert.ReferenceIdeal.S100000 32 0⟩] Cert.ReferenceIdeal.Facts₀.concatenates_S640000_S100000_S740000_d0))))) (ix1 ⟨j.val, by omega⟩)
      = (mulf (F := Ideal) (Host.gather Cert.KernelIdeal.gather_S100000_S640000x1_S640000_n_0_n_n_0_1_1 dinv (broadcastInDim Cert.KernelIdeal.S640000x1 ![0] Cert.KernelIdeal.Facts₀.bcast_S640000_S640000x1_0 (select (cmpi .slt a (broadcastInDim Cert.KernelIdeal.S640000 ![] Cert.KernelIdeal.Facts₀.bcast_S_S640000 (constantI Cert.KernelIdeal.S_ 32 0#32))) (addi a (broadcastInDim Cert.KernelIdeal.S640000 ![] Cert.KernelIdeal.Facts₀.bcast_S_S640000 (constantI Cert.KernelIdeal.S_ 32 100000#32))) a))) (Host.gather Cert.KernelIdeal.gather_S100000_S640000x1_S640000_n_0_n_n_0_1_1 dinv (broadcastInDim Cert.KernelIdeal.S640000x1 ![0] Cert.KernelIdeal.Facts₀.bcast_S640000_S640000x1_0 (select (cmpi .slt b (broadcastInDim Cert.KernelIdeal.S640000 ![] Cert.KernelIdeal.Facts₀.bcast_S_S640000 (constantI Cert.KernelIdeal.S_ 32 0#32))) (addi b (broadcastInDim Cert.KernelIdeal.S640000 ![] Cert.KernelIdeal.Facts₀.bcast_S_S640000 (constantI Cert.KernelIdeal.S_ 32 100000#32))) b)))) (ix1 j) :=
  mulf_point _ _ _ _ _ _ (gather_edge dinv a j) (gather_edge dinv b j)

/-- ON THE SELF-LOOPS THE WEIGHT IS `dinv[i]²`: entry `640000 + i` of the 740000-long weights. -/
theorem weight_loop (dinv : FVec Ideal Cert.KernelIdeal.S100000 .f32) (a b : IVec Cert.KernelIdeal.S640000 32) (i : Fin 100000) :
    (mulf (F := Ideal) (Host.gather Cert.ReferenceIdeal.gather_S100000_S740000x1_S740000_n_0_n_n_0_1_1 dinv (broadcastInDim Cert.ReferenceIdeal.S740000x1 ![0] Cert.ReferenceIdeal.Facts₀.bcast_S740000_S740000x1_0 (select (cmpi .slt (concatenate Cert.ReferenceIdeal.S740000 0 [⟨Cert.ReferenceIdeal.S640000, a⟩, ⟨Cert.ReferenceIdeal.S100000, iotaInDim Cert.ReferenceIdeal.S100000 32 0⟩] Cert.ReferenceIdeal.Facts₀.concatenates_S640000_S100000_S740000_d0) (broadcastInDim Cert.ReferenceIdeal.S740000 ![] Cert.ReferenceIdeal.Facts₀.bcast_S_S740000 (constantI Cert.ReferenceIdeal.S_ 32 0#32))) (addi (concatenate Cert.ReferenceIdeal.S740000 0 [⟨Cert.ReferenceIdeal.S640000, a⟩, ⟨Cert.ReferenceIdeal.S100000, iotaInDim Cert.ReferenceIdeal.S100000 32 0⟩] Cert.ReferenceIdeal.Facts₀.concatenates_S640000_S100000_S740000_d0) (broadcastInDim Cert.ReferenceIdeal.S740000 ![] Cert.ReferenceIdeal.Facts₀.bcast_S_S740000 (constantI Cert.ReferenceIdeal.S_ 32 100000#32))) (concatenate Cert.ReferenceIdeal.S740000 0 [⟨Cert.ReferenceIdeal.S640000, a⟩, ⟨Cert.ReferenceIdeal.S100000, iotaInDim Cert.ReferenceIdeal.S100000 32 0⟩] Cert.ReferenceIdeal.Facts₀.concatenates_S640000_S100000_S740000_d0)))) (Host.gather Cert.ReferenceIdeal.gather_S100000_S740000x1_S740000_n_0_n_n_0_1_1 dinv (broadcastInDim Cert.ReferenceIdeal.S740000x1 ![0] Cert.ReferenceIdeal.Facts₀.bcast_S740000_S740000x1_0 (select (cmpi .slt (concatenate Cert.ReferenceIdeal.S740000 0 [⟨Cert.ReferenceIdeal.S640000, b⟩, ⟨Cert.ReferenceIdeal.S100000, iotaInDim Cert.ReferenceIdeal.S100000 32 0⟩] Cert.ReferenceIdeal.Facts₀.concatenates_S640000_S100000_S740000_d0) (broadcastInDim Cert.ReferenceIdeal.S740000 ![] Cert.ReferenceIdeal.Facts₀.bcast_S_S740000 (constantI Cert.ReferenceIdeal.S_ 32 0#32))) (addi (concatenate Cert.ReferenceIdeal.S740000 0 [⟨Cert.ReferenceIdeal.S640000, b⟩, ⟨Cert.ReferenceIdeal.S100000, iotaInDim Cert.ReferenceIdeal.S100000 32 0⟩] Cert.ReferenceIdeal.Facts₀.concatenates_S640000_S100000_S740000_d0) (broadcastInDim Cert.ReferenceIdeal.S740000 ![] Cert.ReferenceIdeal.Facts₀.bcast_S_S740000 (constantI Cert.ReferenceIdeal.S_ 32 100000#32))) (concatenate Cert.ReferenceIdeal.S740000 0 [⟨Cert.ReferenceIdeal.S640000, b⟩, ⟨Cert.ReferenceIdeal.S100000, iotaInDim Cert.ReferenceIdeal.S100000 32 0⟩] Cert.ReferenceIdeal.Facts₀.concatenates_S640000_S100000_S740000_d0))))) (ix1 ⟨640000 + i.val, by omega⟩)
      = dinv (ix1 i) * dinv (ix1 i) := by
  have ha : (concatenate Cert.ReferenceIdeal.S740000 0 [⟨Cert.ReferenceIdeal.S640000, a⟩, ⟨Cert.ReferenceIdeal.S100000, iotaInDim Cert.ReferenceIdeal.S100000 32 0⟩] Cert.ReferenceIdeal.Facts₀.concatenates_S640000_S100000_S740000_d0) (ix1 (⟨640000 + i.val, by omega⟩ : Fin 740000)) = BitVec.ofNat 32 i.val :=
    (concat1_right _ _ _ i (by omega)).trans (iota1_apply 32 i)
  have hb : (concatenate Cert.ReferenceIdeal.S740000 0 [⟨Cert.ReferenceIdeal.S640000, b⟩, ⟨Cert.ReferenceIdeal.S100000, iotaInDim Cert.ReferenceIdeal.S100000 32 0⟩] Cert.ReferenceIdeal.Facts₀.concatenates_S640000_S100000_S740000_d0) (ix1 (⟨640000 + i.val, by omega⟩ : Fin 740000)) = BitVec.ofNat 32 i.val :=
    (concat1_right _ _ _ i (by omega)).trans (iota1_apply 32 i)
  exact mulf_point' (Host.gather Cert.ReferenceIdeal.gather_S100000_S740000x1_S740000_n_0_n_n_0_1_1 dinv (broadcastInDim Cert.ReferenceIdeal.S740000x1 ![0] Cert.ReferenceIdeal.Facts₀.bcast_S740000_S740000x1_0 (select (cmpi .slt (concatenate Cert.ReferenceIdeal.S740000 0 [⟨Cert.ReferenceIdeal.S640000, a⟩, ⟨Cert.ReferenceIdeal.S100000, iotaInDim Cert.ReferenceIdeal.S100000 32 0⟩] Cert.ReferenceIdeal.Facts₀.concatenates_S640000_S100000_S740000_d0) (broadcastInDim Cert.ReferenceIdeal.S740000 ![] Cert.ReferenceIdeal.Facts₀.bcast_S_S740000 (constantI Cert.ReferenceIdeal.S_ 32 0#32))) (addi (concatenate Cert.ReferenceIdeal.S740000 0 [⟨Cert.ReferenceIdeal.S640000, a⟩, ⟨Cert.ReferenceIdeal.S100000, iotaInDim Cert.ReferenceIdeal.S100000 32 0⟩] Cert.ReferenceIdeal.Facts₀.concatenates_S640000_S100000_S740000_d0) (broadcastInDim Cert.ReferenceIdeal.S740000 ![] Cert.ReferenceIdeal.Facts₀.bcast_S_S740000 (constantI Cert.ReferenceIdeal.S_ 32 100000#32))) (concatenate Cert.ReferenceIdeal.S740000 0 [⟨Cert.ReferenceIdeal.S640000, a⟩, ⟨Cert.ReferenceIdeal.S100000, iotaInDim Cert.ReferenceIdeal.S100000 32 0⟩] Cert.ReferenceIdeal.Facts₀.concatenates_S640000_S100000_S740000_d0)))) (Host.gather Cert.ReferenceIdeal.gather_S100000_S740000x1_S740000_n_0_n_n_0_1_1 dinv (broadcastInDim Cert.ReferenceIdeal.S740000x1 ![0] Cert.ReferenceIdeal.Facts₀.bcast_S740000_S740000x1_0 (select (cmpi .slt (concatenate Cert.ReferenceIdeal.S740000 0 [⟨Cert.ReferenceIdeal.S640000, b⟩, ⟨Cert.ReferenceIdeal.S100000, iotaInDim Cert.ReferenceIdeal.S100000 32 0⟩] Cert.ReferenceIdeal.Facts₀.concatenates_S640000_S100000_S740000_d0) (broadcastInDim Cert.ReferenceIdeal.S740000 ![] Cert.ReferenceIdeal.Facts₀.bcast_S_S740000 (constantI Cert.ReferenceIdeal.S_ 32 0#32))) (addi (concatenate Cert.ReferenceIdeal.S740000 0 [⟨Cert.ReferenceIdeal.S640000, b⟩, ⟨Cert.ReferenceIdeal.S100000, iotaInDim Cert.ReferenceIdeal.S100000 32 0⟩] Cert.ReferenceIdeal.Facts₀.concatenates_S640000_S100000_S740000_d0) (broadcastInDim Cert.ReferenceIdeal.S740000 ![] Cert.ReferenceIdeal.Facts₀.bcast_S_S740000 (constantI Cert.ReferenceIdeal.S_ 32 100000#32))) (concatenate Cert.ReferenceIdeal.S740000 0 [⟨Cert.ReferenceIdeal.S640000, b⟩, ⟨Cert.ReferenceIdeal.S100000, iotaInDim Cert.ReferenceIdeal.S100000 32 0⟩] Cert.ReferenceIdeal.Facts₀.concatenates_S640000_S100000_S740000_d0)))) (ix1 (⟨640000 + i.val, by omega⟩ : Fin 740000)) (dinv (ix1 i)) (dinv (ix1 i))
    ((gatherR_apply dinv (concatenate Cert.ReferenceIdeal.S740000 0 [⟨Cert.ReferenceIdeal.S640000, a⟩, ⟨Cert.ReferenceIdeal.S100000, iotaInDim Cert.ReferenceIdeal.S100000 32 0⟩] Cert.ReferenceIdeal.Facts₀.concatenates_S640000_S100000_S740000_d0) (⟨640000 + i.val, by omega⟩ : Fin 740000)).trans
      ((congrArg (readAt dinv) ha).trans (readAt_ofNat dinv i)))
    ((gatherR_apply dinv (concatenate Cert.ReferenceIdeal.S740000 0 [⟨Cert.ReferenceIdeal.S640000, b⟩, ⟨Cert.ReferenceIdeal.S100000, iotaInDim Cert.ReferenceIdeal.S100000 32 0⟩] Cert.ReferenceIdeal.Facts₀.concatenates_S640000_S100000_S740000_d0) (⟨640000 + i.val, by omega⟩ : Fin 740000)).trans
      ((congrArg (readAt dinv) hb).trans (readAt_ofNat dinv i)))

end EdgeWeight

end
-- ==== Proof.FoldGlue.lean ====
/-
  THE TWO PROGRAMS' HOST TERMS, SIDE BY SIDE.

  One program cuts the two rows of the edge array out under its own names for the shapes, the other under its own: the
  same reshape of the same slice, so the rows are equal outright.  And the aggregation with the self-loops appended
  (one scatter-add over 740000 entries, the entry weights the products of the inverse root degrees at the two ends) is
  the aggregation over the 640000 real edges plus the self-loop term — once the appended weight row is known to be the
  edge weights on its first 640000 entries and `d i · d i` on its last 100000, which is what the hypotheses `hE`, `hL`
  say; the two theorems `agg128_eq_of`, `agg64_eq_of` are the index-by-index identity of the aggregation modules, stated for
  the named terms.  The last section discharges the two hypotheses, and states that the inverse root degrees agree, from
  the degree and edge-weight modules (every node is named by exactly one self-loop entry, so the long count is the short
  count plus one and is positive; a self-loop entry carries its node number at both ends).
-/
import proofs.«180835_j69956427317969_2_alg».proof.Proof.KernelFold
import proofs.«180835_j69956427317969_2_alg».proof.Proof.RefFold
import proofs.«180835_j69956427317969_2_alg».proof.Proof.Aggregate128
import proofs.«180835_j69956427317969_2_alg».proof.Proof.Aggregate64
import proofs.«180835_j69956427317969_2_alg».proof.Proof.DegreeNorm
import proofs.«180835_j69956427317969_2_alg».proof.Proof.EdgeWeight

set_option maxRecDepth 16384

noncomputable section

namespace Cert.Bridge

open Idealize.ShloMosaic Idealize.ShloMosaic.ValueIdx

/-- The source row of the edge array is one array under the two programs' names. -/
theorem rowR0_eq (e : (⟨Cert.KernelIdeal.S2x640000, .i32⟩ : BufTy).Contents (Elt Ideal)) :
    Cert.ReferenceIdeal.Fold.rowR0 (F := Ideal) e = Cert.KernelIdeal.Fold.srcRow (F := Ideal) e := rfl

/-- The target row likewise. -/
theorem rowR1_eq (e : (⟨Cert.KernelIdeal.S2x640000, .i32⟩ : BufTy).Contents (Elt Ideal)) :
    Cert.ReferenceIdeal.Fold.rowR1 (F := Ideal) e = Cert.KernelIdeal.Fold.dstRow (F := Ideal) e := rfl

/-- The aggregation at 128 columns: appended self-loops against the separate self-loop term, given that the appended
    weight row restricts to the edge weights (`hE`) and to `d i · d i` on the self-loops (`hL`). -/
theorem agg128_eq_of (h : FVec Ideal Cert.KernelIdeal.S100000x128 .f32) (d : FVec Ideal Cert.KernelIdeal.S100000 .f32)
    (a b : IVec Cert.KernelIdeal.S640000 32)
    (hE : ∀ j : Fin 640000,
      Cert.ReferenceIdeal.Fold.normR (F := Ideal) d (Cert.ReferenceIdeal.Fold.catR (F := Ideal) a)
          (Cert.ReferenceIdeal.Fold.catR (F := Ideal) b) (ix1 ⟨j.val, by omega⟩)
        = Cert.KernelIdeal.Fold.edgeW (F := Ideal) d a b (ix1 j))
    (hL : ∀ i : Fin 100000,
      Cert.ReferenceIdeal.Fold.normR (F := Ideal) d (Cert.ReferenceIdeal.Fold.catR (F := Ideal) a)
          (Cert.ReferenceIdeal.Fold.catR (F := Ideal) b) (ix1 ⟨640000 + i.val, by omega⟩)
        = mulf (F := Ideal) (φ := .f32) d d (ix1 i)) :
    Cert.ReferenceIdeal.Fold.aggR128 (F := Ideal) h (Cert.ReferenceIdeal.Fold.catR (F := Ideal) a)
        (Cert.ReferenceIdeal.Fold.catR (F := Ideal) b)
        (Cert.ReferenceIdeal.Fold.normR (F := Ideal) d (Cert.ReferenceIdeal.Fold.catR (F := Ideal) a)
          (Cert.ReferenceIdeal.Fold.catR (F := Ideal) b))
      = Cert.KernelIdeal.Fold.agg128 (F := Ideal) h a b (Cert.KernelIdeal.Fold.edgeW (F := Ideal) d a b)
          (mulf (F := Ideal) (φ := .f32) d d) :=
  Aggregate128.agg128 h _ _ _ a b hE hL

/-- The aggregation at 64 columns, under the same two hypotheses. -/
theorem agg64_eq_of (h : FVec Ideal Cert.KernelIdeal.S100000x64 .f32) (d : FVec Ideal Cert.KernelIdeal.S100000 .f32)
    (a b : IVec Cert.KernelIdeal.S640000 32)
    (hE : ∀ j : Fin 640000,
      Cert.ReferenceIdeal.Fold.normR (F := Ideal) d (Cert.ReferenceIdeal.Fold.catR (F := Ideal) a)
          (Cert.ReferenceIdeal.Fold.catR (F := Ideal) b) (ix1 ⟨j.val, by omega⟩)
        = Cert.KernelIdeal.Fold.edgeW (F := Ideal) d a b (ix1 j))
    (hL : ∀ i : Fin 100000,
      Cert.ReferenceIdeal.Fold.normR (F := Ideal) d (Cert.ReferenceIdeal.Fold.catR (F := Ideal) a)
          (Cert.ReferenceIdeal.Fold.catR (F := Ideal) b) (ix1 ⟨640000 + i.val, by omega⟩)
        = mulf (F := Ideal) (φ := .f32) d d (ix1 i)) :
    Cert.ReferenceIdeal.Fold.aggR64 (F := Ideal) h (Cert.ReferenceIdeal.Fold.catR (F := Ideal) a)
        (Cert.ReferenceIdeal.Fold.catR (F := Ideal) b)
        (Cert.ReferenceIdeal.Fold.normR (F := Ideal) d (Cert.ReferenceIdeal.Fold.catR (F := Ideal) a)
          (Cert.ReferenceIdeal.Fold.catR (F := Ideal) b))
      = Cert.KernelIdeal.Fold.agg64 (F := Ideal) h a b (Cert.KernelIdeal.Fold.edgeW (F := Ideal) d a b)
          (mulf (F := Ideal) (φ := .f32) d d) :=
  Aggregate64.agg64 h _ _ _ a b hE hL

/-! ## The inverse root degrees and the entry weights of the two programs -/

/-- The inverse root degree over the appended target row (positive degrees kept, the guard always taken) is the
    inverse root of "edges into the node, plus one". -/
theorem dinv_eq (b : IVec Cert.KernelIdeal.S640000 32) :
    Cert.ReferenceIdeal.Fold.dinvR (F := Ideal) (Cert.ReferenceIdeal.Fold.catR (F := Ideal) b) = Cert.KernelIdeal.Fold.dinv (F := Ideal) b :=
  DegreeNorm.dinv_eq b

/-- On its first 640000 entries the appended weight row is the edge weights. -/
theorem normR_edge (d : FVec Ideal Cert.KernelIdeal.S100000 .f32) (a b : IVec Cert.KernelIdeal.S640000 32) (j : Fin 640000) :
    Cert.ReferenceIdeal.Fold.normR (F := Ideal) d (Cert.ReferenceIdeal.Fold.catR (F := Ideal) a)
        (Cert.ReferenceIdeal.Fold.catR (F := Ideal) b) (ix1 ⟨j.val, by omega⟩)
      = Cert.KernelIdeal.Fold.edgeW (F := Ideal) d a b (ix1 j) :=
  EdgeWeight.weight_edge d a b j

/-- On its last 100000 entries, the self-loops, it is `d i · d i`. -/
theorem normR_loop (d : FVec Ideal Cert.KernelIdeal.S100000 .f32) (a b : IVec Cert.KernelIdeal.S640000 32) (i : Fin 100000) :
    Cert.ReferenceIdeal.Fold.normR (F := Ideal) d (Cert.ReferenceIdeal.Fold.catR (F := Ideal) a)
        (Cert.ReferenceIdeal.Fold.catR (F := Ideal) b) (ix1 ⟨640000 + i.val, by omega⟩)
      = mulf (F := Ideal) (φ := .f32) d d (ix1 i) :=
  EdgeWeight.weight_loop d a b i

/-- The aggregation at 128 columns: the two programs' terms are one array. -/
theorem agg128_eq (h : FVec Ideal Cert.KernelIdeal.S100000x128 .f32) (d : FVec Ideal Cert.KernelIdeal.S100000 .f32)
    (a b : IVec Cert.KernelIdeal.S640000 32) :
    Cert.ReferenceIdeal.Fold.aggR128 (F := Ideal) h (Cert.ReferenceIdeal.Fold.catR (F := Ideal) a) (Cert.ReferenceIdeal.Fold.catR (F := Ideal) b)
        (Cert.ReferenceIdeal.Fold.normR (F := Ideal) d (Cert.ReferenceIdeal.Fold.catR (F := Ideal) a)
        (Cert.ReferenceIdeal.Fold.catR (F := Ideal) b))
      = Cert.KernelIdeal.Fold.agg128 (F := Ideal) h a b (Cert.KernelIdeal.Fold.edgeW (F := Ideal) d a b) (mulf (F := Ideal) (φ := .f32) d d) :=
  agg128_eq_of h d a b (normR_edge d a b) (normR_loop d a b)

/-- The aggregation at 64 columns likewise. -/
theorem agg64_eq (h : FVec Ideal Cert.KernelIdeal.S100000x64 .f32) (d : FVec Ideal Cert.KernelIdeal.S100000 .f32)
    (a b : IVec Cert.KernelIdeal.S640000 32) :
    Cert.ReferenceIdeal.Fold.aggR64 (F := Ideal) h (Cert.ReferenceIdeal.Fold.catR (F := Ideal) a) (Cert.ReferenceIdeal.Fold.catR (F := Ideal) b)
        (Cert.ReferenceIdeal.Fold.normR (F := Ideal) d (Cert.ReferenceIdeal.Fold.catR (F := Ideal) a)
        (Cert.ReferenceIdeal.Fold.catR (F := Ideal) b))
      = Cert.KernelIdeal.Fold.agg64 (F := Ideal) h a b (Cert.KernelIdeal.Fold.edgeW (F := Ideal) d a b) (mulf (F := Ideal) (φ := .f32) d d) :=
  agg64_eq_of h d a b (normR_edge d a b) (normR_loop d a b)

end Cert.Bridge

end
-- ==== Proof.BiasRow.lean ====
import proofs.«180835_j69956427317969_2_alg».proof.Proof.Gen.KernelIdeal
import proofs.«180835_j69956427317969_2_alg».proof.Proof.Gen.ReferenceIdeal
import Idealize.ShloMosaic.Lib.ValueLayout
import Idealize.ShloMosaic.PureOps.Ideal

/-! A bias vector of length `a` laid out as a single row `[1, a]`. One program reshapes the vector to a row,
the other broadcasts it along a new leading unit axis: both are the row whose entry `i` is the vector's entry `i`,
so the two rows are equal. -/

namespace Cert.Bridge

open Idealize.ShloMosaic Idealize.ShloMosaic.ValueIdx Idealize.SL.Sem

variable {α : Type}

/-- A length-`a` vector broadcast to `[1, a]` along its own axis reads, at `(u, i)`, the vector at `i`. -/
theorem broadcastInDim_a_1a_apply {a : ℕ} (x : (⟨1, ![a]⟩ : Shape).Idx → α)
    (h : (⟨1, ![a]⟩ : Shape).BroadcastsInDim ⟨2, ![1, a]⟩ (![1] : Fin 1 → Fin 2)) (u : Fin 1) (i : Fin a) :
    broadcastInDim ⟨2, ![1, a]⟩ ![1] h x (ix2 u i) = x (ix1 i) := by
  refine broadcastInDim_apply ![1] h x (ix2 u i) (ix1 i) fun ax => ?_
  match ax with
  | ⟨0, _⟩ =>
    show i.val = if a = 1 then 0 else i.val
    split
    · have := i.isLt; omega
    · rfl

/-- The reshape of a length-`a` vector to a row and its broadcast to a row are the same row. -/
theorem reshape_row_eq_broadcast_row {a : ℕ} (b : (⟨1, ![a]⟩ : Shape).Idx → α)
    (h : (⟨1, ![a]⟩ : Shape).ShapeCasts ⟨2, ![1, a]⟩)
    (h' : (⟨1, ![a]⟩ : Shape).BroadcastsInDim ⟨2, ![1, a]⟩ (![1] : Fin 1 → Fin 2)) :
    shapeCast ⟨2, ![1, a]⟩ b h = broadcastInDim ⟨2, ![1, a]⟩ ![1] h' b := by
  funext j
  obtain ⟨u, i, rfl⟩ : ∃ (u : Fin 1) (i : Fin a), j = ix2 u i := ⟨j 0, j 1, eq_ix2 j⟩
  rw [shapeCast_a_1a_apply b h u i, broadcastInDim_a_1a_apply b h' u i]

/-- The first layer's bias (length 128): reshaped to a row, it is the row the reference broadcasts. -/
theorem biasRow128 (b : FVec Ideal Cert.KernelIdeal.S128 .f32) :
    shapeCast Cert.KernelIdeal.S1x128 b Cert.KernelIdeal.Facts₀.shapeCasts_S128_S1x128
      = broadcastInDim Cert.ReferenceIdeal.S1x128 ![1] Cert.ReferenceIdeal.Facts₀.bcast_S128_S1x128_1 b :=
  reshape_row_eq_broadcast_row b _ _

/-- The second layer's bias (length 64) likewise. -/
theorem biasRow64 (b : FVec Ideal Cert.KernelIdeal.S64 .f32) :
    shapeCast Cert.KernelIdeal.S1x64 b Cert.KernelIdeal.Facts₀.shapeCasts_S64_S1x64
      = broadcastInDim Cert.ReferenceIdeal.S1x64 ![1] Cert.ReferenceIdeal.Facts₀.bcast_S64_S1x64_1 b :=
  reshape_row_eq_broadcast_row b _ _

end Cert.Bridge
-- ==== Proof.ValueEq.lean ====
/-
  THE TWO PROGRAMS COMPUTE ONE FUNCTION OF THEIR SIX ARGUMENTS.

  Both results are built from the same layers: the product `x · W1`; the aggregation of its rows over the graph; the
  bias row added and the maximum with zero; the product with `W2`; the aggregation again at 64 columns; the bias row
  added and the row-wise log-softmax.  The products and the log-softmax are the same operation on both sides, so each
  layer's equality follows from the layer before by congruence, and only two kinds of step say anything:
  • the aggregation: one program appends the self-loops to the edge rows and scatter-adds once with the entry weights
    `dinv[src] · dinv[dst]`, the other scatter-adds the real edges and adds `dinv i · dinv i · h i` afterwards — equal
    once the inverse root degrees agree (`hP2`) and the appended weight row restricts to the edge weights (`hPE`) and to
    `dinv i · dinv i` on the self-loops (`hPL`);
  • the bias row: a vector reshaped to one row is the vector broadcast to one row.
-/
import proofs.«180835_j69956427317969_2_alg».proof.Proof.FoldGlue
import proofs.«180835_j69956427317969_2_alg».proof.Proof.RefValue
import proofs.«180835_j69956427317969_2_alg».proof.Proof.KernelValue
import proofs.«180835_j69956427317969_2_alg».proof.Proof.BiasRow

set_option maxRecDepth 16384

noncomputable section

namespace Cert.Bridge

open Idealize.ShloMosaic Idealize.ShloMosaic.ValueIdx

section
variable
  (hP2 : ∀ b : IVec Cert.KernelIdeal.S640000 32,
    Cert.ReferenceIdeal.Fold.dinvR (F := Ideal) (Cert.ReferenceIdeal.Fold.catR (F := Ideal) b) = Cert.KernelIdeal.Fold.dinv (F := Ideal) b)
  (hPE : ∀ (d : FVec Ideal Cert.KernelIdeal.S100000 .f32) (a b : IVec Cert.KernelIdeal.S640000 32) (j : Fin 640000),
    Cert.ReferenceIdeal.Fold.normR (F := Ideal) d (Cert.ReferenceIdeal.Fold.catR (F := Ideal) a) (Cert.ReferenceIdeal.Fold.catR (F := Ideal) b) (ix1 ⟨j.val, by omega⟩)
      = Cert.KernelIdeal.Fold.edgeW (F := Ideal) d a b (ix1 j))
  (hPL : ∀ (d : FVec Ideal Cert.KernelIdeal.S100000 .f32) (a b : IVec Cert.KernelIdeal.S640000 32) (i : Fin 100000),
    Cert.ReferenceIdeal.Fold.normR (F := Ideal) d (Cert.ReferenceIdeal.Fold.catR (F := Ideal) a) (Cert.ReferenceIdeal.Fold.catR (F := Ideal) b) (ix1 ⟨640000 + i.val, by omega⟩)
      = mulf (F := Ideal) (φ := .f32) d d (ix1 i))
include hP2 hPE hPL

theorem a1_eq (x : FVec Ideal Cert.KernelIdeal.S100000x128 .f32) (e : Cert.KernelIdeal.Out.EdgeArr) (W1 : FVec Ideal Cert.KernelIdeal.S128x128 .f32) :
    Cert.ReferenceIdeal.Out.a1 x e W1 = Cert.KernelIdeal.Out.a1 x e W1 := by
  unfold Cert.ReferenceIdeal.Out.a1 Cert.KernelIdeal.Out.a1 Cert.ReferenceIdeal.Out.wAll Cert.ReferenceIdeal.Out.srcAll Cert.ReferenceIdeal.Out.dstAll Cert.KernelIdeal.Out.dinvOf
  rw [rowR0_eq, rowR1_eq, hP2]
  exact agg128_eq_of _ _ _ _ (hPE _ _ _) (hPL _ _ _)

theorem h2_eq (x : FVec Ideal Cert.KernelIdeal.S100000x128 .f32) (e : Cert.KernelIdeal.Out.EdgeArr) (W1 : FVec Ideal Cert.KernelIdeal.S128x128 .f32)
    (b1 : FVec Ideal Cert.KernelIdeal.S128 .f32) (W2 : FVec Ideal Cert.KernelIdeal.S128x64 .f32) :
    Cert.ReferenceIdeal.Out.h2 x e W1 b1 W2 = Cert.KernelIdeal.Out.h2 x e W1 b1 W2 := by
  unfold Cert.ReferenceIdeal.Out.h2 Cert.KernelIdeal.Out.h2
  rw [a1_eq hP2 hPE hPL, biasRow128]

theorem a2_eq (x : FVec Ideal Cert.KernelIdeal.S100000x128 .f32) (e : Cert.KernelIdeal.Out.EdgeArr) (W1 : FVec Ideal Cert.KernelIdeal.S128x128 .f32)
    (b1 : FVec Ideal Cert.KernelIdeal.S128 .f32) (W2 : FVec Ideal Cert.KernelIdeal.S128x64 .f32) :
    Cert.ReferenceIdeal.Out.a2 x e W1 b1 W2 = Cert.KernelIdeal.Out.a2 x e W1 b1 W2 := by
  unfold Cert.ReferenceIdeal.Out.a2 Cert.KernelIdeal.Out.a2 Cert.ReferenceIdeal.Out.wAll Cert.ReferenceIdeal.Out.srcAll Cert.ReferenceIdeal.Out.dstAll Cert.KernelIdeal.Out.dinvOf
  rw [rowR0_eq, rowR1_eq, hP2, h2_eq hP2 hPE hPL]
  exact agg64_eq_of _ _ _ _ (hPE _ _ _) (hPL _ _ _)

theorem out_eq_of (x : FVec Ideal Cert.KernelIdeal.S100000x128 .f32) (e : Cert.KernelIdeal.Out.EdgeArr) (W1 : FVec Ideal Cert.KernelIdeal.S128x128 .f32)
    (b1 : FVec Ideal Cert.KernelIdeal.S128 .f32) (W2 : FVec Ideal Cert.KernelIdeal.S128x64 .f32) (b2 : FVec Ideal Cert.KernelIdeal.S64 .f32) :
    Cert.ReferenceIdeal.Out.out x e W1 b1 W2 b2 = Cert.KernelIdeal.Out.out x e W1 b1 W2 b2 := by
  unfold Cert.ReferenceIdeal.Out.out Cert.KernelIdeal.Out.out
  rw [a2_eq hP2 hPE hPL, biasRow64]

end

/-- THE TWO PROGRAMS' RESULTS ARE ONE FUNCTION of the features `x`, the edge array `e`, and the two layers' weights and
    biases: the three facts about the graph (the inverse root degrees agree; the appended weight row is the edge
    weights, then `dinv i · dinv i`) hold for every edge array. -/
theorem out_eq (x : FVec Ideal Cert.KernelIdeal.S100000x128 .f32) (e : Cert.KernelIdeal.Out.EdgeArr)
    (W1 : FVec Ideal Cert.KernelIdeal.S128x128 .f32) (b1 : FVec Ideal Cert.KernelIdeal.S128 .f32)
    (W2 : FVec Ideal Cert.KernelIdeal.S128x64 .f32) (b2 : FVec Ideal Cert.KernelIdeal.S64 .f32) :
    Cert.ReferenceIdeal.Out.out x e W1 b1 W2 b2 = Cert.KernelIdeal.Out.out x e W1 b1 W2 b2 :=
  out_eq_of dinv_eq normR_edge normR_loop x e W1 b1 W2 b2

end Cert.Bridge

end
-- ==== Proof.lean ====
/-
  Two-layer graph convolution with symmetric normalization and self-loops, followed by a row-wise log-softmax, on
  100000 nodes, 640000 edges, 128 → 128 → 64 features: a kernel program of three pipelined regions (x·W1; bias,
  maximum with zero and ·W2; bias and log-softmax) among host gathers and scatter-adds, against a reference written
  with plain array operations.

  Both programs compute, for each node i, the degree deg i = (number of edges whose target is i) + 1 and
  dinv i = deg i ^ (-1/2), and twice aggregate rows h into  out i = Σ_{edges j→i} dinv j · dinv i · h j  +  dinv i · dinv i · h i.
  The reference appends the 100000 self-loops i→i to the edge list and makes ONE scatter-add over the 740000 entries
  (and so counts the self-loop inside the degree, guarding the root by "degree positive"); the kernel program
  scatter-adds over the 640000 real edges and adds the self-loop term, and the one in the degree, separately. Over the
  extended reals a scatter-add is the exact sum of the updates landing on each element (an update landing outside is
  dropped, a gather clamps its index), so the two differ by splitting a finite sum at entry 640000 and by the order of
  the factors: associativity and commutativity of + and ·, which hold on the extended reals. No finiteness is used:
  the precondition is never opened. Every edge entry is an arbitrary 32-bit word; both programs normalize, clamp and
  drop out-of-range entries by the same operations, so they agree on those too. The degree is at least one, so the
  reference's guard is always taken. A change of float format is the identity on extended reals, so the kernel's
  narrowed products are the reference's products, and a matrix unit's product into a zero accumulator, block of rows by
  block of rows, is the one whole product.

  The frames of the two kernel programs are the generated ones. The reference's run is its generated list of
  operations run in order, its result read back in five stages (Proof/RefFold.lean); the kernel program's run names
  its result at the last boundary of its fold through the regions (Proof/KernelRun.lean, Proof/KernelFold.lean). Each
  side's result is one function of the six arguments (Proof/KernelValue.lean, Proof/RefValue.lean) and the two
  functions are equal (Proof/ValueEq.lean).
-/
import proofs.«180835_j69956427317969_2_alg».proof.Defs
import proofs.«180835_j69956427317969_2_alg».proof.Proof.Gen.Kernel
import proofs.«180835_j69956427317969_2_alg».proof.Proof.Gen.Kernel.Skeleton
import proofs.«180835_j69956427317969_2_alg».proof.Proof.Gen.Kernel.Launch
import proofs.«180835_j69956427317969_2_alg».proof.Proof.Gen.Kernel.Points
import proofs.«180835_j69956427317969_2_alg».proof.Proof.Gen.Kernel.Frame
import proofs.«180835_j69956427317969_2_alg».proof.Proof.Gen.KernelIdeal
import proofs.«180835_j69956427317969_2_alg».proof.Proof.Gen.KernelIdeal.Skeleton
import proofs.«180835_j69956427317969_2_alg».proof.Proof.Gen.KernelIdeal.Launch
import proofs.«180835_j69956427317969_2_alg».proof.Proof.Gen.KernelIdeal.Points
import proofs.«180835_j69956427317969_2_alg».proof.Proof.Gen.KernelIdeal.Frame
import proofs.«180835_j69956427317969_2_alg».proof.Proof.Gen.ReferenceIdeal
import proofs.«180835_j69956427317969_2_alg».proof.Proof.Gen.Pre_finite_inputs
import proofs.«180835_j69956427317969_2_alg».proof.Proof.RefRun
import proofs.«180835_j69956427317969_2_alg».proof.Proof.KernelRun
import proofs.«180835_j69956427317969_2_alg».proof.Proof.KernelValue
import proofs.«180835_j69956427317969_2_alg».proof.Proof.RefValue
import proofs.«180835_j69956427317969_2_alg».proof.Proof.ValueEq
import Idealize.ShloMosaic.Adequacy
import Idealize.ShloMosaic.Init

noncomputable section

namespace Cert.Proof

open Idealize.ShloMosaic Idealize.SL.Sem Idealize.ShloMosaic.StableHlo

/-- The reference's result, from a memory that agrees with the kernel program's on the six arguments, is the kernel
    program's: the reference's fold is its value function of the arguments, the arguments agree, the two value
    functions are equal, and the kernel program's value function is its result buffer at the last boundary. -/
theorem result_agree
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    after (Cert.ReferenceIdeal.ValueP.ops (F := Ideal)) (launchContents m' c) (Proc.devRef .tc Cert.ReferenceIdeal.main_v97)
      = Cert.KernelIdeal.Gen.W6 m ρ c (Proc.devRef .tc Cert.KernelIdeal.main_v69) := by
  rw [Cert.ReferenceIdeal.Fold.after_ops, Cert.ReferenceIdeal.Out.result_eq, h0, h1, h2, h3, h4, h5,
    Cert.KernelIdeal.Out.result_eq]
  exact Cert.Bridge.out_eq _ _ _ _ _ _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.ValueP.run (F := Ideal) m ρ),
  trivial,
  fun m ρ m' ρ' _ hagree =>
    ⟨fun c => Cert.KernelIdeal.Gen.W6 m ρ c (Proc.devRef .tc Cert.KernelIdeal.main_v69),
      Cert.KernelIdeal.RunValue.run_named (F := Ideal) m ρ,
      (θ_run Cert.ReferenceIdeal.defs _ _).mono
        (fun _ h c => ⟨(h c).1.trans (result_agree m ρ m' c (hagree c).1 (hagree c).2.1 (hagree c).2.2.1 (hagree c).2.2.2.1
            (hagree c).2.2.2.2.1 (hagree c).2.2.2.2.2), (h c).2⟩)
        (Cert.ReferenceIdeal.ValueP.run (F := Ideal) m' ρ')⟩⟩

end Cert.Proof

end
